-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S65536x512 : Shape := ⟨2, ![65536, 512]⟩
abbrev S2x524288 : Shape := ⟨2, ![2, 524288]⟩
abbrev S65536 : Shape := ⟨1, ![65536]⟩
abbrev S8192 : Shape := ⟨1, ![8192]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S256x1 .f32) (main_arg11 : FVec F S1 .f32) (main_v33 : IVec S_ 1) : IVec S_ 1 :=
  let main_v34 : FVec F S256x1 .f32 := Host.absf main_arg10
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S256 .f32) (main_arg8 : FVec F S256x1 .f32) (main_arg9 : FVec F S1 .f32) (main_arg10 : FVec F S256x1 .f32) (main_arg11 : FVec F S1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg8
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg10 main_arg11 main_v33

def fn {F : FTy → Type} [FloatOps F] (main_arg0 : FVec F S65536x3 .f32) (main_arg1 : FVec F S65536x512 .f32) (main_arg2 : FVec F S65536x3 .f32) (main_arg3 : IVec S2x524288 32) (main_arg4 : IVec S65536 1) (main_arg5 : IVec S8192 32) (main_arg6 : FVec F S512x256 .f32) (main_arg7 : FVec F S256 .f32) (main_arg8 : FVec F S256x1 .f32) (main_arg9 : FVec F S1 .f32) (main_arg10 : FVec F S256x1 .f32) (main_arg11 : FVec F S1 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x3 .f32 := Host.absf main_arg2
  let main_cst_2 : FVec F S_ .f32 := constant S_ .f32 0x7F800000#32
  let main_v10 : FVec F S65536x3 .f32 := broadcastInDim S65536x3 ![] bcast_S_S65536x3 main_cst_2
  let main_v11 : IVec S65536x3 1 := cmpf .olt main_v9 main_v10
  let main_c_3 : IVec S_ 1 := constantI S_ 1 1#1
  let main_v12 : IVec S_ 1 := (fun x v => Host.reduce IntOp.andi x v reducesTo_S65536x3_S_d0_1 h_S_) main_v11 main_c_3
  let main_v13 : IVec S_ 1 := andi main_v8 main_v12
  let main_v14 : FVec F S512x256 .f32 := Host.absf main_arg6
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg7 main_arg8 main_arg9 main_arg10 main_arg11 main_v13 main_v16
-- ==== Kernel.lean ====
abbrev S65536x3 : Shape := ⟨2, ![65536, 3]⟩
abbrev S65536x512 : Shape := ⟨2, ![65536, 512]⟩
abbrev S2x524288 : Shape := ⟨2, ![2, 524288]⟩
abbrev S65536 : Shape := ⟨1, ![65536]⟩
abbrev S8192 : Shape := ⟨1, ![8192]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S65536x2 : Shape := ⟨2, ![65536, 2]⟩
abbrev S2048x512 : Shape := ⟨2, ![2048, 512]⟩
abbrev S2048x2 : Shape := ⟨2, ![2048, 2]⟩
abbrev S2048x256 : Shape := ⟨2, ![2048, 256]⟩
abbrev S2048x1 : Shape := ⟨2, ![2048, 1]⟩
abbrev S65536x1 : Shape := ⟨2, ![65536, 1]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x3 : Shape := ⟨2, ![524288, 3]⟩
abbrev S8192x1 : Shape := ⟨2, ![8192, 1]⟩
abbrev S8192x3 : Shape := ⟨2, ![8192, 3]⟩
abbrev S512x3 : Shape := ⟨2, ![512, 3]⟩
abbrev S512x1 : Shape := ⟨2, ![512, 1]⟩
abbrev S512 : Shape := ⟨1, ![512]⟩
abbrev S3x512 : Shape := ⟨2, ![3, 512]⟩
abbrev S512x512 : Shape := ⟨2, ![512, 512]⟩
abbrev S1x512 : Shape := ⟨2, ![1, 512]⟩

abbrev nBuf : Space → Nat
  | .hbm => 134
  | .vmem => 18
  | .smem => 0
  | _ => 0

abbrev hbmTy0_0 (i : Nat) : BufTy := match i % 128 with
  | 0 => ⟨S65536x3, .f32⟩
  | 1 => ⟨S65536x512, .f32⟩
  | 2 => ⟨S65536x3, .f32⟩
  | 3 => ⟨S2x524288, .i32⟩
  | 4 => ⟨S65536, .i1⟩
  | 5 => ⟨S8192, .i32⟩
  | 6 => ⟨S512x256, .f32⟩
  | 7 => ⟨S256, .f32⟩
  | 8 => ⟨S256x1, .f32⟩
  | 9 => ⟨S1, .f32⟩
  | 10 => ⟨S256x1, .f32⟩
  | 11 => ⟨S1, .f32⟩
  | 12 => ⟨S1x256, .f32⟩
  | 13 => ⟨S1x1, .f32⟩
  | 14 => ⟨S1x1, .f32⟩
  | 15 => ⟨S65536x2, .f32⟩
  | 16 => ⟨S65536x1, .f32⟩
  | 17 => ⟨S65536x1, .f32⟩
  | 18 => ⟨S1x524288, .i32⟩
  | 19 => ⟨S524288, .i32⟩
  | 20 => ⟨S1x524288, .i32⟩
  | 21 => ⟨S524288, .i32⟩
  | 22 => ⟨S_, .i32⟩
  | 23 => ⟨S524288, .i32⟩
  | 24 => ⟨S524288, .i1⟩
  | 25 => ⟨S_, .i32⟩
  | 26 => ⟨S524288, .i32⟩
  | 27 => ⟨S524288, .i32⟩
  | 28 => ⟨S524288, .i32⟩
  | 29 => ⟨S524288x1, .i32⟩
  | 30 => ⟨S524288x3, .f32⟩
  | 31 => ⟨S_, .i32⟩
  | 32 => ⟨S524288, .i32⟩
  | 33 => ⟨S524288, .i1⟩
  | 34 => ⟨S_, .i32⟩
  | 35 => ⟨S524288, .i32⟩
  | 36 => ⟨S524288, .i32⟩
  | 37 => ⟨S524288, .i32⟩
  | 38 => ⟨S524288x1, .i32⟩
  | 39 => ⟨S524288x3, .f32⟩
  | 40 => ⟨S524288x3, .f32⟩
  | 41 => ⟨S524288x3, .f32⟩
  | 42 => ⟨S_, .f32⟩
  | 43 => ⟨S524288, .f32⟩
  | 44 => ⟨S_, .f32⟩
  | 45 => ⟨S524288, .f32⟩
  | 46 => ⟨S524288, .f32⟩
  | 47 => ⟨S524288, .f32⟩
  | 48 => ⟨S_, .f32⟩
  | 49 => ⟨S524288, .f32⟩
  | 50 => ⟨S524288, .f32⟩
  | 51 => ⟨S_, .i32⟩
  | 52 => ⟨S524288, .i32⟩
  | 53 => ⟨S524288, .i1⟩
  | 54 => ⟨S_, .i32⟩
  | 55 => ⟨S524288, .i32⟩
  | 56 => ⟨S524288, .i32⟩
  | 57 => ⟨S524288, .i32⟩
  | 58 => ⟨S524288x1, .i32⟩
  | 59 => ⟨S524288, .i1⟩
  | 60 => ⟨S_, .i32⟩
  | 61 => ⟨S524288, .i32⟩
  | 62 => ⟨S524288, .i1⟩
  | 63 => ⟨S_, .i32⟩
  | 64 => ⟨S524288, .i32⟩
  | 65 => ⟨S524288, .i32⟩
  | 66 => ⟨S524288, .i32⟩
  | 67 => ⟨S524288x1, .i32⟩
  | 68 => ⟨S524288, .i1⟩
  | 69 => ⟨S524288, .i1⟩
  | 70 => ⟨S524288, .f32⟩
  | 71 => ⟨S_, .f32⟩
  | 72 => ⟨S524288, .f32⟩
  | 73 => ⟨S524288, .f32⟩
  | 74 => ⟨S524288, .f32⟩
  | 75 => ⟨S524288, .f32⟩
  | 76 => ⟨S524288, .f32⟩
  | 77 => ⟨S524288x1, .f32⟩
  | 78 => ⟨S524288x3, .f32⟩
  | 79 => ⟨S524288x3, .f32⟩
  | 80 => ⟨S_, .f32⟩
  | 81 => ⟨S65536x3, .f32⟩
  | 82 => ⟨S_, .i32⟩
  | 83 => ⟨S524288, .i32⟩
  | 84 => ⟨S524288, .i1⟩
  | 85 => ⟨S_, .i32⟩
  | 86 => ⟨S524288, .i32⟩
  | 87 => ⟨S524288, .i32⟩
  | 88 => ⟨S524288, .i32⟩
  | 89 => ⟨S524288x1, .i32⟩
  | 90 => ⟨S65536x3, .f32⟩
  | 91 => ⟨S524288x3, .f32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S524288x1, .i32⟩
  | 100 => ⟨S65536x3, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S8192x3, .f32⟩
  | 110 => ⟨S8192x3, .f32⟩
  | 111 => ⟨S_, .f32⟩
  | 112 => ⟨S65536x3, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S65536x3, .f32⟩
  | 122 => ⟨S_, .f32⟩
  | 123 => ⟨S65536x1, .f32⟩
  | 124 => ⟨S65536x1, .f32⟩
  | 125 => ⟨S65536x3, .f32⟩
  | 126 => ⟨S65536x3, .f32⟩
  | 127 => ⟨S65536x3, .f32⟩
  | _ => ⟨S65536x3, .f32⟩

abbrev hbmTy0_1 (i : Nat) : BufTy := match i % 128 with
  | 0 => ⟨S_, .f32⟩
  | 1 => ⟨S65536x1, .f32⟩
  | 2 => ⟨S65536x1, .f32⟩
  | 3 => ⟨S65536x3, .f32⟩
  | 4 => ⟨S65536x3, .f32⟩
  | 5 => ⟨S65536x3, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S1x256, .f32⟩
  | .local _ .vmem, ⟨4, _⟩ => ⟨S256x1, .f32⟩
  | .local _ .vmem, ⟨5, _⟩ => ⟨S1x1, .f32⟩
  | .local _ .vmem, ⟨6, _⟩ => ⟨S256x1, .f32⟩
  | .local _ .vmem, ⟨7, _⟩ => ⟨S1x1, .f32⟩
  | .local _ .vmem, ⟨8, _⟩ => ⟨S2048x2, .f32⟩
  | .local _ .vmem, ⟨9, _⟩ => ⟨S2048x2, .f32⟩
  | .local _ .vmem, ⟨10, _⟩ => ⟨S512x3, .f32⟩
  | .local _ .vmem, ⟨11, _⟩ => ⟨S512x3, .f32⟩
  | .local _ .vmem, ⟨12, _⟩ => ⟨S512x3, .f32⟩
  | .local _ .vmem, ⟨13, _⟩ => ⟨S512x3, .f32⟩
  | .local _ .vmem, ⟨14, _⟩ => ⟨S512x3, .f32⟩
  | .local _ .vmem, ⟨15, _⟩ => ⟨S512x3, .f32⟩
  | .local _ .vmem, ⟨16, _⟩ => ⟨S512x1, .f32⟩
  | .local _ .vmem, ⟨17, _⟩ => ⟨S512x3, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v60 : BitVec 1 := Scalar.cmpi .eq arg1 c15_i32
  let v61 : BitVec 32 := Scalar.extui v60
  let c0_i32_23 : BitVec 32 := 0#32
  let v62 : BitVec 1 := Scalar.cmpi .ne v61 c0_i32_23
  v62

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S256_S1x256 : S256.ShapeCasts S1x256
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  concatenates_S2048x1_S2048x1_S2048x2_d1 : Shape.Concatenates [S2048x1, S2048x1] S2048x2 1
  inb_S2048x2_S2048x2_0_0 : ∀ a, (![0, 0] : Fin 2 → Nat) a + S2048x2.size a ≤ S2048x2.size a
  h_S2048x2 : 0 < S2048x2.numel
  slices_S65536x2_S65536x1_0_0 : S65536x2.Slices ![0, 0] S65536x1
  slices_S65536x2_S65536x1_0_1 : S65536x2.Slices ![0, 1] S65536x1
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  reducesTo_S524288x3_S524288_d1 : S524288x3.ReducesTo [1] S524288
  h_S_ : 0 < S_.numel
  bcast_S524288x1_S524288x3_0_1 : S524288x1.BroadcastsInDim S524288x3 (![0, 1] : Fin 2 → Fin S524288x3.rank)
  bcast_S_S65536x3 : S_.BroadcastsInDim S65536x3 (![] : Fin 0 → Fin S65536x3.rank)
  bcast_S_S8192 : S_.BroadcastsInDim S8192 (![] : Fin 0 → Fin S8192.rank)
  bcast_S8192_S8192x1_0 : S8192.BroadcastsInDim S8192x1 (![0] : Fin 1 → Fin S8192x1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3_S512x3_0_0 : ∀ a, (![0, 0] : Fin 2 → Nat) a + S512x3.size a ≤ S512x3.size a
  h_S512x3 : 0 < S512x3.numel
  shapeCasts_S512x3_S512x3 : S512x3.ShapeCasts S512x3
  reduces_S512x3_S512 : S512x3.Reduces [1] S512
  shapeCasts_S512_S512x1 : S512.ShapeCasts S512x1
  transposes_S512x3_p1_0_S3x512 : S512x3.Transposes [1, 0] S3x512
  transposes_S512x1_p1_0_S1x512 : S512x1.Transposes [1, 0] S1x512
  broadcasts_S512x1_S512x512 : S512x1.Broadcasts S512x512
  broadcasts_S1x512_S512x512 : S1x512.Broadcasts S512x512
  iota_S512x1_d0_w32 : S512x1.Iotas .tc 32 [0]
  iota_S1x512_d1_w32 : S1x512.Iotas .tc 32 [1]
  reduces_S512x512_S512 : S512x512.Reduces [1] S512
  broadcasts_S512x1_S512x3 : S512x1.Broadcasts S512x3
  bcast_S_S65536x1 : S_.BroadcastsInDim S65536x1 (![] : Fin 0 → Fin S65536x1.rank)
  bcast_S65536x1_S65536x3_0_1 : S65536x1.BroadcastsInDim S65536x3 (![0, 1] : Fin 2 → Fin S65536x3.rank)
  dot_S2048x512_S512x256_S2048x256_1_0_0_1_n_n_wf : DotDims.WF S2048x512 S512x256 S2048x256 [1] [0] [0] [1] [] []
  dot_S2048x256_S256x1_S2048x1_1_0_0_1_n_n_wf : DotDims.WF S2048x256 S256x1 S2048x1 [1] [0] [0] [1] [] []
  gather_S65536x3_S524288x1_S524288x3_1_0_n_n_0_1_13_wf : GatherDims.WF S65536x3 S524288x1 S524288x3 [1] [0] [] [0] [] 1 ![1, 3]
  gather_S65536_S524288x1_S524288_n_0_n_n_0_1_1_wf : GatherDims.WF S65536 S524288x1 S524288 [] [0] [] [0] [] 1 ![1]
  scatter_S65536x3_S524288x1_S524288x3_1_0_0_1_wf : ScatterDims.WF S65536x3 S524288x1 S524288x3 [1] [0] [0] 1
  gather_S65536x3_S8192x1_S8192x3_1_0_n_n_0_1_13_wf : GatherDims.WF S65536x3 S8192x1 S8192x3 [1] [0] [] [0] [] 1 ![1, 3]
  dot_S512x3_S3x512_S512x512_1_0_0_1_n_n_wf : DotDims.WF S512x3 S3x512 S512x512 [1] [0] [0] [1] [] []
  dot_S512x512_S512x3_S512x3_1_0_0_1_n_n_wf : DotDims.WF S512x512 S512x3 S512x3 [1] [0] [0] [1] [] []
  scatter_S65536x3_S8192x1_S8192x3_1_0_0_1_wf : ScatterDims.WF S65536x3 S8192x1 S8192x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x2.size a ≤ S65536x2.size a
  hwx0_7 : ∀ i : grid0.Coords, EltTy.bits .f32 = 32 ∨ (Rect.block (s := S65536x2) S2048x2.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3.size a ≤ S8192x3.size a
  hwx1_0 : ∀ i : grid1.Coords, EltTy.bits .f32 = 32 ∨ (Rect.block (s := S8192x3) S512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x3.size a ≤ S8192x3.size a
  hwx1_1 : ∀ i : grid1.Coords, EltTy.bits .f32 = 32 ∨ (Rect.block (s := S8192x3) S512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x3.size a ≤ S8192x3.size a
  hwx1_2 : ∀ i : grid1.Coords, EltTy.bits .f32 = 32 ∨ (Rect.block (s := S8192x3) S512x3.size (cc1_transform_2 i) (hinb1_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def gather_S65536x3_S524288x1_S524288x3_1_0_n_n_0_1_13 : GatherDims S65536x3 S524288x1 S524288x3 where
  offsetDims := [1]
  collapsedSliceDims := [0]
  operandBatchingDims := []
  startIndicesBatchingDims := []
  startIndexMap := [0]
  indexVectorDim := 1
  sliceSizes := ![1, 3]
  wf := gather_S65536x3_S524288x1_S524288x3_1_0_n_n_0_1_13_wf
def gather_S65536_S524288x1_S524288_n_0_n_n_0_1_1 : GatherDims S65536 S524288x1 S524288 where
  offsetDims := []
  collapsedSliceDims := [0]
  operandBatchingDims := []
  startIndicesBatchingDims := []
  startIndexMap := [0]
  indexVectorDim := 1
  sliceSizes := ![1]
  wf := gather_S65536_S524288x1_S524288_n_0_n_n_0_1_1_wf
def scatter_S65536x3_S524288x1_S524288x3_1_0_0_1 : ScatterDims S65536x3 S524288x1 S524288x3 where
  updateWindowDims := [1]
  insertedWindowDims := [0]
  scatterDimsToOperandDims := [0]
  indexVectorDim := 1
  wf := scatter_S65536x3_S524288x1_S524288x3_1_0_0_1_wf
def gather_S65536x3_S8192x1_S8192x3_1_0_n_n_0_1_13 : GatherDims S65536x3 S8192x1 S8192x3 where
  offsetDims := [1]
  collapsedSliceDims := [0]
  operandBatchingDims := []
  startIndicesBatchingDims := []
  startIndexMap := [0]
  indexVectorDim := 1
  sliceSizes := ![1, 3]
  wf := gather_S65536x3_S8192x1_S8192x3_1_0_n_n_0_1_13_wf
def dot_S512x3_S3x512_S512x512_1_0_0_1_n_n : DotDims S512x3 S3x512 S512x512 where
  lhsContracting := [1]
  rhsContracting := [0]
  lhsNonContracting := [0]
  rhsNonContracting := [1]
  lhsBatch := []
  rhsBatch := []
  wf := dot_S512x3_S3x512_S512x512_1_0_0_1_n_n_wf
def dot_S512x512_S512x3_S512x3_1_0_0_1_n_n : DotDims S512x512 S512x3 S512x3 where
  lhsContracting := [1]
  rhsContracting := [0]
  lhsNonContracting := [0]
  rhsNonContracting := [1]
  lhsBatch := []
  rhsBatch := []
  wf := dot_S512x512_S512x3_S512x3_1_0_0_1_n_n_wf
def scatter_S65536x3_S8192x1_S8192x3_1_0_0_1 : ScatterDims S65536x3 S8192x1 S8192x3 where
  updateWindowDims := [1]
  insertedWindowDims := [0]
  scatterDimsToOperandDims := [0]
  indexVectorDim := 1
  wf := scatter_S65536x3_S8192x1_S8192x3_1_0_0_1_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v78) S512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v78) S512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v79) S512x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S65536x3 : Shape := ⟨2, ![65536, 3]⟩
abbrev S65536x512 : Shape := ⟨2, ![65536, 512]⟩
abbrev S2x524288 : Shape := ⟨2, ![2, 524288]⟩
abbrev S65536 : Shape := ⟨1, ![65536]⟩
abbrev S8192 : Shape := ⟨1, ![8192]⟩
abbrev S512x256 : Shape := ⟨2, ![512, 256]⟩
abbrev S256 : Shape := ⟨1, ![256]⟩
abbrev S256x1 : Shape := ⟨2, ![256, 1]⟩
abbrev S1 : Shape := ⟨1, ![1]⟩
abbrev S65536x256 : Shape := ⟨2, ![65536, 256]⟩
abbrev S1x256 : Shape := ⟨2, ![1, 256]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x3 : Shape := ⟨2, ![524288, 3]⟩
abbrev S8192x1 : Shape := ⟨2, ![8192, 1]⟩
abbrev S8192x3 : Shape := ⟨2, ![8192, 3]⟩
abbrev S1x8192 : Shape := ⟨2, ![1, 8192]⟩
abbrev S8192x8192 : Shape := ⟨2, ![8192, 8192]⟩
abbrev S3x8192 : Shape := ⟨2, ![3, 8192]⟩
abbrev S65536x1 : Shape := ⟨2, ![65536, 1]⟩
abbrev S1x1 : Shape := ⟨2, ![1, 1]⟩

abbrev nBuf : Space → Nat
  | .hbm => 203
  | .vmem => 0
  | .smem => 0
  | _ => 0

abbrev hbmTy0_0 (i : Nat) : BufTy := match i % 128 with
  | 0 => ⟨S65536x3, .f32⟩
  | 1 => ⟨S65536x512, .f32⟩
  | 2 => ⟨S65536x3, .f32⟩
  | 3 => ⟨S2x524288, .i32⟩
  | 4 => ⟨S65536, .i1⟩
  | 5 => ⟨S8192, .i32⟩
  | 6 => ⟨S512x256, .f32⟩
  | 7 => ⟨S256, .f32⟩
  | 8 => ⟨S256x1, .f32⟩
  | 9 => ⟨S1, .f32⟩
  | 10 => ⟨S256x1, .f32⟩
  | 11 => ⟨S1, .f32⟩
  | 12 => ⟨S65536x256, .f32⟩
  | 13 => ⟨S1x256, .f32⟩
  | 14 => ⟨S65536x256, .f32⟩
  | 15 => ⟨S65536x256, .f32⟩
  | 16 => ⟨S1x524288, .i32⟩
  | 17 => ⟨S524288, .i32⟩
  | 18 => ⟨S1x524288, .i32⟩
  | 19 => ⟨S524288, .i32⟩
  | 20 => ⟨S_, .i32⟩
  | 21 => ⟨S524288, .i32⟩
  | 22 => ⟨S524288, .i1⟩
  | 23 => ⟨S_, .i32⟩
  | 24 => ⟨S524288, .i32⟩
  | 25 => ⟨S524288, .i32⟩
  | 26 => ⟨S524288, .i32⟩
  | 27 => ⟨S524288x1, .i32⟩
  | 28 => ⟨S524288x3, .f32⟩
  | 29 => ⟨S_, .i32⟩
  | 30 => ⟨S524288, .i32⟩
  | 31 => ⟨S524288, .i1⟩
  | 32 => ⟨S_, .i32⟩
  | 33 => ⟨S524288, .i32⟩
  | 34 => ⟨S524288, .i32⟩
  | 35 => ⟨S524288, .i32⟩
  | 36 => ⟨S524288x1, .i32⟩
  | 37 => ⟨S524288x3, .f32⟩
  | 38 => ⟨S524288x3, .f32⟩
  | 39 => ⟨S524288x3, .f32⟩
  | 40 => ⟨S_, .f32⟩
  | 41 => ⟨S524288, .f32⟩
  | 42 => ⟨S_, .f32⟩
  | 43 => ⟨S524288, .f32⟩
  | 44 => ⟨S524288, .f32⟩
  | 45 => ⟨S524288, .f32⟩
  | 46 => ⟨S_, .f32⟩
  | 47 => ⟨S524288, .f32⟩
  | 48 => ⟨S524288, .f32⟩
  | 49 => ⟨S_, .i32⟩
  | 50 => ⟨S524288, .i32⟩
  | 51 => ⟨S524288, .i1⟩
  | 52 => ⟨S_, .i32⟩
  | 53 => ⟨S524288, .i32⟩
  | 54 => ⟨S524288, .i32⟩
  | 55 => ⟨S524288, .i32⟩
  | 56 => ⟨S524288x1, .i32⟩
  | 57 => ⟨S524288, .i1⟩
  | 58 => ⟨S_, .i32⟩
  | 59 => ⟨S524288, .i32⟩
  | 60 => ⟨S524288, .i1⟩
  | 61 => ⟨S_, .i32⟩
  | 62 => ⟨S524288, .i32⟩
  | 63 => ⟨S524288, .i32⟩
  | 64 => ⟨S524288, .i32⟩
  | 65 => ⟨S524288x1, .i32⟩
  | 66 => ⟨S524288, .i1⟩
  | 67 => ⟨S524288, .i1⟩
  | 68 => ⟨S524288, .f32⟩
  | 69 => ⟨S_, .f32⟩
  | 70 => ⟨S524288, .f32⟩
  | 71 => ⟨S524288, .f32⟩
  | 72 => ⟨S524288, .f32⟩
  | 73 => ⟨S524288, .f32⟩
  | 74 => ⟨S524288, .f32⟩
  | 75 => ⟨S524288x1, .f32⟩
  | 76 => ⟨S524288x3, .f32⟩
  | 77 => ⟨S524288x3, .f32⟩
  | 78 => ⟨S_, .f32⟩
  | 79 => ⟨S65536x3, .f32⟩
  | 80 => ⟨S_, .i32⟩
  | 81 => ⟨S524288, .i32⟩
  | 82 => ⟨S524288, .i1⟩
  | 83 => ⟨S_, .i32⟩
  | 84 => ⟨S524288, .i32⟩
  | 85 => ⟨S524288, .i32⟩
  | 86 => ⟨S524288, .i32⟩
  | 87 => ⟨S524288x1, .i32⟩
  | 88 => ⟨S65536x3, .f32⟩
  | 89 => ⟨S524288x3, .f32⟩
  | 90 => ⟨S_, .i32⟩
  | 91 => ⟨S524288, .i32⟩
  | 92 => ⟨S524288, .i1⟩
  | 93 => ⟨S_, .i32⟩
  | 94 => ⟨S524288, .i32⟩
  | 95 => ⟨S524288, .i32⟩
  | 96 => ⟨S524288, .i32⟩
  | 97 => ⟨S524288x1, .i32⟩
  | 98 => ⟨S65536x3, .f32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S8192x1, .i32⟩
  | 107 => ⟨S8192x3, .f32⟩
  | 108 => ⟨S8192x3, .f32⟩
  | 109 => ⟨S_, .f32⟩
  | 110 => ⟨S8192, .f32⟩
  | 111 => ⟨S8192x1, .f32⟩
  | 112 => ⟨S1x8192, .f32⟩
  | 113 => ⟨S8192x8192, .f32⟩
  | 114 => ⟨S8192x8192, .f32⟩
  | 115 => ⟨S8192x8192, .f32⟩
  | 116 => ⟨S3x8192, .f32⟩
  | 117 => ⟨S8192x8192, .f32⟩
  | 118 => ⟨S_, .f32⟩
  | 119 => ⟨S8192x8192, .f32⟩
  | 120 => ⟨S8192x8192, .f32⟩
  | 121 => ⟨S8192x8192, .f32⟩
  | 122 => ⟨S_, .f32⟩
  | 123 => ⟨S8192x8192, .f32⟩
  | 124 => ⟨S8192x8192, .f32⟩
  | 125 => ⟨S8192x8192, .f32⟩
  | 126 => ⟨S_, .f32⟩
  | 127 => ⟨S8192x8192, .f32⟩
  | _ => ⟨S65536x3, .f32⟩

abbrev hbmTy0_1 (i : Nat) : BufTy := match i % 128 with
  | 0 => ⟨S8192x8192, .f32⟩
  | 1 => ⟨S_, .f32⟩
  | 2 => ⟨S8192x8192, .f32⟩
  | 3 => ⟨S8192x8192, .i1⟩
  | 4 => ⟨S8192x8192, .i32⟩
  | 5 => ⟨S8192x8192, .i32⟩
  | 6 => ⟨S_, .i32⟩
  | 7 => ⟨S8192x8192, .i32⟩
  | 8 => ⟨S8192x8192, .i32⟩
  | 9 => ⟨S8192x8192, .i1⟩
  | 10 => ⟨S8192x8192, .i1⟩
  | 11 => ⟨S8192x8192, .i1⟩
  | 12 => ⟨S_, .f32⟩
  | 13 => ⟨S8192x8192, .f32⟩
  | 14 => ⟨S8192x8192, .f32⟩
  | 15 => ⟨S8192x8192, .f32⟩
  | 16 => ⟨S8192x8192, .f32⟩
  | 17 => ⟨S_, .f32⟩
  | 18 => ⟨S_, .f32⟩
  | 19 => ⟨S8192x8192, .f32⟩
  | 20 => ⟨S8192x8192, .f32⟩
  | 21 => ⟨S_, .f32⟩
  | 22 => ⟨S8192, .f32⟩
  | 23 => ⟨S8192x1, .f32⟩
  | 24 => ⟨S8192x3, .f32⟩
  | 25 => ⟨S8192x3, .f32⟩
  | 26 => ⟨S8192x3, .f32⟩
  | 27 => ⟨S8192x3, .f32⟩
  | 28 => ⟨S_, .f32⟩
  | 29 => ⟨S65536x3, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S65536x3, .f32⟩
  | 39 => ⟨S65536x1, .f32⟩
  | 40 => ⟨S1x1, .f32⟩
  | 41 => ⟨S65536x1, .f32⟩
  | 42 => ⟨S65536x1, .f32⟩
  | 43 => ⟨S65536x1, .f32⟩
  | 44 => ⟨S65536x1, .f32⟩
  | 45 => ⟨S_, .f32⟩
  | 46 => ⟨S65536x1, .f32⟩
  | 47 => ⟨S65536x1, .f32⟩
  | 48 => ⟨S_, .f32⟩
  | 49 => ⟨S65536x1, .f32⟩
  | 50 => ⟨S65536x1, .f32⟩
  | 51 => ⟨S65536x1, .f32⟩
  | 52 => ⟨S1x1, .f32⟩
  | 53 => ⟨S65536x1, .f32⟩
  | 54 => ⟨S65536x1, .f32⟩
  | 55 => ⟨S65536x1, .f32⟩
  | 56 => ⟨S65536x1, .f32⟩
  | 57 => ⟨S_, .f32⟩
  | 58 => ⟨S65536x1, .f32⟩
  | 59 => ⟨S65536x1, .f32⟩
  | 60 => ⟨S_, .f32⟩
  | 61 => ⟨S65536x1, .f32⟩
  | 62 => ⟨S65536x1, .f32⟩
  | 63 => ⟨S_, .f32⟩
  | 64 => ⟨S65536x1, .f32⟩
  | 65 => ⟨S65536x1, .f32⟩
  | 66 => ⟨S65536x3, .f32⟩
  | 67 => ⟨S65536x3, .f32⟩
  | 68 => ⟨S65536x3, .f32⟩
  | 69 => ⟨S_, .f32⟩
  | 70 => ⟨S65536x1, .f32⟩
  | 71 => ⟨S65536x1, .f32⟩
  | 72 => ⟨S65536x3, .f32⟩
  | 73 => ⟨S65536x3, .f32⟩
  | 74 => ⟨S65536x3, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_22 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_23 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_24 : Ref sig .tc := ⟨.hbm, 145, rfl⟩
abbrev main_call0_v0 : Ref sig .tc := ⟨.hbm, 146, rfl⟩
abbrev main_call0_v1 : Ref sig .tc := ⟨.hbm, 147, rfl⟩
abbrev main_v107 : Ref sig .tc := ⟨.hbm, 148, rfl⟩
abbrev main_cst_25 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_26 : Ref sig .tc := ⟨.hbm, 156, rfl⟩
abbrev main_v114 : Ref sig .tc := ⟨.hbm, 157, rfl⟩
abbrev main_c_27 : Ref sig .tc := ⟨.hbm, 158, rfl⟩
abbrev main_v115 : Ref sig .tc := ⟨.hbm, 159, rfl⟩
abbrev main_v116 : Ref sig .tc := ⟨.hbm, 160, rfl⟩
abbrev main_c_28 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_29 : Ref sig .tc := ⟨.hbm, 173, rfl⟩
abbrev main_v128 : Ref sig .tc := ⟨.hbm, 174, rfl⟩
abbrev main_v129 : Ref sig .tc := ⟨.hbm, 175, rfl⟩
abbrev main_cst_30 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_31 : Ref sig .tc := ⟨.hbm, 185, rfl⟩
abbrev main_v138 : Ref sig .tc := ⟨.hbm, 186, rfl⟩
abbrev main_v139 : Ref sig .tc := ⟨.hbm, 187, rfl⟩
abbrev main_cst_32 : Ref sig .tc := ⟨.hbm, 188, rfl⟩
abbrev main_v140 : Ref sig .tc := ⟨.hbm, 189, rfl⟩
abbrev main_v141 : Ref sig .tc := ⟨.hbm, 190, rfl⟩
abbrev main_cst_33 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_34 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  reducesTo_S524288x3_S524288_d1 : S524288x3.ReducesTo [1] S524288
  h_S_ : 0 < S_.numel
  bcast_S524288x1_S524288x3_0_1 : S524288x1.BroadcastsInDim S524288x3 (![0, 1] : Fin 2 → Fin S524288x3.rank)
  bcast_S_S65536x3 : S_.BroadcastsInDim S65536x3 (![] : Fin 0 → Fin S65536x3.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S8192x3_S8192_d1 : S8192x3.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  bcast_S8192x1_S8192x3_0_1 : S8192x1.BroadcastsInDim S8192x3 (![0, 1] : Fin 2 → Fin S8192x3.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  bcast_S65536x1_S65536x3_0_1 : S65536x1.BroadcastsInDim S65536x3 (![0, 1] : Fin 2 → Fin S65536x3.rank)
  dot_S65536x512_S512x256_S65536x256_1_0_0_1_n_n_wf : DotDims.WF S65536x512 S512x256 S65536x256 [1] [0] [0] [1] [] []
  gather_S65536x3_S524288x1_S524288x3_1_0_n_n_0_1_13_wf : GatherDims.WF S65536x3 S524288x1 S524288x3 [1] [0] [] [0] [] 1 ![1, 3]
  gather_S65536_S524288x1_S524288_n_0_n_n_0_1_1_wf : GatherDims.WF S65536 S524288x1 S524288 [] [0] [] [0] [] 1 ![1]
  scatter_S65536x3_S524288x1_S524288x3_1_0_0_1_wf : ScatterDims.WF S65536x3 S524288x1 S524288x3 [1] [0] [0] 1
  gather_S65536x3_S8192x1_S8192x3_1_0_n_n_0_1_13_wf : GatherDims.WF S65536x3 S8192x1 S8192x3 [1] [0] [] [0] [] 1 ![1, 3]
  dot_S8192x3_S3x8192_S8192x8192_1_0_0_1_n_n_wf : DotDims.WF S8192x3 S3x8192 S8192x8192 [1] [0] [0] [1] [] []
  dot_S8192x8192_S8192x3_S8192x3_1_0_0_1_n_n_wf : DotDims.WF S8192x8192 S8192x3 S8192x3 [1] [0] [0] [1] [] []
  scatter_S65536x3_S8192x1_S8192x3_1_0_0_1_wf : ScatterDims.WF S65536x3 S8192x1 S8192x3 [1] [0] [0] 1
  dot_S65536x256_S256x1_S65536x1_1_0_0_1_n_n_wf : DotDims.WF S65536x256 S256x1 S65536x1 [1] [0] [0] [1] [] []

variable [Facts₀]

def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def gather_S65536x3_S524288x1_S524288x3_1_0_n_n_0_1_13 : GatherDims S65536x3 S524288x1 S524288x3 where
  offsetDims := [1]
  collapsedSliceDims := [0]
  operandBatchingDims := []
  startIndicesBatchingDims := []
  startIndexMap := [0]
  indexVectorDim := 1
  sliceSizes := ![1, 3]
  wf := gather_S65536x3_S524288x1_S524288x3_1_0_n_n_0_1_13_wf
def gather_S65536_S524288x1_S524288_n_0_n_n_0_1_1 : GatherDims S65536 S524288x1 S524288 where
  offsetDims := []
  collapsedSliceDims := [0]
  operandBatchingDims := []
  startIndicesBatchingDims := []
  startIndexMap := [0]
  indexVectorDim := 1
  sliceSizes := ![1]
  wf := gather_S65536_S524288x1_S524288_n_0_n_n_0_1_1_wf
def scatter_S65536x3_S524288x1_S524288x3_1_0_0_1 : ScatterDims S65536x3 S524288x1 S524288x3 where
  updateWindowDims := [1]
  insertedWindowDims := [0]
  scatterDimsToOperandDims := [0]
  indexVectorDim := 1
  wf := scatter_S65536x3_S524288x1_S524288x3_1_0_0_1_wf
def gather_S65536x3_S8192x1_S8192x3_1_0_n_n_0_1_13 : GatherDims S65536x3 S8192x1 S8192x3 where
  offsetDims := [1]
  collapsedSliceDims := [0]
  operandBatchingDims := []
  startIndicesBatchingDims := []
  startIndexMap := [0]
  indexVectorDim := 1
  sliceSizes := ![1, 3]
  wf := gather_S65536x3_S8192x1_S8192x3_1_0_n_n_0_1_13_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf
def dot_S8192x8192_S8192x3_S8192x3_1_0_0_1_n_n : DotDims S8192x8192 S8192x3 S8192x3 where
  lhsContracting := [1]
  rhsContracting := [0]
  lhsNonContracting := [0]
  rhsNonContracting := [1]
  lhsBatch := []
  rhsBatch := []
  wf := dot_S8192x8192_S8192x3_S8192x3_1_0_0_1_n_n_wf
def scatter_S65536x3_S8192x1_S8192x3_1_0_0_1 : ScatterDims S65536x3 S8192x1 S8192x3 where
  updateWindowDims := [1]
  insertedWindowDims := [0]
  scatterDimsToOperandDims := [0]
  indexVectorDim := 1
  wf := scatter_S65536x3_S8192x1_S8192x3_1_0_0_1_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.FeatBody.lean ====
/- The feature kernel's region: each window's block at a grid point, what the body's one store leaves in the
   output block as a closed function of the seven input blocks, the body's triple, the proof data of the pipeline at
   region-entry contents V, and the body obligation at every point. Generic in the float model. -/
import proofs.«148446_j44409961840993_1_alg».proof.Proof.Gen.KernelIdeal.Launch
import proofs.«148446_j44409961840993_1_alg».proof.Proof.Gen.KernelIdeal.Skeleton
import proofs.«148446_j44409961840993_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is V's and whose body leaves the block in place: where the window is not fetched its block
    index has not moved. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole rectangle of its staging buffer -/

abbrev r0_0 : Rect S2048x512 := Rect.unit (s := S2048x512) ![0, 0] S2048x512.size Gen.inb_S2048x512_S2048x512_0_0
abbrev r0_1 : Rect S512x256 := Rect.unit (s := S512x256) ![0, 0] S512x256.size Gen.inb_S512x256_S512x256_0_0
abbrev r0_2 : Rect S1x256 := Rect.unit (s := S1x256) ![0, 0] S1x256.size Gen.inb_S1x256_S1x256_0_0
abbrev r0_3 : Rect S256x1 := Rect.unit (s := S256x1) ![0, 0] S256x1.size Gen.inb_S256x1_S256x1_0_0
abbrev r0_4 : Rect S1x1 := Rect.unit (s := S1x1) ![0, 0] S1x1.size Gen.inb_S1x1_S1x1_0_0
abbrev r0_7 : Rect S2048x2 := Rect.unit (s := S2048x2) ![0, 0] S2048x2.size Gen.inb_S2048x2_S2048x2_0_0

/-! ## What the body leaves in the output window's buffer -/

/-- Window 7's staging buffer after the body, from the seven input windows' blocks (in window order): its one store
    as a covering piece, the payload read at the loads of the blocks. The payload takes the blocks of windows
    0, 1, 2, 3, 5, 4, 6 in that order. -/
def out0_7 (x0 : Vec F S2048x512 .f32) (x1 : Vec F S512x256 .f32) (x2 : Vec F S1x256 .f32) (x3 : Vec F S256x1 .f32)
    (x4 : Vec F S1x1 .f32) (x5 : Vec F S256x1 .f32) (x6 : Vec F S1x1 .f32) : Vec F S2048x2 .f32 :=
  View.canon [⟨r0_7, k0_pay1 (View.ld x0 r0_0) (View.ld x1 r0_1) (View.ld x2 r0_2) (View.ld x3 r0_3) (View.ld x5 r0_3) (View.ld x4 r0_4) (View.ld x6 r0_4)⟩]

/-- The store tiles the buffer, so it covers it. -/
theorem cover0_7 (p0 : Vec F S2048x2 .f32) (y : S2048x2.Idx) :
    ∃ pc ∈ ([⟨r0_7, p0⟩] : List (View.Piece (Elt F) S2048x2 .f32)), y ∈ pc.1.set :=
  View.cover_of_tiled [⟨r0_7, p0⟩] S2048x2.size (by rfl) y

/-! ## The body's triple -/

set_option maxHeartbeats 4000000 in
/-- The kernel body on whole staging memrefs, the inputs' at read contents x0 .. x6 and the output's at anything, runs
    to the continuation holding the inputs' as they were and the output's at out0_7 of the inputs'. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S1x1 .f32) (harg7 : arg7.IsWhole) (arg8 : Memref sig .tc .vmem S2048x2 .f32) (harg8 : arg8.IsWhole)
    (x0 : Vec F S2048x512 .f32) (x1 : Vec F S512x256 .f32) (x2 : Vec F S1x256 .f32) (x3 : Vec F S256x1 .f32)
    (x4 : Vec F S1x1 .f32) (x5 : Vec F S256x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__feat_kernel i arg1 harg1 arg2 harg2 arg3 harg3 arg4 harg4 arg5 harg5 arg6 harg6 arg7 harg7 arg8 harg8) K := by
  simp only [cc0__feat_kernel_eq_skeleton]; unfold cc0__feat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the feature pipeline on core c: the arrays as the region finds them; after the body at point t
    each input's buffer at its block and the output's at out0_7 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.ClashRunA.lean ====
/-
  The pairwise kernel of the second launch, run as a whole in each of its three control cases.
  The grid is sixteen row blocks by sixteen column blocks; the second coordinate decides the case:
  at the first column block the two carried buffers (the running row sums and the running
  coefficient-weighted point sums) are zeroed before being added to, at the last column block the
  output block is computed from them, and in between they are only added to.
  This module: the two conditions in closed form over the grid, where the output window is idle, and the first case.
-/
import proofs.«148446_j44409961840993_1_alg».proof.Proof.Gen.KernelIdeal.Launch
import proofs.«148446_j44409961840993_1_alg».proof.Proof.Gen.KernelIdeal.Skeleton
import proofs.«148446_j44409961840993_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional of the body (the reset of the two carried buffers), as a proposition over the grid coordinates. -/
abbrev cond1_0 (i : grid1.Coords) : Prop := (Scalar.cmpi .ne (Scalar.extui (Scalar.cmpi .eq (BitVec.ofNat 32 (i 1).val) 0#32)) 0#32) = 1#1
/-- It holds exactly at the first column block of every row block. -/
theorem hcond1_0 : ∀ t : Fin cfg1.N, cond1_0 (grid1.coords t) ↔ t.val % 16 = 0 :=
  (by decide +kernel : ∀ t : Fin grid1.N, cond1_0 (grid1.coords t) ↔ t.val % 16 = 0)
/-- The second conditional of the body (the store of the output block). -/
abbrev cond1_1 (i : grid1.Coords) : Prop := k1_cond2 i = 1#1
/-- It holds exactly at the last column block of every row block. -/
theorem hcond1_1 : ∀ t : Fin cfg1.N, cond1_1 (grid1.coords t) ↔ t.val % 16 = 15 :=
  (by decide +kernel : ∀ t : Fin grid1.N, cond1_1 (grid1.coords t) ↔ t.val % 16 = 15)
/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle, and not written back, away from the last column block; it is live there. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

set_option maxHeartbeats 1000000 in
/-- The first case: the reset is taken, the output store is not. The two carried buffers are held at any contents, zeroed, read back and stored once more each; the output buffer is untouched. -/
noncomputable def kernelRun1_A (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : cond1_0 i) (hc1 : ¬cond1_1 i)
    (x0 x1 : Vec F S512x3 .f32) :
    Σ' (LS0 : List (View.Piece (Elt F) S512x1 .f32)), { LS1 : List (View.Piece (Elt F) S512x3 .f32) //
      ∀ (xi2 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__clash_kernel i arg2 harg2 arg3 harg3 arg4 harg4 arg5 harg5 arg6 harg6) K } := by
  refine ⟨?_, ?_, fun xi2 E K => ?run⟩
  case run =>
    simp only [cc1__clash_kernel_eq_skeleton]; unfold cc1__clash_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.ClashRunB.lean ====
/- The pairwise kernel run as a whole in its middle case (neither conditional taken). -/
import proofs.«148446_j44409961840993_1_alg».proof.Proof.ClashRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The middle case: neither conditional taken. The two carried buffers are read at what the point before left and stored once each; the output buffer is untouched. -/
noncomputable def kernelRun1_B (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : ¬cond1_0 i) (hc1 : ¬cond1_1 i)
    (x0 x1 : Vec F S512x3 .f32) (xs0 : Vec F S512x1 .f32) (xs1 : Vec F S512x3 .f32) :
    Σ' (LS0 : List (View.Piece (Elt F) S512x1 .f32)), { LS1 : List (View.Piece (Elt F) S512x3 .f32) //
      ∀ (xi2 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__clash_kernel i arg2 harg2 arg3 harg3 arg4 harg4 arg5 harg5 arg6 harg6) K } := by
  refine ⟨?_, ?_, fun xi2 E K => ?run⟩
  case run =>
    simp only [cc1__clash_kernel_eq_skeleton]; unfold cc1__clash_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.ClashRunC.lean ====
/- The pairwise kernel run as a whole in its last case (the output block is stored). -/
import proofs.«148446_j44409961840993_1_alg».proof.Proof.ClashRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The last case: the reset is not taken, the output store is. The two carried buffers are read at what the point before left, stored once each and read back; the output buffer, held at any contents, is stored whole. -/
noncomputable def kernelRun1_C (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : ¬cond1_0 i) (hc1 : cond1_1 i)
    (x0 x1 : Vec F S512x3 .f32) (xs0 : Vec F S512x1 .f32) (xs1 : Vec F S512x3 .f32) :
    Σ' (L2 : List (View.Piece (Elt F) S512x3 .f32)) (LS0 : List (View.Piece (Elt F) S512x1 .f32)), { LS1 : List (View.Piece (Elt F) S512x3 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__clash_kernel i arg2 harg2 arg3 harg3 arg4 harg4 arg5 harg5 arg6 harg6) K } := by
  refine ⟨?_, ?_, ?_, fun E K => ?run⟩
  case run =>
    simp only [cc1__clash_kernel_eq_skeleton]; unfold cc1__clash_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.ClashCases.lean ====
/-
  What each control case of the pairwise kernel leaves in the two carried buffers and in the output buffer,
  in closed form: the pieces the three runs found are single stores of the whole buffer, so what is read back
  is the stored value; a load of a carried buffer after such a store reads that value.
-/
import proofs.«148446_j44409961840993_1_alg».proof.Proof.ClashRunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two zero offsets of a rank two rectangle, spelt as a constant function. -/
theorem hz2 : (![0, 0] : Fin 2 → ℕ) = fun _ => 0 := by funext a; fin_cases a <;> rfl

/-- One accumulation step of the running row sums: the sum over the 512 columns of the block of the
    pair coefficients of row block against column block, added to what was accumulated before. -/
def rowStep (i : grid1.Coords) (b0 b1 : Vec F S512x3 .f32) (prev : Vec F S512x1 .f32) : Vec F S512x1 .f32 :=
  k1_pay2 (k1_pay9 b0 b1) (k1_pay10 i b0 b1) (Scalar.ofBits .f32 0x3F800000#32) prev

/-- One accumulation step of the running weighted point sums: the coefficient block times the column block of points,
    added to what was accumulated before. -/
def accStep (i : grid1.Coords) (b0 b1 : Vec F S512x3 .f32) (prev : Vec F S512x3 .f32) : Vec F S512x3 .f32 :=
  k1_pay3 (k1_pay8 b1) (k1_pay9 b0 b1) (k1_pay10 i b0 b1) (Scalar.ofBits .f32 0x3F800000#32) prev

/-- The output block from the row block of points and the two accumulated buffers: point times row sum minus weighted sum. -/
def outStep (b0 : Vec F S512x3 .f32) (rs : Vec F S512x1 .f32) (ac : Vec F S512x3 .f32) : Vec F S512x3 .f32 :=
  k1_pay4 (k1_pay7 b0) rs ac

section A
variable (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : cond1_0 i) (hc1 : ¬cond1_1 i) (x0 x1 : Vec F S512x3 .f32)

theorem coverA0 (y : S512x1.Idx) : ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S512x1.size (by sl_kernel_rfl) y
theorem coverA1 (y : S512x3.Idx) : ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S512x3.size (by sl_kernel_rfl) y

theorem canonA0 : View.canon (kernelRun1_A c i arg2 harg2 arg3 harg3 arg4 harg4 arg5 harg5 arg6 harg6 hc0 hc1 x0 x1).1 = rowStep i x0 x1 (k1_pay5 (F := F)) := by
  unfold kernelRun1_A; dsimp only; sl_unfold_words
  rw [View.canon_cons_unit_zero hz2]
  simp only [View.readAt_eq_ld, harg2.read_unread, harg3.read_unread, View.ld_unit_zero (S := S512x1) hz2, View.ld_unit_zero (S := S512x3) hz2, View.readCov_unit_zero (S := S512x1) _ hz2, View.readCov_unit_zero (S := S512x3) _ hz2]
  rfl
theorem canonA1 : View.canon (kernelRun1_A c i arg2 harg2 arg3 harg3 arg4 harg4 arg5 harg5 arg6 harg6 hc0 hc1 x0 x1).2.1 = accStep i x0 x1 (k1_pay6 (F := F)) := by
  unfold kernelRun1_A; dsimp only; sl_unfold_words
  rw [View.canon_cons_unit_zero hz2]
  simp only [View.readAt_eq_ld, harg2.read_unread, harg3.read_unread, View.ld_unit_zero (S := S512x1) hz2, View.ld_unit_zero (S := S512x3) hz2, View.readCov_unit_zero (S := S512x1) _ hz2, View.readCov_unit_zero (S := S512x3) _ hz2]
  rfl
end A

section B
variable (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : ¬cond1_0 i) (hc1 : ¬cond1_1 i)
    (x0 x1 : Vec F S512x3 .f32) (xs0 : Vec F S512x1 .f32) (xs1 : Vec F S512x3 .f32)

theorem coverB0 (y : S512x1.Idx) : ∃ pc ∈ (kernelRun1_B c i arg2 harg2 arg3 harg3 arg4 harg4 arg5 harg5 arg6 harg6 hc0 hc1 x0 x1 xs0 xs1).1, y ∈ pc.1.set :=
  View.cover_of_tiledL (kernelRun1_B c i arg2 harg2 arg3 harg3 arg4 harg4 arg5 harg5 arg6 harg6 hc0 hc1 x0 x1 xs0 xs1).1 S512x1.size (by sl_kernel_rfl) y
theorem coverB1 (y : S512x3.Idx) : ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S512x3.size (by sl_kernel_rfl) y

theorem canonB0 : View.canon (kernelRun1_B c i arg2 harg2 arg3 harg3 arg4 harg4 arg5 harg5 arg6 harg6 hc0 hc1 x0 x1 xs0 xs1).1 = rowStep i x0 x1 xs0 := by
  unfold kernelRun1_B; dsimp only; sl_unfold_words
  rw [View.canon_unit_zero hz2]
  simp only [View.readAt_eq_ld, harg2.read_unread, harg3.read_unread, harg5.read_unread, View.ld_unit_zero (S := S512x1) hz2, View.ld_unit_zero (S := S512x3) hz2]
  rfl
theorem canonB1 : View.canon (kernelRun1_B c i arg2 harg2 arg3 harg3 arg4 harg4 arg5 harg5 arg6 harg6 hc0 hc1 x0 x1 xs0 xs1).2.1 = accStep i x0 x1 xs1 := by
  unfold kernelRun1_B; dsimp only; sl_unfold_words
  rw [View.canon_unit_zero hz2]
  simp only [View.readAt_eq_ld, harg2.read_unread, harg3.read_unread, harg6.read_unread, View.ld_unit_zero (S := S512x1) hz2, View.ld_unit_zero (S := S512x3) hz2]
  rfl
end B

section C
variable (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : ¬cond1_0 i) (hc1 : cond1_1 i)
    (x0 x1 : Vec F S512x3 .f32) (xs0 : Vec F S512x1 .f32) (xs1 : Vec F S512x3 .f32)

theorem coverC2 (y : S512x3.Idx) : ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S512x3.size (by sl_kernel_rfl) y
theorem coverC0 (y : S512x1.Idx) : ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S512x1.size (by sl_kernel_rfl) y
theorem coverC1 (y : S512x3.Idx) : ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S512x3.size (by sl_kernel_rfl) y

theorem canonC0 : View.canon (kernelRun1_C c i arg2 harg2 arg3 harg3 arg4 harg4 arg5 harg5 arg6 harg6 hc0 hc1 x0 x1 xs0 xs1).2.1 = rowStep i x0 x1 xs0 := by
  unfold kernelRun1_C; dsimp only; sl_unfold_words
  rw [View.canon_unit_zero hz2]
  simp only [View.readAt_eq_ld, harg2.read_unread, harg3.read_unread, harg5.read_unread, View.ld_unit_zero (S := S512x1) hz2, View.ld_unit_zero (S := S512x3) hz2]
  rfl
theorem canonC1 : View.canon (kernelRun1_C c i arg2 harg2 arg3 harg3 arg4 harg4 arg5 harg5 arg6 harg6 hc0 hc1 x0 x1 xs0 xs1).2.2.1 = accStep i x0 x1 xs1 := by
  unfold kernelRun1_C; dsimp only; sl_unfold_words
  rw [View.canon_unit_zero hz2]
  simp only [View.readAt_eq_ld, harg2.read_unread, harg3.read_unread, harg6.read_unread, View.ld_unit_zero (S := S512x1) hz2, View.ld_unit_zero (S := S512x3) hz2]
  rfl
theorem canonC2 : View.canon (kernelRun1_C c i arg2 harg2 arg3 harg3 arg4 harg4 arg5 harg5 arg6 harg6 hc0 hc1 x0 x1 xs0 xs1).1 = outStep x0 (rowStep i x0 x1 xs0) (accStep i x0 x1 xs1) := by
  unfold kernelRun1_C; dsimp only; sl_unfold_words
  rw [View.canon_unit_zero hz2]
  simp only [View.readAt_eq_ld, harg2.read_unread, harg3.read_unread, harg5.read_unread, harg6.read_unread, View.ld_unit_zero (S := S512x1) hz2, View.ld_unit_zero (S := S512x3) hz2, View.readCov_unit_zero (S := S512x1) _ hz2, View.readCov_unit_zero (S := S512x3) _ hz2]
  rfl
end C

end Cert.KernelIdeal.Hand

end
-- ==== Proof.ClashBody.lean ====
/-
  The pairwise launch as a region of the program: the blocks of its windows, what its two carried buffers and
  its output block hold after each grid point (a recursion over the grid position: a fresh start from zero at the
  first column block of each row block, one accumulation step elsewhere), the invariant carrying the two buffers
  from point to point, the proof data and the body obligation, by cases on the second grid coordinate.
-/
import proofs.«148446_j44409961840993_1_alg».proof.Proof.ClashCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- The block of a window at a grid point, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of points is in its staging buffer at every grid point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The column block of points likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The staging memref of each window at a grid point, and its wholeness. -/
abbrev ms1_0 (t : Fin cfg1.N) : Memref sig .tc .vmem S512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x3 .f32 := win1_2.stage (cfg1.slots t 2)
abbrev hs1_2 (t : Fin cfg1.N) : (ms1_2 t).IsWhole := hstage1_2 ((cfg1.slots t 2).cast nbuf1_2)
/-- The two carried buffers, whole. -/
abbrev scM1_0 : Memref sig .tc .vmem S512x1 .f32 := Memref.whole cc1_scratch0
abbrev scM1_1 : Memref sig .tc .vmem S512x3 .f32 := Memref.whole cc1_scratch1

/-! ## What the carried buffers and the output block hold after each grid point -/

/-- The running row sums after the point at position n: a fresh start from zero at the first column block
    of a row block, one more step over what the point before left elsewhere. -/
def rowsumN (c : Dev nD) : (n : ℕ) → n < cfg1.N → Vec F S512x1 .f32
  | 0, hn => rowStep (grid1.coords ⟨0, hn⟩) (iblk1 V c 0 ⟨0, hn⟩) (iblk1 V c 1 ⟨0, hn⟩) (k1_pay5 (F := F))
  | n + 1, hn => rowStep (grid1.coords ⟨n + 1, hn⟩) (iblk1 V c 0 ⟨n + 1, hn⟩) (iblk1 V c 1 ⟨n + 1, hn⟩)
      (if (n + 1) % 16 = 0 then k1_pay5 (F := F) else rowsumN c n (Nat.lt_of_succ_lt hn))

/-- The running weighted point sums after the point at position n, likewise. -/
def accN (c : Dev nD) : (n : ℕ) → n < cfg1.N → Vec F S512x3 .f32
  | 0, hn => accStep (grid1.coords ⟨0, hn⟩) (iblk1 V c 0 ⟨0, hn⟩) (iblk1 V c 1 ⟨0, hn⟩) (k1_pay6 (F := F))
  | n + 1, hn => accStep (grid1.coords ⟨n + 1, hn⟩) (iblk1 V c 0 ⟨n + 1, hn⟩) (iblk1 V c 1 ⟨n + 1, hn⟩)
      (if (n + 1) % 16 = 0 then k1_pay6 (F := F) else accN c n (Nat.lt_of_succ_lt hn))

/-- What the first carried buffer holds after point t. -/
def rowsumAt (c : Dev nD) (t : Fin cfg1.N) : Vec F S512x1 .f32 := rowsumN V c t.val t.isLt
/-- What the second carried buffer holds after point t. -/
def accAt (c : Dev nD) (t : Fin cfg1.N) : Vec F S512x3 .f32 := accN V c t.val t.isLt
/-- The output block computed from the row block of points and the two carried buffers after point t: what the output
    window's staging buffer holds after the last column block of a row block (elsewhere the window is idle and this is not read). -/
def outAt (c : Dev nD) (t : Fin cfg1.N) : Vec F S512x3 .f32 := outStep (iblk1 V c 0 t) (rowsumAt V c t) (accAt V c t)

theorem rowsumAt_first (c : Dev nD) (t : Fin cfg1.N) (h : t.val % 16 = 0) :
    rowsumAt V c t = rowStep (grid1.coords t) (iblk1 V c 0 t) (iblk1 V c 1 t) (k1_pay5 (F := F)) := by
  obtain ⟨n, hn⟩ := t
  cases n with
  | zero => rfl
  | succ n => exact congrArg (rowStep _ _ _) (if_pos h)
theorem rowsumAt_step (c : Dev nD) (t : Fin cfg1.N) (h : ¬t.val % 16 = 0) :
    rowsumAt V c t = rowStep (grid1.coords t) (iblk1 V c 0 t) (iblk1 V c 1 t) (rowsumAt V c ⟨t.val - 1, Nat.lt_of_le_of_lt (Nat.sub_le _ _) t.isLt⟩) := by
  obtain ⟨n, hn⟩ := t
  cases n with
  | zero => exact absurd (Nat.zero_mod _) h
  | succ n => exact congrArg (rowStep _ _ _) (if_neg h)
theorem accAt_first (c : Dev nD) (t : Fin cfg1.N) (h : t.val % 16 = 0) :
    accAt V c t = accStep (grid1.coords t) (iblk1 V c 0 t) (iblk1 V c 1 t) (k1_pay6 (F := F)) := by
  obtain ⟨n, hn⟩ := t
  cases n with
  | zero => rfl
  | succ n => exact congrArg (accStep _ _ _) (if_pos h)
theorem accAt_step (c : Dev nD) (t : Fin cfg1.N) (h : ¬t.val % 16 = 0) :
    accAt V c t = accStep (grid1.coords t) (iblk1 V c 0 t) (iblk1 V c 1 t) (accAt V c ⟨t.val - 1, Nat.lt_of_le_of_lt (Nat.sub_le _ _) t.isLt⟩) := by
  obtain ⟨n, hn⟩ := t
  cases n with
  | zero => exact absurd (Nat.zero_mod _) h
  | succ n => exact congrArg (accStep _ _ _) (if_neg h)

/-! ## The invariant -/

/-- The invariant before the point at position n: the generator register at some state and the scoped buffers that
    are no staging buffer of this launch, those of the other launch at some contents, the two carried buffers at what
    the point before left in them (before the first point, at some contents as well). -/
def Phi1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)
      ∗ owns (c : Thread nD τ) scM1_0 fullShare (rowsumN V c n hn) ∗ owns (c : Thread nD τ) scM1_1 fullShare (accN V c n hn))

theorem Phi1_zero (c : Dev nD) (n : ℕ) (h : n ≤ cfg1.N) (hz : n = 0) :
    Phi1 V c n h = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)
      ∗ (∃ d, owns (c : Thread nD τ) scM1_0 fullShare d) ∗ (∃ d, owns (c : Thread nD τ) scM1_1 fullShare d)) := by
  subst hz
  show iprop((∃ r, prngReg c r) ∗ Pipeline.scopedRest (Ix := Unit) (Name := ℕ) (U := UR sig nD τ) (Lvl := ℕ) spec1 c) = _
  rw [scopedRest1_eq]; simp only [scM1_0, scM1_1, owns_whole]; try rfl

theorem Phi1_succ (c : Dev nD) (n : ℕ) (hn : n < cfg1.N) :
    Phi1 V c (n + 1) hn = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)
      ∗ owns (c : Thread nD τ) scM1_0 fullShare (rowsumN V c n hn) ∗ owns (c : Thread nD τ) scM1_1 fullShare (accN V c n hn)) := rfl

theorem Phi1_pos (c : Dev nD) (n : ℕ) (h : n ≤ cfg1.N) (hz : n ≠ 0) :
    Phi1 V c n h = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)
      ∗ owns (c : Thread nD τ) scM1_0 fullShare (rowsumN V c (n - 1) (by omega)) ∗ owns (c : Thread nD τ) scM1_1 fullShare (accN V c (n - 1) (by omega))) := by
  cases n with
  | zero => exact absurd rfl hz
  | succ n => rfl

/-! ## The proof data -/

/-- The proof data of the pairwise launch on a core: the arrays as the launch finds them; after the body each input's
    buffer at its block and the output's at the output block of the point; the invariant above; nothing owed; the one
    array both input windows read held at two half shares, the output array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := Phi1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]
theorem owed1 (c : Dev nD) (t : Fin (cfg1.N + 1)) : (dat1 V c).owed t = 0 := rfl
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The position recursions at a point, in the two forms the case split uses. -/
theorem rowsumN_first (c : Dev nD) (t : Fin cfg1.N) (h : t.val % 16 = 0) :
    rowsumN V c t.val t.isLt = rowStep (grid1.coords t) (iblk1 V c 0 t) (iblk1 V c 1 t) (k1_pay5 (F := F)) := rowsumAt_first V c t h
theorem rowsumN_step (c : Dev nD) (t : Fin cfg1.N) (h : ¬t.val % 16 = 0) :
    rowsumN V c t.val t.isLt = rowStep (grid1.coords t) (iblk1 V c 0 t) (iblk1 V c 1 t) (rowsumN V c (t.val - 1) (Nat.lt_of_le_of_lt (Nat.sub_le _ _) t.isLt)) := rowsumAt_step V c t h
theorem accN_first (c : Dev nD) (t : Fin cfg1.N) (h : t.val % 16 = 0) :
    accN V c t.val t.isLt = accStep (grid1.coords t) (iblk1 V c 0 t) (iblk1 V c 1 t) (k1_pay6 (F := F)) := accAt_first V c t h
theorem accN_step (c : Dev nD) (t : Fin cfg1.N) (h : ¬t.val % 16 = 0) :
    accN V c t.val t.isLt = accStep (grid1.coords t) (iblk1 V c 0 t) (iblk1 V c 1 t) (accN V c (t.val - 1) (Nat.lt_of_le_of_lt (Nat.sub_le _ _) t.isLt)) := accAt_step V c t h

set_option maxHeartbeats 4800000 in
/-- The body at any grid point. The inputs' buffers hold their blocks; the second grid coordinate decides the case;
    the invariant hands the body the two carried buffers at what the point before left (at the first point, at
    anything) and takes them back at this point's values; away from the last column block the output buffer goes
    back untouched, there it comes back holding the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 256 := lt_of_lt_of_eq t.isLt (show cfg1.N = 256 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [rowsumN_first V c t h0, accN_first V c t h0]
    by_cases hz : t.val = 0
    · rw [Phi1_castSucc V c t, Phi1_zero V c _ _ hz]
      iintro ⟨⟨Hg, HR0, HR1, HR2, HR3, HR4, HR5, HR6, HR7, HR8, HR9, HS0, HS1⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hg HR0 HR1 HR2 HR3 HR4 HR5 HR6 HR7 HR8 HR9 HS0 HS1]
      · isplitl [Hg]; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact (View.read_writes_eq_canon _ _ _ (coverA0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))).trans (canonA0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))
        unfold owns; iexists _; isplitr
        swap; · iexact HS1
        ipureintro; exact (View.read_writes_eq_canon _ _ _ (coverA1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))).trans (canonA1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))
      isplitl [Ho]; · iexact Ho
      isplitl [H0]; · iexact H0
      isplitl [H1]; · iexact H1
      iexists _; iexact H2
    · rw [Phi1_castSucc V c t, Phi1_pos V c _ _ hz]
      iintro ⟨⟨Hg, HR0, HR1, HR2, HR3, HR4, HR5, HR6, HR7, HR8, HR9, HS0, HS1⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [Hg HR0 HR1 HR2 HR3 HR4 HR5 HR6 HR7 HR8 HR9 HS0 HS1]
      · isplitl [Hg]; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact (View.read_writes_eq_canon _ _ _ (coverA0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))).trans (canonA0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))
        unfold owns; iexists _; isplitr
        swap; · iexact HS1
        ipureintro; exact (View.read_writes_eq_canon _ _ _ (coverA1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))).trans (canonA1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    by_cases h1 : t.val % 16 = 15
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      unfold outAt rowsumAt accAt
      rw [rowsumN_step V c t h0, accN_step V c t h0]
      rw [Phi1_castSucc V c t, Phi1_pos V c _ _ hz]
      iintro ⟨⟨Hg, HR0, HR1, HR2, HR3, HR4, HR5, HR6, HR7, HR8, HR9, HS0, HS1⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt))).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [Hg HR0 HR1 HR2 HR3 HR4 HR5 HR6 HR7 HR8 HR9 HS0 HS1]
      · isplitl [Hg]; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact (View.read_writes_eq_canon _ _ _ (coverC0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonC0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
        unfold owns; iexists _; isplitr
        swap; · iexact HS1
        ipureintro; exact (View.read_writes_eq_canon _ _ _ (coverC1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonC1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
      isplitl [Ho]; · iexact Ho
      isplitl [H0]; · iexact H0
      isplitl [H1]; · iexact H1
      unfold owns; iexists _; isplitr
      swap; · iexact H2
      ipureintro; exact (View.read_writes_eq_canon _ _ _ (coverC2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonC2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
    · have hc1 : ¬cond1_1 (grid1.coords t) := fun h => h1 ((hcond1_1 t).mp h)
      rw [Dat.leavesExact_idle (dat1 V c) 2 t (idleAt1_2 t hc1) (noFlush1_2 t hc1)]
      rw [rowsumN_step V c t h0, accN_step V c t h0]
      rw [Phi1_castSucc V c t, Phi1_pos V c _ _ hz]
      iintro ⟨⟨Hg, HR0, HR1, HR2, HR3, HR4, HR5, HR6, HR7, HR8, HR9, HS0, HS1⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt))).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hg HR0 HR1 HR2 HR3 HR4 HR5 HR6 HR7 HR8 HR9 HS0 HS1]
      · isplitl [Hg]; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact (View.read_writes_eq_canon _ _ _ (coverB0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonB0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
        unfold owns; iexists _; isplitr
        swap; · iexact HS1
        ipureintro; exact (View.read_writes_eq_canon _ _ _ (coverB1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonB1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
      isplitl [Ho]; · iexact Ho
      isplitl [H0]; · iexact H0
      isplitl [H1]; · iexact H1
      iexists _; iexact H2

/-- The body obligation of the pairwise launch, at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : iprop((∃ r, prngReg c r) ∗ Pipeline.scopedRest (Ix := Unit) (Name := ℕ) (U := UR sig nD τ) (Lvl := ℕ) spec1 c) ⊢ (dat1 V c).Φ 0 :=
  Idealize.SL.BI.Entails.refl _

/-- After the last point the invariant gives it back: what the two carried buffers hold is forgotten. -/
theorem hout1 (c : Dev nD) : (dat1 V c).Φ (Fin.last cfg1.N) ⊢ iprop((∃ r, prngReg c r) ∗ Pipeline.scopedRest (Ix := Unit) (Name := ℕ) (U := UR sig nD τ) (Lvl := ℕ) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 256 := N_1; omega), scopedRest1_eq]
  simp only [scM1_0, scM1_1, owns_whole]
  iintro ⟨Hg, HR0, HR1, HR2, HR3, HR4, HR5, HR6, HR7, HR8, HR9, HS0, HS1⟩
  isplitl [Hg]; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HS0]; · iexists _; iexact HS0
  iexists _; iexact HS1

end Regions

end Cert.KernelIdeal.Hand

end
-- ==== Proof.SharedSplit.lean ====
import proofs.«148446_j44409961840993_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

/-!
# One array behind two input windows

The pairwise kernel reads the gathered points through two windows: block i of the array through the first, block j
of the same array through the second. The array's buffer is therefore held once, whole, when the region is entered,
and has to serve two windows: it is cut into its two half shares, one per window, and put together again when the
region is left. The third window (the output) has its own array, held at the full share.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arrays of the pairwise call, window by window: the shared array at its two half shares, the output's array
    at the full share. -/
theorem arrays_shared_eq (c : Dev nD) (dat : Dat τ (Elt F) Unit ℕ (UR sig nD τ) ℕ cfg1 c)
    (h0 : dat.share 0 = fullShare.left) (h1 : dat.share 1 = fullShare.right) (h2 : dat.share 2 = fullShare)
    (A : (w : Fin cfg1.W) → Buf (Elt F) ((cfg1.win w).arr.view.loc (c : Thread nD τ))) :
    (dat.arrays A : sProp 𝕄) = iprop((((c : Thread nD τ).loc main_v78) ↦{fullShare.left} A 0)
      ∗ (((c : Thread nD τ).loc main_v78) ↦{fullShare.right} A 1) ∗ (((c : Thread nD τ).loc main_v79) ↦{fullShare} A 2)) := by
  unfold Dat.arrays
  rw [bigSep_W1]
  rw [(arr_whole1 0).set_eq_univ, (arr_whole1 2).set_eq_univ, h0, h1, h2]

/-- The distinct arrays behind the pairwise call's windows are two: the gathered points and the output. -/
theorem arrImage1 : Finset.univ.image (Pipeline.arrRef spec1) = ({main_v78, main_v79} : Finset (Ref sig .tc)) := by decide

/-- The two buffers behind the pairwise call's windows, each held whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v78) ↦{fullShare} V main_v78) ∗ (((c : Thread nD τ).loc main_v79) ↦{fullShare} V main_v79)) := by
  unfold Pipeline.arrBufs
  rw [arrImage1, bigSep_insert (by decide), bigSep_singleton]
  rfl

/-- ENTRY: the core's unscoped buffers at contents V give the pairwise call's arrays at V - the shared array cut into
    its two halves - and the buffers that bypass the region. -/
theorem arrays_of_unscopedBufs_shared (c : Dev nD) (dat : Dat τ (Elt F) Unit ℕ (UR sig nD τ) ℕ cfg1 c)
    (h0 : dat.share 0 = fullShare.left) (h1 : dat.share 1 = fullShare.right) (h2 : dat.share 2 = fullShare)
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (unscopedBufs c V : sProp 𝕄) ⊢ iprop(dat.arrays A ∗ Pipeline.unscopedRest spec1 c V) := by
  have hA0 : A 0 = V main_v78 := hA 0
  have hA1 : A 1 = V main_v78 := hA 1
  have hA2 : A 2 = V main_v79 := hA 2
  have hs : (unscopedBufs c V : sProp 𝕄) = iprop(Pipeline.arrBufs spec1 c V ∗ Pipeline.unscopedRest spec1 c V) :=
    Pipeline.unscopedBufs_split₀ cfgs 1 (by decide) c V
  rw [hs, arrBufs1_eq, arrays_shared_eq c dat h0 h1 h2, hA0, hA1, hA2]
  iintro ⟨⟨H78, H79⟩, Hrest⟩
  ihave H := (pointsTo_share (PosShare.mem_left_op_right fullShare)).1 $$ H78
  icases H with ⟨Hl, Hr⟩
  isplitr [Hrest]
  · isplitl [Hl]; · iexact Hl
    isplitl [Hr]; · iexact Hr
    iexact H79
  iexact Hrest

/-- EXIT: the arrays - the shared array's two halves at the same contents, the output at what the region wrote - and
    the bypassing buffers make the core's unscoped buffers at the exit contents. -/
theorem unscopedBufs_of_arrays_shared (c : Dev nD) (dat : Dat τ (Elt F) Unit ℕ (UR sig nD τ) ℕ cfg1 c)
    (h0 : dat.share 0 = fullShare.left) (h1 : dat.share 1 = fullShare.right) (h2 : dat.share 2 = fullShare)
    (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  have hA0 : A 0 = V' main_v78 := hA 0
  have hA1 : A 1 = V' main_v78 := hA 1
  have hA2 : A 2 = V' main_v79 := hA 2
  have hs : (unscopedBufs c V' : sProp 𝕄) = iprop(Pipeline.arrBufs spec1 c V' ∗ Pipeline.unscopedRest spec1 c V') :=
    Pipeline.unscopedBufs_split₀ cfgs 1 (by decide) c V'
  rw [hs, arrBufs1_eq, arrays_shared_eq c dat h0 h1 h2, hA0, hA1, hA2]
  iintro ⟨⟨Hl, Hr, H79⟩, Hrest⟩
  isplitr [Hrest]
  · isplitr [H79]
    · iapply (pointsTo_share (PosShare.mem_left_op_right fullShare)).2
      isplitl [Hl] <;> iassumption
    iexact H79
  unfold Pipeline.unscopedRest
  iapply (Entails.of_eq (bigSep_congr fun b hb => by rw [hrest b (Finset.mem_sdiff.mp hb).2]))
  iexact Hrest

end Cert.KernelIdeal.Hand

end
-- ==== Proof.Run.lean ====
import proofs.«148446_j44409961840993_1_alg».proof.Proof.Gen.KernelIdeal.Launch
import proofs.«148446_j44409961840993_1_alg».proof.Proof.Gen.KernelIdeal.Skeleton
import proofs.«148446_j44409961840993_1_alg».proof.Proof.Gen.KernelIdeal.Points
import proofs.«148446_j44409961840993_1_alg».proof.Proof.FeatBody
import proofs.«148446_j44409961840993_1_alg».proof.Proof.ClashBody
import proofs.«148446_j44409961840993_1_alg».proof.Proof.SharedSplit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The run of the whole program

The program is five stretches: three host reshapes; the feature kernel's region; ninety-four host operations (the bond
corrections and the gather of the generated points); the pairwise kernel's region; twenty-three host operations (the
scatter of the corrections and the final combination). The contents of the core's buffers are followed from the
launch memory through the five stretches: a host stretch applies its operations, a region leaves its arrays at what its
write-backs produce and every other buffer as it found it. Every weakly fair execution terminates with the buffers at
the last of these contents.
-/

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the three reshapes: what the feature kernel's region finds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the feature kernel's region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the ninety-four host operations: what the pairwise kernel's region finds. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- The one window of the pairwise call that writes: its output. -/
abbrev outSpec1 : Fin 1 → Pipeline.WinSpec sig grid1.rank := fun _ => spec1 2
/-- After the pairwise kernel's region: the output's array at what the pipeline leaves, every other buffer - the
    shared input array among them - as entered. -/
def W4 (c : Dev nD) : Valuation τ sig (Elt F) :=
  Pipeline.withArrays outSpec1 c (W3 m ρ c) fun _ => (dat1 (V3 m ρ) c).arrAt 2 cfg1.N
theorem W4_out (c : Dev nD) :
    W4 m ρ c (Proc.devRef .tc main_v79) = (dat1 (V3 m ρ) c).arrAt 2 cfg1.N := by
  unfold W4; exact Pipeline.withArrays_arr outSpec1 (fun _ _ _ => Subsingleton.elim _ _) c _ _ 0
theorem W4_of_ne (c : Dev nD) (b : Ref sig .tc) (hb : main_v79 ≠ b) :
    W4 m ρ c (Proc.devRef .tc b) = W3 m ρ c (Proc.devRef .tc b) := by
  unfold W4; exact Pipeline.withArrays_of_ne outSpec1 c _ _ b (fun _ => hb)
abbrev V4 : (c : Dev nD) → (b : Ref sig .tc) → Buf (Elt F) ((c : Thread nD τ).loc b) := fun c b => W4 m ρ c b
/-- After the last twenty-three host operations: the final contents. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The feature kernel's region: its eight arrays are distinct buffers, split out of the unscoped buffers on entry
    and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the pairwise region's exit each of its arrays holds what the pipeline leaves: the two input windows' array
    what it held at entry, the output's array the write-backs. -/
theorem hF1 (c : Dev nD) (w : Fin cfg1.W) : (dat1 (V3 m ρ) c).arrAt w cfg1.N = V4 m ρ c (Pipeline.arrRef spec1 w) := by
  match w with
  | ⟨0, _⟩ =>
    refine ((dat1 (V3 m ρ) c).arrAt_in 0 rfl _).trans ((A_eq1 (V3 m ρ) c 0).trans ?_)
    exact (W4_of_ne m ρ c (Pipeline.arrRef spec1 0) (by decide)).symm
  | ⟨1, _⟩ =>
    refine ((dat1 (V3 m ρ) c).arrAt_in 1 rfl _).trans ((A_eq1 (V3 m ρ) c 1).trans ?_)
    exact (W4_of_ne m ρ c (Pipeline.arrRef spec1 1) (by decide)).symm
  | ⟨2, _⟩ => exact (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨2, Finset.mem_univ _, e⟩)

/-- The shares of the pairwise call's proof data: the shared array at its two halves, the output's array whole. -/
theorem share1_0 (c : Dev nD) : (pdats m ρ 1 c).share 0 = fullShare.left := rfl
theorem share1_1 (c : Dev nD) : (pdats m ρ 1 c).share 1 = fullShare.right := rfl
theorem share1_2 (c : Dev nD) : (pdats m ρ 1 c).share 2 = fullShare := rfl

set_option backward.isDefEq.respectTransparency.types false in
/-- The pairwise kernel's region: the gathered points' array serves two windows at its two half shares; the output's
    array is the only one the region changes. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_of_unscopedBufs_shared c (pdats m ρ 1 c) (share1_0 m ρ c) (share1_1 m ρ c) (share1_2 m ρ c)
      (V3 m ρ c) ((pdats m ρ 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    refine (hout1 (V3 m ρ) c).trans ?_
    iintro ⟨Hp, Hr⟩
    isplitl [Hp]; · iexact Hp
    isplitr; · iempintro
    iexact Hr
  hexit c := by
    have hjoin := unscopedBufs_of_arrays_shared c (pdats m ρ 1 c) (share1_0 m ρ c) (share1_1 m ρ c) (share1_2 m ρ c)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program terminates, nothing faulting, and every unscoped buffer ends at the
    final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m ρ c)) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The argument arrays end as launched -/

/-- The feature kernel's region leaves every buffer but its output's array as it found it: an input window's array
    is only read, and any other buffer bypasses the region. -/
theorem W2_unwritten (c : Dev nD) (b : Ref sig .tc) (hb : main_v3 ≠ b) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => exact absurd rfl hb
    exact (W2_arr m ρ c w).trans (((dat0 (V1 m ρ) c).arrAt_in w hw _).trans (A_eq0 (V1 m ρ) c w))
  · exact W2_of_ne m ρ c b fun w e => h ⟨w, e⟩

/-- A buffer that no host operation writes and that is no region's output ends as launched. -/
theorem W5_of_unwritten (c : Dev nD) (b : Ref sig .tc)
    (h0 : ∀ op ∈ (hostOps0 : List (HloOp τ sig (Elt F))), Proc.devRef .tc b ∉ op.writes)
    (h1 : ∀ op ∈ (hostOps1 : List (HloOp τ sig (Elt F))), Proc.devRef .tc b ∉ op.writes)
    (h2 : ∀ op ∈ (hostOps2 : List (HloOp τ sig (Elt F))), Proc.devRef .tc b ∉ op.writes)
    (hb3 : main_v3 ≠ b) (hb79 : main_v79 ≠ b) :
    W5 m ρ c (Proc.devRef .tc b) = m ((c : Thread nD τ).loc b) :=
  calc W5 m ρ c (Proc.devRef .tc b)
    _ = W4 m ρ c (Proc.devRef .tc b) := StableHlo.after_of_forall_not_mem (b := Proc.devRef .tc b) _ _ h2
    _ = W3 m ρ c (Proc.devRef .tc b) := W4_of_ne m ρ c b hb79
    _ = W2 m ρ c (Proc.devRef .tc b) := StableHlo.after_of_forall_not_mem (b := Proc.devRef .tc b) _ _ h1
    _ = W1 m ρ c (Proc.devRef .tc b) := W2_unwritten m ρ c b hb3
    _ = W0 m ρ c (Proc.devRef .tc b) := StableHlo.after_of_forall_not_mem (b := Proc.devRef .tc b) _ _ h0
    _ = m ((c : Thread nD τ).loc b) := rfl

end Cert.KernelIdeal.Hand

end
-- ==== Proof.RunArgs.lean ====
import proofs.«148446_j44409961840993_1_alg».proof.Proof.Gen.KernelIdeal.Launch
import proofs.«148446_j44409961840993_1_alg».proof.Proof.Gen.KernelIdeal.Skeleton
import proofs.«148446_j44409961840993_1_alg».proof.Proof.Gen.KernelIdeal.Points
import proofs.«148446_j44409961840993_1_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The argument arrays end as launched

No host operation writes an argument array and no region's output window is one: each argument's buffer keeps its
launch contents through the five stretches. The result's buffer ends at the last stretch's value.
-/

/-- A buffer is written by no operation of a stretch: decided operation by operation on the references. -/
local macro "unwritten" ops:ident : tactic => `(tactic| (
  refine List.forall_iff_forall_mem.mp ?_
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals first | trivial | exact StableHlo.devRef_ne_of_ne (by decide)))

/-- The twelve argument arrays, by position. -/
def argRef : Fin 12 → Ref sig .tc
  | ⟨0, _⟩ => main_arg0
  | ⟨1, _⟩ => main_arg1
  | ⟨2, _⟩ => main_arg2
  | ⟨3, _⟩ => main_arg3
  | ⟨4, _⟩ => main_arg4
  | ⟨5, _⟩ => main_arg5
  | ⟨6, _⟩ => main_arg6
  | ⟨7, _⟩ => main_arg7
  | ⟨8, _⟩ => main_arg8
  | ⟨9, _⟩ => main_arg9
  | ⟨10, _⟩ => main_arg10
  | ⟨11, _⟩ => main_arg11

set_option maxHeartbeats 4000000 in
theorem args_unwritten0 (k : Fin 12) :
    ∀ op ∈ (hostOps0 : List (HloOp τ sig (Elt F))), Proc.devRef .tc (argRef k) ∉ op.writes := by
  fin_cases k <;> unwritten hostOps0
set_option maxHeartbeats 40000000 in
theorem args_unwritten1 (k : Fin 12) :
    ∀ op ∈ (hostOps1 : List (HloOp τ sig (Elt F))), Proc.devRef .tc (argRef k) ∉ op.writes := by
  fin_cases k <;> unwritten hostOps1
set_option maxHeartbeats 4000000 in
theorem args_unwritten2 (k : Fin 12) :
    ∀ op ∈ (hostOps2 : List (HloOp τ sig (Elt F))), Proc.devRef .tc (argRef k) ∉ op.writes := by
  fin_cases k <;> unwritten hostOps2
theorem arg_ne_v3 (k : Fin 12) : main_v3 ≠ argRef k := by fin_cases k <;> decide
theorem arg_ne_v79 (k : Fin 12) : main_v79 ≠ argRef k := by fin_cases k <;> decide

variable (m : (ℓ : Loc nD τ sig) → Buf (Elt F) ℓ) (ρ : Dev nD → PrngReg)

/-- After the three reshapes an argument array is as launched, -/
theorem W1_arg (c : Dev nD) (k : Fin 12) : W1 m ρ c (Proc.devRef .tc (argRef k)) = m ((c : Thread nD τ).loc (argRef k)) :=
  StableHlo.after_of_forall_not_mem (b := Proc.devRef .tc (argRef k)) _ _ (args_unwritten0 k)
/-- after the feature kernel's region, -/
theorem W2_arg (c : Dev nD) (k : Fin 12) : W2 m ρ c (Proc.devRef .tc (argRef k)) = m ((c : Thread nD τ).loc (argRef k)) :=
  (W2_unwritten m ρ c (argRef k) (arg_ne_v3 k)).trans (W1_arg m ρ c k)
/-- after the ninety-four host operations, -/
theorem W3_arg (c : Dev nD) (k : Fin 12) : W3 m ρ c (Proc.devRef .tc (argRef k)) = m ((c : Thread nD τ).loc (argRef k)) :=
  (StableHlo.after_of_forall_not_mem (b := Proc.devRef .tc (argRef k)) _ _ (args_unwritten1 k)).trans (W2_arg m ρ c k)
/-- after the pairwise kernel's region, -/
theorem W4_arg (c : Dev nD) (k : Fin 12) : W4 m ρ c (Proc.devRef .tc (argRef k)) = m ((c : Thread nD τ).loc (argRef k)) :=
  (W4_of_ne m ρ c (argRef k) (arg_ne_v79 k)).trans (W3_arg m ρ c k)
/-- and at the end. -/
theorem W5_arg (c : Dev nD) (k : Fin 12) : W5 m ρ c (Proc.devRef .tc (argRef k)) = m ((c : Thread nD τ).loc (argRef k)) :=
  (StableHlo.after_of_forall_not_mem (b := Proc.devRef .tc (argRef k)) _ _ (args_unwritten2 k)).trans (W4_arg m ρ c k)

/-- Every weakly fair execution of the program terminates, nothing faulting; the result's buffer ends at the last
    stretch's value and every argument array as launched. -/
theorem run_result : θ_run defs (onTc (τ := τ) (main (F := F))) ⟨m, fun _ => 0, ρ⟩ (fun r => ∀ c : Dev nD,
      r.2.mem ((c.tc : Thread nD τ).loc main_v97) = W5 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have harg : ∀ k : Fin 12, r.2.mem ((c.tc : Thread nD τ).loc (argRef k)) = m ((c.tc : Thread nD τ).loc (argRef k)) := fun k =>
      (h c _ (mem_uc (argRef k) (by fin_cases k <;> decide))).trans (W5_arg m ρ c k)
    ⟨h c _ (mem_uc main_v97 (by decide)), harg 0, harg 1, harg 2, harg 3, harg 4, harg 5, harg 6, harg 7, harg 8, harg 9,
      harg 10, harg 11⟩) (run_all m ρ)

/-- The frame: the program runs to the end and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.KernelIdeal.Hand

end
-- ==== Proof.FeatBodyBits.lean ====
/- The feature kernel's region: each window's block at a grid point, what the body's one store leaves in the
   output block as a closed function of the seven input blocks, the body's triple, the proof data of the pipeline at
   region-entry contents V, and the body obligation at every point. Generic in the float model. -/
import proofs.«148446_j44409961840993_1_alg».proof.Proof.Gen.Kernel.Launch
import proofs.«148446_j44409961840993_1_alg».proof.Proof.Gen.Kernel.Skeleton
import proofs.«148446_j44409961840993_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is V's and whose body leaves the block in place: where the window is not fetched its block
    index has not moved. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole rectangle of its staging buffer -/

abbrev r0_0 : Rect S2048x512 := Rect.unit (s := S2048x512) ![0, 0] S2048x512.size Gen.inb_S2048x512_S2048x512_0_0
abbrev r0_1 : Rect S512x256 := Rect.unit (s := S512x256) ![0, 0] S512x256.size Gen.inb_S512x256_S512x256_0_0
abbrev r0_2 : Rect S1x256 := Rect.unit (s := S1x256) ![0, 0] S1x256.size Gen.inb_S1x256_S1x256_0_0
abbrev r0_3 : Rect S256x1 := Rect.unit (s := S256x1) ![0, 0] S256x1.size Gen.inb_S256x1_S256x1_0_0
abbrev r0_4 : Rect S1x1 := Rect.unit (s := S1x1) ![0, 0] S1x1.size Gen.inb_S1x1_S1x1_0_0
abbrev r0_7 : Rect S2048x2 := Rect.unit (s := S2048x2) ![0, 0] S2048x2.size Gen.inb_S2048x2_S2048x2_0_0

/-! ## What the body leaves in the output window's buffer -/

/-- Window 7's staging buffer after the body, from the seven input windows' blocks (in window order): its one store
    as a covering piece, the payload read at the loads of the blocks. The payload takes the blocks of windows
    0, 1, 2, 3, 5, 4, 6 in that order. -/
def out0_7 (x0 : Vec F S2048x512 .f32) (x1 : Vec F S512x256 .f32) (x2 : Vec F S1x256 .f32) (x3 : Vec F S256x1 .f32)
    (x4 : Vec F S1x1 .f32) (x5 : Vec F S256x1 .f32) (x6 : Vec F S1x1 .f32) : Vec F S2048x2 .f32 :=
  View.canon [⟨r0_7, k0_pay1 (View.ld x0 r0_0) (View.ld x1 r0_1) (View.ld x2 r0_2) (View.ld x3 r0_3) (View.ld x5 r0_3) (View.ld x4 r0_4) (View.ld x6 r0_4)⟩]

/-- The store tiles the buffer, so it covers it. -/
theorem cover0_7 (p0 : Vec F S2048x2 .f32) (y : S2048x2.Idx) :
    ∃ pc ∈ ([⟨r0_7, p0⟩] : List (View.Piece (Elt F) S2048x2 .f32)), y ∈ pc.1.set :=
  View.cover_of_tiled [⟨r0_7, p0⟩] S2048x2.size (by rfl) y

/-! ## The body's triple -/

set_option maxHeartbeats 4000000 in
/-- The kernel body on whole staging memrefs, the inputs' at read contents x0 .. x6 and the output's at anything, runs
    to the continuation holding the inputs' as they were and the output's at out0_7 of the inputs'. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x1 .f32) (harg4 : arg4.IsWhole)
    (arg5 : Memref sig .tc .vmem S1x1 .f32) (harg5 : arg5.IsWhole) (arg6 : Memref sig .tc .vmem S256x1 .f32) (harg6 : arg6.IsWhole)
    (arg7 : Memref sig .tc .vmem S1x1 .f32) (harg7 : arg7.IsWhole) (arg8 : Memref sig .tc .vmem S2048x2 .f32) (harg8 : arg8.IsWhole)
    (x0 : Vec F S2048x512 .f32) (x1 : Vec F S512x256 .f32) (x2 : Vec F S1x256 .f32) (x3 : Vec F S256x1 .f32)
    (x4 : Vec F S1x1 .f32) (x5 : Vec F S256x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__feat_kernel i arg1 harg1 arg2 harg2 arg3 harg3 arg4 harg4 arg5 harg5 arg6 harg6 arg7 harg7 arg8 harg8) K := by
  simp only [cc0__feat_kernel_eq_skeleton]; unfold cc0__feat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the feature pipeline on core c: the arrays as the region finds them; after the body at point t
    each input's buffer at its block and the output's at out0_7 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.ClashRunABits.lean ====
/-
  The pairwise kernel of the second launch, run as a whole in each of its three control cases.
  The grid is sixteen row blocks by sixteen column blocks; the second coordinate decides the case:
  at the first column block the two carried buffers (the running row sums and the running
  coefficient-weighted point sums) are zeroed before being added to, at the last column block the
  output block is computed from them, and in between they are only added to.
  This module: the two conditions in closed form over the grid, where the output window is idle, and the first case.
-/
import proofs.«148446_j44409961840993_1_alg».proof.Proof.Gen.Kernel.Launch
import proofs.«148446_j44409961840993_1_alg».proof.Proof.Gen.Kernel.Skeleton
import proofs.«148446_j44409961840993_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional of the body (the reset of the two carried buffers), as a proposition over the grid coordinates. -/
abbrev cond1_0 (i : grid1.Coords) : Prop := (Scalar.cmpi .ne (Scalar.extui (Scalar.cmpi .eq (BitVec.ofNat 32 (i 1).val) 0#32)) 0#32) = 1#1
/-- It holds exactly at the first column block of every row block. -/
theorem hcond1_0 : ∀ t : Fin cfg1.N, cond1_0 (grid1.coords t) ↔ t.val % 16 = 0 :=
  (by decide +kernel : ∀ t : Fin grid1.N, cond1_0 (grid1.coords t) ↔ t.val % 16 = 0)
/-- The second conditional of the body (the store of the output block). -/
abbrev cond1_1 (i : grid1.Coords) : Prop := k1_cond2 i = 1#1
/-- It holds exactly at the last column block of every row block. -/
theorem hcond1_1 : ∀ t : Fin cfg1.N, cond1_1 (grid1.coords t) ↔ t.val % 16 = 15 :=
  (by decide +kernel : ∀ t : Fin grid1.N, cond1_1 (grid1.coords t) ↔ t.val % 16 = 15)
/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle, and not written back, away from the last column block; it is live there. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

set_option maxHeartbeats 1000000 in
/-- The first case: the reset is taken, the output store is not. The two carried buffers are held at any contents, zeroed, read back and stored once more each; the output buffer is untouched. -/
noncomputable def kernelRun1_A (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : cond1_0 i) (hc1 : ¬cond1_1 i)
    (x0 x1 : Vec F S512x3 .f32) :
    Σ' (LS0 : List (View.Piece (Elt F) S512x1 .f32)), { LS1 : List (View.Piece (Elt F) S512x3 .f32) //
      ∀ (xi2 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__clash_kernel i arg2 harg2 arg3 harg3 arg4 harg4 arg5 harg5 arg6 harg6) K } := by
  refine ⟨?_, ?_, fun xi2 E K => ?run⟩
  case run =>
    simp only [cc1__clash_kernel_eq_skeleton]; unfold cc1__clash_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.ClashRunBBits.lean ====
/- The pairwise kernel run as a whole in its middle case (neither conditional taken). -/
import proofs.«148446_j44409961840993_1_alg».proof.Proof.ClashRunABits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The middle case: neither conditional taken. The two carried buffers are read at what the point before left and stored once each; the output buffer is untouched. -/
noncomputable def kernelRun1_B (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : ¬cond1_0 i) (hc1 : ¬cond1_1 i)
    (x0 x1 : Vec F S512x3 .f32) (xs0 : Vec F S512x1 .f32) (xs1 : Vec F S512x3 .f32) :
    Σ' (LS0 : List (View.Piece (Elt F) S512x1 .f32)), { LS1 : List (View.Piece (Elt F) S512x3 .f32) //
      ∀ (xi2 : Vec F S512x3 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__clash_kernel i arg2 harg2 arg3 harg3 arg4 harg4 arg5 harg5 arg6 harg6) K } := by
  refine ⟨?_, ?_, fun xi2 E K => ?run⟩
  case run =>
    simp only [cc1__clash_kernel_eq_skeleton]; unfold cc1__clash_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.ClashRunCBits.lean ====
/- The pairwise kernel run as a whole in its last case (the output block is stored). -/
import proofs.«148446_j44409961840993_1_alg».proof.Proof.ClashRunBBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The last case: the reset is not taken, the output store is. The two carried buffers are read at what the point before left, stored once each and read back; the output buffer, held at any contents, is stored whole. -/
noncomputable def kernelRun1_C (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : ¬cond1_0 i) (hc1 : cond1_1 i)
    (x0 x1 : Vec F S512x3 .f32) (xs0 : Vec F S512x1 .f32) (xs1 : Vec F S512x3 .f32) :
    Σ' (L2 : List (View.Piece (Elt F) S512x3 .f32)) (LS0 : List (View.Piece (Elt F) S512x1 .f32)), { LS1 : List (View.Piece (Elt F) S512x3 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__clash_kernel i arg2 harg2 arg3 harg3 arg4 harg4 arg5 harg5 arg6 harg6) K } := by
  refine ⟨?_, ?_, ?_, fun E K => ?run⟩
  case run =>
    simp only [cc1__clash_kernel_eq_skeleton]; unfold cc1__clash_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.ClashCasesBits.lean ====
/-
  What each control case of the pairwise kernel leaves in the two carried buffers and in the output buffer,
  in closed form: the pieces the three runs found are single stores of the whole buffer, so what is read back
  is the stored value; a load of a carried buffer after such a store reads that value.
-/
import proofs.«148446_j44409961840993_1_alg».proof.Proof.ClashRunCBits
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two zero offsets of a rank two rectangle, spelt as a constant function. -/
theorem hz2 : (![0, 0] : Fin 2 → ℕ) = fun _ => 0 := by funext a; fin_cases a <;> rfl

/-- One accumulation step of the running row sums: the sum over the 512 columns of the block of the
    pair coefficients of row block against column block, added to what was accumulated before. -/
def rowStep (i : grid1.Coords) (b0 b1 : Vec F S512x3 .f32) (prev : Vec F S512x1 .f32) : Vec F S512x1 .f32 :=
  k1_pay2 (k1_pay9 b0 b1) (k1_pay10 i b0 b1) (Scalar.ofBits .f32 0x3F800000#32) prev

/-- One accumulation step of the running weighted point sums: the coefficient block times the column block of points,
    added to what was accumulated before. -/
def accStep (i : grid1.Coords) (b0 b1 : Vec F S512x3 .f32) (prev : Vec F S512x3 .f32) : Vec F S512x3 .f32 :=
  k1_pay3 (k1_pay8 b1) (k1_pay9 b0 b1) (k1_pay10 i b0 b1) (Scalar.ofBits .f32 0x3F800000#32) prev

/-- The output block from the row block of points and the two accumulated buffers: point times row sum minus weighted sum. -/
def outStep (b0 : Vec F S512x3 .f32) (rs : Vec F S512x1 .f32) (ac : Vec F S512x3 .f32) : Vec F S512x3 .f32 :=
  k1_pay4 (k1_pay7 b0) rs ac

section A
variable (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : cond1_0 i) (hc1 : ¬cond1_1 i) (x0 x1 : Vec F S512x3 .f32)

theorem coverA0 (y : S512x1.Idx) : ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S512x1.size (by sl_kernel_rfl) y
theorem coverA1 (y : S512x3.Idx) : ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S512x3.size (by sl_kernel_rfl) y

theorem canonA0 : View.canon (kernelRun1_A c i arg2 harg2 arg3 harg3 arg4 harg4 arg5 harg5 arg6 harg6 hc0 hc1 x0 x1).1 = rowStep i x0 x1 (k1_pay5 (F := F)) := by
  unfold kernelRun1_A; dsimp only; sl_unfold_words
  rw [View.canon_cons_unit_zero hz2]
  simp only [View.readAt_eq_ld, harg2.read_unread, harg3.read_unread, View.ld_unit_zero (S := S512x1) hz2, View.ld_unit_zero (S := S512x3) hz2, View.readCov_unit_zero (S := S512x1) _ hz2, View.readCov_unit_zero (S := S512x3) _ hz2]
  rfl
theorem canonA1 : View.canon (kernelRun1_A c i arg2 harg2 arg3 harg3 arg4 harg4 arg5 harg5 arg6 harg6 hc0 hc1 x0 x1).2.1 = accStep i x0 x1 (k1_pay6 (F := F)) := by
  unfold kernelRun1_A; dsimp only; sl_unfold_words
  rw [View.canon_cons_unit_zero hz2]
  simp only [View.readAt_eq_ld, harg2.read_unread, harg3.read_unread, View.ld_unit_zero (S := S512x1) hz2, View.ld_unit_zero (S := S512x3) hz2, View.readCov_unit_zero (S := S512x1) _ hz2, View.readCov_unit_zero (S := S512x3) _ hz2]
  rfl
end A

section B
variable (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : ¬cond1_0 i) (hc1 : ¬cond1_1 i)
    (x0 x1 : Vec F S512x3 .f32) (xs0 : Vec F S512x1 .f32) (xs1 : Vec F S512x3 .f32)

theorem coverB0 (y : S512x1.Idx) : ∃ pc ∈ (kernelRun1_B c i arg2 harg2 arg3 harg3 arg4 harg4 arg5 harg5 arg6 harg6 hc0 hc1 x0 x1 xs0 xs1).1, y ∈ pc.1.set :=
  View.cover_of_tiledL (kernelRun1_B c i arg2 harg2 arg3 harg3 arg4 harg4 arg5 harg5 arg6 harg6 hc0 hc1 x0 x1 xs0 xs1).1 S512x1.size (by sl_kernel_rfl) y
theorem coverB1 (y : S512x3.Idx) : ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S512x3.size (by sl_kernel_rfl) y

theorem canonB0 : View.canon (kernelRun1_B c i arg2 harg2 arg3 harg3 arg4 harg4 arg5 harg5 arg6 harg6 hc0 hc1 x0 x1 xs0 xs1).1 = rowStep i x0 x1 xs0 := by
  unfold kernelRun1_B; dsimp only; sl_unfold_words
  rw [View.canon_unit_zero hz2]
  simp only [View.readAt_eq_ld, harg2.read_unread, harg3.read_unread, harg5.read_unread, View.ld_unit_zero (S := S512x1) hz2, View.ld_unit_zero (S := S512x3) hz2]
  rfl
theorem canonB1 : View.canon (kernelRun1_B c i arg2 harg2 arg3 harg3 arg4 harg4 arg5 harg5 arg6 harg6 hc0 hc1 x0 x1 xs0 xs1).2.1 = accStep i x0 x1 xs1 := by
  unfold kernelRun1_B; dsimp only; sl_unfold_words
  rw [View.canon_unit_zero hz2]
  simp only [View.readAt_eq_ld, harg2.read_unread, harg3.read_unread, harg6.read_unread, View.ld_unit_zero (S := S512x1) hz2, View.ld_unit_zero (S := S512x3) hz2]
  rfl
end B

section C
variable (c : Dev nD) (i : grid1.Coords) (arg2 : Memref sig .tc .vmem S512x3 .f32) (harg2 : arg2.IsWhole) (arg3 : Memref sig .tc .vmem S512x3 .f32) (harg3 : arg3.IsWhole) (arg4 : Memref sig .tc .vmem S512x3 .f32) (harg4 : arg4.IsWhole) (arg5 : Memref sig .tc .vmem S512x1 .f32) (harg5 : arg5.IsWhole) (arg6 : Memref sig .tc .vmem S512x3 .f32) (harg6 : arg6.IsWhole) (hc0 : ¬cond1_0 i) (hc1 : cond1_1 i)
    (x0 x1 : Vec F S512x3 .f32) (xs0 : Vec F S512x1 .f32) (xs1 : Vec F S512x3 .f32)

theorem coverC2 (y : S512x3.Idx) : ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S512x3.size (by sl_kernel_rfl) y
theorem coverC0 (y : S512x1.Idx) : ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S512x1.size (by sl_kernel_rfl) y
theorem coverC1 (y : S512x3.Idx) : ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S512x3.size (by sl_kernel_rfl) y

theorem canonC0 : View.canon (kernelRun1_C c i arg2 harg2 arg3 harg3 arg4 harg4 arg5 harg5 arg6 harg6 hc0 hc1 x0 x1 xs0 xs1).2.1 = rowStep i x0 x1 xs0 := by
  unfold kernelRun1_C; dsimp only; sl_unfold_words
  rw [View.canon_unit_zero hz2]
  simp only [View.readAt_eq_ld, harg2.read_unread, harg3.read_unread, harg5.read_unread, View.ld_unit_zero (S := S512x1) hz2, View.ld_unit_zero (S := S512x3) hz2]
  rfl
theorem canonC1 : View.canon (kernelRun1_C c i arg2 harg2 arg3 harg3 arg4 harg4 arg5 harg5 arg6 harg6 hc0 hc1 x0 x1 xs0 xs1).2.2.1 = accStep i x0 x1 xs1 := by
  unfold kernelRun1_C; dsimp only; sl_unfold_words
  rw [View.canon_unit_zero hz2]
  simp only [View.readAt_eq_ld, harg2.read_unread, harg3.read_unread, harg6.read_unread, View.ld_unit_zero (S := S512x1) hz2, View.ld_unit_zero (S := S512x3) hz2]
  rfl
theorem canonC2 : View.canon (kernelRun1_C c i arg2 harg2 arg3 harg3 arg4 harg4 arg5 harg5 arg6 harg6 hc0 hc1 x0 x1 xs0 xs1).1 = outStep x0 (rowStep i x0 x1 xs0) (accStep i x0 x1 xs1) := by
  unfold kernelRun1_C; dsimp only; sl_unfold_words
  rw [View.canon_unit_zero hz2]
  simp only [View.readAt_eq_ld, harg2.read_unread, harg3.read_unread, harg5.read_unread, harg6.read_unread, View.ld_unit_zero (S := S512x1) hz2, View.ld_unit_zero (S := S512x3) hz2, View.readCov_unit_zero (S := S512x1) _ hz2, View.readCov_unit_zero (S := S512x3) _ hz2]
  rfl
end C

end Cert.Kernel.Hand

end
-- ==== Proof.ClashBodyBits.lean ====
/-
  The pairwise launch as a region of the program: the blocks of its windows, what its two carried buffers and
  its output block hold after each grid point (a recursion over the grid position: a fresh start from zero at the
  first column block of each row block, one accumulation step elsewhere), the invariant carrying the two buffers
  from point to point, the proof data and the body obligation, by cases on the second grid coordinate.
-/
import proofs.«148446_j44409961840993_1_alg».proof.Proof.ClashCasesBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- The block of a window at a grid point, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of points is in its staging buffer at every grid point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The column block of points likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The staging memref of each window at a grid point, and its wholeness. -/
abbrev ms1_0 (t : Fin cfg1.N) : Memref sig .tc .vmem S512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x3 .f32 := win1_2.stage (cfg1.slots t 2)
abbrev hs1_2 (t : Fin cfg1.N) : (ms1_2 t).IsWhole := hstage1_2 ((cfg1.slots t 2).cast nbuf1_2)
/-- The two carried buffers, whole. -/
abbrev scM1_0 : Memref sig .tc .vmem S512x1 .f32 := Memref.whole cc1_scratch0
abbrev scM1_1 : Memref sig .tc .vmem S512x3 .f32 := Memref.whole cc1_scratch1

/-! ## What the carried buffers and the output block hold after each grid point -/

/-- The running row sums after the point at position n: a fresh start from zero at the first column block
    of a row block, one more step over what the point before left elsewhere. -/
def rowsumN (c : Dev nD) : (n : ℕ) → n < cfg1.N → Vec F S512x1 .f32
  | 0, hn => rowStep (grid1.coords ⟨0, hn⟩) (iblk1 V c 0 ⟨0, hn⟩) (iblk1 V c 1 ⟨0, hn⟩) (k1_pay5 (F := F))
  | n + 1, hn => rowStep (grid1.coords ⟨n + 1, hn⟩) (iblk1 V c 0 ⟨n + 1, hn⟩) (iblk1 V c 1 ⟨n + 1, hn⟩)
      (if (n + 1) % 16 = 0 then k1_pay5 (F := F) else rowsumN c n (Nat.lt_of_succ_lt hn))

/-- The running weighted point sums after the point at position n, likewise. -/
def accN (c : Dev nD) : (n : ℕ) → n < cfg1.N → Vec F S512x3 .f32
  | 0, hn => accStep (grid1.coords ⟨0, hn⟩) (iblk1 V c 0 ⟨0, hn⟩) (iblk1 V c 1 ⟨0, hn⟩) (k1_pay6 (F := F))
  | n + 1, hn => accStep (grid1.coords ⟨n + 1, hn⟩) (iblk1 V c 0 ⟨n + 1, hn⟩) (iblk1 V c 1 ⟨n + 1, hn⟩)
      (if (n + 1) % 16 = 0 then k1_pay6 (F := F) else accN c n (Nat.lt_of_succ_lt hn))

/-- What the first carried buffer holds after point t. -/
def rowsumAt (c : Dev nD) (t : Fin cfg1.N) : Vec F S512x1 .f32 := rowsumN V c t.val t.isLt
/-- What the second carried buffer holds after point t. -/
def accAt (c : Dev nD) (t : Fin cfg1.N) : Vec F S512x3 .f32 := accN V c t.val t.isLt
/-- The output block computed from the row block of points and the two carried buffers after point t: what the output
    window's staging buffer holds after the last column block of a row block (elsewhere the window is idle and this is not read). -/
def outAt (c : Dev nD) (t : Fin cfg1.N) : Vec F S512x3 .f32 := outStep (iblk1 V c 0 t) (rowsumAt V c t) (accAt V c t)

theorem rowsumAt_first (c : Dev nD) (t : Fin cfg1.N) (h : t.val % 16 = 0) :
    rowsumAt V c t = rowStep (grid1.coords t) (iblk1 V c 0 t) (iblk1 V c 1 t) (k1_pay5 (F := F)) := by
  obtain ⟨n, hn⟩ := t
  cases n with
  | zero => rfl
  | succ n => exact congrArg (rowStep _ _ _) (if_pos h)
theorem rowsumAt_step (c : Dev nD) (t : Fin cfg1.N) (h : ¬t.val % 16 = 0) :
    rowsumAt V c t = rowStep (grid1.coords t) (iblk1 V c 0 t) (iblk1 V c 1 t) (rowsumAt V c ⟨t.val - 1, Nat.lt_of_le_of_lt (Nat.sub_le _ _) t.isLt⟩) := by
  obtain ⟨n, hn⟩ := t
  cases n with
  | zero => exact absurd (Nat.zero_mod _) h
  | succ n => exact congrArg (rowStep _ _ _) (if_neg h)
theorem accAt_first (c : Dev nD) (t : Fin cfg1.N) (h : t.val % 16 = 0) :
    accAt V c t = accStep (grid1.coords t) (iblk1 V c 0 t) (iblk1 V c 1 t) (k1_pay6 (F := F)) := by
  obtain ⟨n, hn⟩ := t
  cases n with
  | zero => rfl
  | succ n => exact congrArg (accStep _ _ _) (if_pos h)
theorem accAt_step (c : Dev nD) (t : Fin cfg1.N) (h : ¬t.val % 16 = 0) :
    accAt V c t = accStep (grid1.coords t) (iblk1 V c 0 t) (iblk1 V c 1 t) (accAt V c ⟨t.val - 1, Nat.lt_of_le_of_lt (Nat.sub_le _ _) t.isLt⟩) := by
  obtain ⟨n, hn⟩ := t
  cases n with
  | zero => exact absurd (Nat.zero_mod _) h
  | succ n => exact congrArg (accStep _ _ _) (if_neg h)

/-! ## The invariant -/

/-- The invariant before the point at position n: the generator register at some state and the scoped buffers that
    are no staging buffer of this launch, those of the other launch at some contents, the two carried buffers at what
    the point before left in them (before the first point, at some contents as well). -/
def Phi1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, hn => iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)
      ∗ owns (c : Thread nD τ) scM1_0 fullShare (rowsumN V c n hn) ∗ owns (c : Thread nD τ) scM1_1 fullShare (accN V c n hn))

theorem Phi1_zero (c : Dev nD) (n : ℕ) (h : n ≤ cfg1.N) (hz : n = 0) :
    Phi1 V c n h = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)
      ∗ (∃ d, owns (c : Thread nD τ) scM1_0 fullShare d) ∗ (∃ d, owns (c : Thread nD τ) scM1_1 fullShare d)) := by
  subst hz
  show iprop((∃ r, prngReg c r) ∗ Pipeline.scopedRest (Ix := Unit) (Name := ℕ) (U := UR sig nD τ) (Lvl := ℕ) spec1 c) = _
  rw [scopedRest1_eq]; simp only [scM1_0, scM1_1, owns_whole]; try rfl

theorem Phi1_succ (c : Dev nD) (n : ℕ) (hn : n < cfg1.N) :
    Phi1 V c (n + 1) hn = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)
      ∗ owns (c : Thread nD τ) scM1_0 fullShare (rowsumN V c n hn) ∗ owns (c : Thread nD τ) scM1_1 fullShare (accN V c n hn)) := rfl

theorem Phi1_pos (c : Dev nD) (n : ℕ) (h : n ≤ cfg1.N) (hz : n ≠ 0) :
    Phi1 V c n h = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f)
      ∗ owns (c : Thread nD τ) scM1_0 fullShare (rowsumN V c (n - 1) (by omega)) ∗ owns (c : Thread nD τ) scM1_1 fullShare (accN V c (n - 1) (by omega))) := by
  cases n with
  | zero => exact absurd rfl hz
  | succ n => rfl

/-! ## The proof data -/

/-- The proof data of the pairwise launch on a core: the arrays as the launch finds them; after the body each input's
    buffer at its block and the output's at the output block of the point; the invariant above; nothing owed; the one
    array both input windows read held at two half shares, the output array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := Phi1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]
theorem owed1 (c : Dev nD) (t : Fin (cfg1.N + 1)) : (dat1 V c).owed t = 0 := rfl
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The position recursions at a point, in the two forms the case split uses. -/
theorem rowsumN_first (c : Dev nD) (t : Fin cfg1.N) (h : t.val % 16 = 0) :
    rowsumN V c t.val t.isLt = rowStep (grid1.coords t) (iblk1 V c 0 t) (iblk1 V c 1 t) (k1_pay5 (F := F)) := rowsumAt_first V c t h
theorem rowsumN_step (c : Dev nD) (t : Fin cfg1.N) (h : ¬t.val % 16 = 0) :
    rowsumN V c t.val t.isLt = rowStep (grid1.coords t) (iblk1 V c 0 t) (iblk1 V c 1 t) (rowsumN V c (t.val - 1) (Nat.lt_of_le_of_lt (Nat.sub_le _ _) t.isLt)) := rowsumAt_step V c t h
theorem accN_first (c : Dev nD) (t : Fin cfg1.N) (h : t.val % 16 = 0) :
    accN V c t.val t.isLt = accStep (grid1.coords t) (iblk1 V c 0 t) (iblk1 V c 1 t) (k1_pay6 (F := F)) := accAt_first V c t h
theorem accN_step (c : Dev nD) (t : Fin cfg1.N) (h : ¬t.val % 16 = 0) :
    accN V c t.val t.isLt = accStep (grid1.coords t) (iblk1 V c 0 t) (iblk1 V c 1 t) (accN V c (t.val - 1) (Nat.lt_of_le_of_lt (Nat.sub_le _ _) t.isLt)) := accAt_step V c t h

set_option maxHeartbeats 4800000 in
/-- The body at any grid point. The inputs' buffers hold their blocks; the second grid coordinate decides the case;
    the invariant hands the body the two carried buffers at what the point before left (at the first point, at
    anything) and takes them back at this point's values; away from the last column block the output buffer goes
    back untouched, there it comes back holding the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 256 := lt_of_lt_of_eq t.isLt (show cfg1.N = 256 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [rowsumN_first V c t h0, accN_first V c t h0]
    by_cases hz : t.val = 0
    · rw [Phi1_castSucc V c t, Phi1_zero V c _ _ hz]
      iintro ⟨⟨Hg, HR0, HR1, HR2, HR3, HR4, HR5, HR6, HR7, HR8, HR9, HS0, HS1⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hg HR0 HR1 HR2 HR3 HR4 HR5 HR6 HR7 HR8 HR9 HS0 HS1]
      · isplitl [Hg]; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact (View.read_writes_eq_canon _ _ _ (coverA0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))).trans (canonA0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))
        unfold owns; iexists _; isplitr
        swap; · iexact HS1
        ipureintro; exact (View.read_writes_eq_canon _ _ _ (coverA1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))).trans (canonA1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))
      isplitl [Ho]; · iexact Ho
      isplitl [H0]; · iexact H0
      isplitl [H1]; · iexact H1
      iexists _; iexact H2
    · rw [Phi1_castSucc V c t, Phi1_pos V c _ _ hz]
      iintro ⟨⟨Hg, HR0, HR1, HR2, HR3, HR4, HR5, HR6, HR7, HR8, HR9, HS0, HS1⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [Hg HR0 HR1 HR2 HR3 HR4 HR5 HR6 HR7 HR8 HR9 HS0 HS1]
      · isplitl [Hg]; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact (View.read_writes_eq_canon _ _ _ (coverA0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))).trans (canonA0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))
        unfold owns; iexists _; isplitr
        swap; · iexact HS1
        ipureintro; exact (View.read_writes_eq_canon _ _ _ (coverA1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))).trans (canonA1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t))
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    by_cases h1 : t.val % 16 = 15
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      unfold outAt rowsumAt accAt
      rw [rowsumN_step V c t h0, accN_step V c t h0]
      rw [Phi1_castSucc V c t, Phi1_pos V c _ _ hz]
      iintro ⟨⟨Hg, HR0, HR1, HR2, HR3, HR4, HR5, HR6, HR7, HR8, HR9, HS0, HS1⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt))).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [Hg HR0 HR1 HR2 HR3 HR4 HR5 HR6 HR7 HR8 HR9 HS0 HS1]
      · isplitl [Hg]; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact (View.read_writes_eq_canon _ _ _ (coverC0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonC0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
        unfold owns; iexists _; isplitr
        swap; · iexact HS1
        ipureintro; exact (View.read_writes_eq_canon _ _ _ (coverC1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonC1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
      isplitl [Ho]; · iexact Ho
      isplitl [H0]; · iexact H0
      isplitl [H1]; · iexact H1
      unfold owns; iexists _; isplitr
      swap; · iexact H2
      ipureintro; exact (View.read_writes_eq_canon _ _ _ (coverC2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonC2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
    · have hc1 : ¬cond1_1 (grid1.coords t) := fun h => h1 ((hcond1_1 t).mp h)
      rw [Dat.leavesExact_idle (dat1 V c) 2 t (idleAt1_2 t hc1) (noFlush1_2 t hc1)]
      rw [rowsumN_step V c t h0, accN_step V c t h0]
      rw [Phi1_castSucc V c t, Phi1_pos V c _ _ hz]
      iintro ⟨⟨Hg, HR0, HR1, HR2, HR3, HR4, HR5, HR6, HR7, HR8, HR9, HS0, HS1⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt))).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hg HR0 HR1 HR2 HR3 HR4 HR5 HR6 HR7 HR8 HR9 HS0 HS1]
      · isplitl [Hg]; · iexact Hg
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]
        · unfold owns; iexists _; isplitr
          swap; · iexact HS0
          ipureintro; exact (View.read_writes_eq_canon _ _ _ (coverB0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonB0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
        unfold owns; iexists _; isplitr
        swap; · iexact HS1
        ipureintro; exact (View.read_writes_eq_canon _ _ _ (coverB1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))).trans (canonB1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (iblk1 V c 1 t) (rowsumN V c (t.val - 1) (Nat.lt_of_le_of_lt (Nat.sub_le _ _) t.isLt)) (accN V c (t.val - 1) (Nat.lt_of_le_of_lt (Nat.sub_le _ _) t.isLt)))
      isplitl [Ho]; · iexact Ho
      isplitl [H0]; · iexact H0
      isplitl [H1]; · iexact H1
      iexists _; iexact H2

/-- The body obligation of the pairwise launch, at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : iprop((∃ r, prngReg c r) ∗ Pipeline.scopedRest (Ix := Unit) (Name := ℕ) (U := UR sig nD τ) (Lvl := ℕ) spec1 c) ⊢ (dat1 V c).Φ 0 :=
  Idealize.SL.BI.Entails.refl _

/-- After the last point the invariant gives it back: what the two carried buffers hold is forgotten. -/
theorem hout1 (c : Dev nD) : (dat1 V c).Φ (Fin.last cfg1.N) ⊢ iprop((∃ r, prngReg c r) ∗ Pipeline.scopedRest (Ix := Unit) (Name := ℕ) (U := UR sig nD τ) (Lvl := ℕ) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 256 := N_1; omega), scopedRest1_eq]
  simp only [scM1_0, scM1_1, owns_whole]
  iintro ⟨Hg, HR0, HR1, HR2, HR3, HR4, HR5, HR6, HR7, HR8, HR9, HS0, HS1⟩
  isplitl [Hg]; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HS0]; · iexists _; iexact HS0
  iexists _; iexact HS1

end Regions

end Cert.Kernel.Hand

end
-- ==== Proof.SharedSplitBits.lean ====
import proofs.«148446_j44409961840993_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

/-!
# One array behind two input windows

The pairwise kernel reads the gathered points through two windows: block i of the array through the first, block j
of the same array through the second. The array's buffer is therefore held once, whole, when the region is entered,
and has to serve two windows: it is cut into its two half shares, one per window, and put together again when the
region is left. The third window (the output) has its own array, held at the full share.
-/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The arrays of the pairwise call, window by window: the shared array at its two half shares, the output's array
    at the full share. -/
theorem arrays_shared_eq (c : Dev nD) (dat : Dat τ (Elt F) Unit ℕ (UR sig nD τ) ℕ cfg1 c)
    (h0 : dat.share 0 = fullShare.left) (h1 : dat.share 1 = fullShare.right) (h2 : dat.share 2 = fullShare)
    (A : (w : Fin cfg1.W) → Buf (Elt F) ((cfg1.win w).arr.view.loc (c : Thread nD τ))) :
    (dat.arrays A : sProp 𝕄) = iprop((((c : Thread nD τ).loc main_v78) ↦{fullShare.left} A 0)
      ∗ (((c : Thread nD τ).loc main_v78) ↦{fullShare.right} A 1) ∗ (((c : Thread nD τ).loc main_v79) ↦{fullShare} A 2)) := by
  unfold Dat.arrays
  rw [bigSep_W1]
  rw [(arr_whole1 0).set_eq_univ, (arr_whole1 2).set_eq_univ, h0, h1, h2]

/-- The distinct arrays behind the pairwise call's windows are two: the gathered points and the output. -/
theorem arrImage1 : Finset.univ.image (Pipeline.arrRef spec1) = ({main_v78, main_v79} : Finset (Ref sig .tc)) := by decide

/-- The two buffers behind the pairwise call's windows, each held whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v78) ↦{fullShare} V main_v78) ∗ (((c : Thread nD τ).loc main_v79) ↦{fullShare} V main_v79)) := by
  unfold Pipeline.arrBufs
  rw [arrImage1, bigSep_insert (by decide), bigSep_singleton]
  rfl

/-- ENTRY: the core's unscoped buffers at contents V give the pairwise call's arrays at V - the shared array cut into
    its two halves - and the buffers that bypass the region. -/
theorem arrays_of_unscopedBufs_shared (c : Dev nD) (dat : Dat τ (Elt F) Unit ℕ (UR sig nD τ) ℕ cfg1 c)
    (h0 : dat.share 0 = fullShare.left) (h1 : dat.share 1 = fullShare.right) (h2 : dat.share 2 = fullShare)
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (unscopedBufs c V : sProp 𝕄) ⊢ iprop(dat.arrays A ∗ Pipeline.unscopedRest spec1 c V) := by
  have hA0 : A 0 = V main_v78 := hA 0
  have hA1 : A 1 = V main_v78 := hA 1
  have hA2 : A 2 = V main_v79 := hA 2
  have hs : (unscopedBufs c V : sProp 𝕄) = iprop(Pipeline.arrBufs spec1 c V ∗ Pipeline.unscopedRest spec1 c V) :=
    Pipeline.unscopedBufs_split₀ cfgs 1 (by decide) c V
  rw [hs, arrBufs1_eq, arrays_shared_eq c dat h0 h1 h2, hA0, hA1, hA2]
  iintro ⟨⟨H78, H79⟩, Hrest⟩
  ihave H := (pointsTo_share (PosShare.mem_left_op_right fullShare)).1 $$ H78
  icases H with ⟨Hl, Hr⟩
  isplitr [Hrest]
  · isplitl [Hl]; · iexact Hl
    isplitl [Hr]; · iexact Hr
    iexact H79
  iexact Hrest

/-- EXIT: the arrays - the shared array's two halves at the same contents, the output at what the region wrote - and
    the bypassing buffers make the core's unscoped buffers at the exit contents. -/
theorem unscopedBufs_of_arrays_shared (c : Dev nD) (dat : Dat τ (Elt F) Unit ℕ (UR sig nD τ) ℕ cfg1 c)
    (h0 : dat.share 0 = fullShare.left) (h1 : dat.share 1 = fullShare.right) (h2 : dat.share 2 = fullShare)
    (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  have hA0 : A 0 = V' main_v78 := hA 0
  have hA1 : A 1 = V' main_v78 := hA 1
  have hA2 : A 2 = V' main_v79 := hA 2
  have hs : (unscopedBufs c V' : sProp 𝕄) = iprop(Pipeline.arrBufs spec1 c V' ∗ Pipeline.unscopedRest spec1 c V') :=
    Pipeline.unscopedBufs_split₀ cfgs 1 (by decide) c V'
  rw [hs, arrBufs1_eq, arrays_shared_eq c dat h0 h1 h2, hA0, hA1, hA2]
  iintro ⟨⟨Hl, Hr, H79⟩, Hrest⟩
  isplitr [Hrest]
  · isplitr [H79]
    · iapply (pointsTo_share (PosShare.mem_left_op_right fullShare)).2
      isplitl [Hl] <;> iassumption
    iexact H79
  unfold Pipeline.unscopedRest
  iapply (Entails.of_eq (bigSep_congr fun b hb => by rw [hrest b (Finset.mem_sdiff.mp hb).2]))
  iexact Hrest

end Cert.Kernel.Hand

end
-- ==== Proof.RunBits.lean ====
import proofs.«148446_j44409961840993_1_alg».proof.Proof.Gen.Kernel.Launch
import proofs.«148446_j44409961840993_1_alg».proof.Proof.Gen.Kernel.Skeleton
import proofs.«148446_j44409961840993_1_alg».proof.Proof.Gen.Kernel.Points
import proofs.«148446_j44409961840993_1_alg».proof.Proof.FeatBodyBits
import proofs.«148446_j44409961840993_1_alg».proof.Proof.ClashBodyBits
import proofs.«148446_j44409961840993_1_alg».proof.Proof.SharedSplitBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The run of the whole program

The program is five stretches: three host reshapes; the feature kernel's region; ninety-four host operations (the bond
corrections and the gather of the generated points); the pairwise kernel's region; twenty-three host operations (the
scatter of the corrections and the final combination). The contents of the core's buffers are followed from the
launch memory through the five stretches: a host stretch applies its operations, a region leaves its arrays at what its
write-backs produce and every other buffer as it found it. Every weakly fair execution terminates with the buffers at
the last of these contents.
-/

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the three reshapes: what the feature kernel's region finds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the feature kernel's region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the ninety-four host operations: what the pairwise kernel's region finds. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- The one window of the pairwise call that writes: its output. -/
abbrev outSpec1 : Fin 1 → Pipeline.WinSpec sig grid1.rank := fun _ => spec1 2
/-- After the pairwise kernel's region: the output's array at what the pipeline leaves, every other buffer - the
    shared input array among them - as entered. -/
def W4 (c : Dev nD) : Valuation τ sig (Elt F) :=
  Pipeline.withArrays outSpec1 c (W3 m ρ c) fun _ => (dat1 (V3 m ρ) c).arrAt 2 cfg1.N
theorem W4_out (c : Dev nD) :
    W4 m ρ c (Proc.devRef .tc main_v79) = (dat1 (V3 m ρ) c).arrAt 2 cfg1.N := by
  unfold W4; exact Pipeline.withArrays_arr outSpec1 (fun _ _ _ => Subsingleton.elim _ _) c _ _ 0
theorem W4_of_ne (c : Dev nD) (b : Ref sig .tc) (hb : main_v79 ≠ b) :
    W4 m ρ c (Proc.devRef .tc b) = W3 m ρ c (Proc.devRef .tc b) := by
  unfold W4; exact Pipeline.withArrays_of_ne outSpec1 c _ _ b (fun _ => hb)
abbrev V4 : (c : Dev nD) → (b : Ref sig .tc) → Buf (Elt F) ((c : Thread nD τ).loc b) := fun c b => W4 m ρ c b
/-- After the last twenty-three host operations: the final contents. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The feature kernel's region: its eight arrays are distinct buffers, split out of the unscoped buffers on entry
    and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the pairwise region's exit each of its arrays holds what the pipeline leaves: the two input windows' array
    what it held at entry, the output's array the write-backs. -/
theorem hF1 (c : Dev nD) (w : Fin cfg1.W) : (dat1 (V3 m ρ) c).arrAt w cfg1.N = V4 m ρ c (Pipeline.arrRef spec1 w) := by
  match w with
  | ⟨0, _⟩ =>
    refine ((dat1 (V3 m ρ) c).arrAt_in 0 rfl _).trans ((A_eq1 (V3 m ρ) c 0).trans ?_)
    exact (W4_of_ne m ρ c (Pipeline.arrRef spec1 0) (by decide)).symm
  | ⟨1, _⟩ =>
    refine ((dat1 (V3 m ρ) c).arrAt_in 1 rfl _).trans ((A_eq1 (V3 m ρ) c 1).trans ?_)
    exact (W4_of_ne m ρ c (Pipeline.arrRef spec1 1) (by decide)).symm
  | ⟨2, _⟩ => exact (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨2, Finset.mem_univ _, e⟩)

/-- The shares of the pairwise call's proof data: the shared array at its two halves, the output's array whole. -/
theorem share1_0 (c : Dev nD) : (pdats m ρ 1 c).share 0 = fullShare.left := rfl
theorem share1_1 (c : Dev nD) : (pdats m ρ 1 c).share 1 = fullShare.right := rfl
theorem share1_2 (c : Dev nD) : (pdats m ρ 1 c).share 2 = fullShare := rfl

set_option backward.isDefEq.respectTransparency.types false in
/-- The pairwise kernel's region: the gathered points' array serves two windows at its two half shares; the output's
    array is the only one the region changes. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := arrays_of_unscopedBufs_shared c (pdats m ρ 1 c) (share1_0 m ρ c) (share1_1 m ρ c) (share1_2 m ρ c)
      (V3 m ρ c) ((pdats m ρ 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    refine (hout1 (V3 m ρ) c).trans ?_
    iintro ⟨Hp, Hr⟩
    isplitl [Hp]; · iexact Hp
    isplitr; · iempintro
    iexact Hr
  hexit c := by
    have hjoin := unscopedBufs_of_arrays_shared c (pdats m ρ 1 c) (share1_0 m ρ c) (share1_1 m ρ c) (share1_2 m ρ c)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program terminates, nothing faulting, and every unscoped buffer ends at the
    final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m ρ c)) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The argument arrays end as launched -/

/-- The feature kernel's region leaves every buffer but its output's array as it found it: an input window's array
    is only read, and any other buffer bypasses the region. -/
theorem W2_unwritten (c : Dev nD) (b : Ref sig .tc) (hb : main_v3 ≠ b) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => exact absurd rfl hb
    exact (W2_arr m ρ c w).trans (((dat0 (V1 m ρ) c).arrAt_in w hw _).trans (A_eq0 (V1 m ρ) c w))
  · exact W2_of_ne m ρ c b fun w e => h ⟨w, e⟩

/-- A buffer that no host operation writes and that is no region's output ends as launched. -/
theorem W5_of_unwritten (c : Dev nD) (b : Ref sig .tc)
    (h0 : ∀ op ∈ (hostOps0 : List (HloOp τ sig (Elt F))), Proc.devRef .tc b ∉ op.writes)
    (h1 : ∀ op ∈ (hostOps1 : List (HloOp τ sig (Elt F))), Proc.devRef .tc b ∉ op.writes)
    (h2 : ∀ op ∈ (hostOps2 : List (HloOp τ sig (Elt F))), Proc.devRef .tc b ∉ op.writes)
    (hb3 : main_v3 ≠ b) (hb79 : main_v79 ≠ b) :
    W5 m ρ c (Proc.devRef .tc b) = m ((c : Thread nD τ).loc b) :=
  calc W5 m ρ c (Proc.devRef .tc b)
    _ = W4 m ρ c (Proc.devRef .tc b) := StableHlo.after_of_forall_not_mem (b := Proc.devRef .tc b) _ _ h2
    _ = W3 m ρ c (Proc.devRef .tc b) := W4_of_ne m ρ c b hb79
    _ = W2 m ρ c (Proc.devRef .tc b) := StableHlo.after_of_forall_not_mem (b := Proc.devRef .tc b) _ _ h1
    _ = W1 m ρ c (Proc.devRef .tc b) := W2_unwritten m ρ c b hb3
    _ = W0 m ρ c (Proc.devRef .tc b) := StableHlo.after_of_forall_not_mem (b := Proc.devRef .tc b) _ _ h0
    _ = m ((c : Thread nD τ).loc b) := rfl

end Cert.Kernel.Hand

end
-- ==== Proof.RunArgsBits.lean ====
import proofs.«148446_j44409961840993_1_alg».proof.Proof.Gen.Kernel.Launch
import proofs.«148446_j44409961840993_1_alg».proof.Proof.Gen.Kernel.Skeleton
import proofs.«148446_j44409961840993_1_alg».proof.Proof.Gen.Kernel.Points
import proofs.«148446_j44409961840993_1_alg».proof.Proof.RunBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The argument arrays end as launched

No host operation writes an argument array and no region's output window is one: each argument's buffer keeps its
launch contents through the five stretches. The result's buffer ends at the last stretch's value.
-/

/-- A buffer is written by no operation of a stretch: decided operation by operation on the references. -/
local macro "unwritten" ops:ident : tactic => `(tactic| (
  refine List.forall_iff_forall_mem.mp ?_
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals first | trivial | exact StableHlo.devRef_ne_of_ne (by decide)))

/-- The twelve argument arrays, by position. -/
def argRef : Fin 12 → Ref sig .tc
  | ⟨0, _⟩ => main_arg0
  | ⟨1, _⟩ => main_arg1
  | ⟨2, _⟩ => main_arg2
  | ⟨3, _⟩ => main_arg3
  | ⟨4, _⟩ => main_arg4
  | ⟨5, _⟩ => main_arg5
  | ⟨6, _⟩ => main_arg6
  | ⟨7, _⟩ => main_arg7
  | ⟨8, _⟩ => main_arg8
  | ⟨9, _⟩ => main_arg9
  | ⟨10, _⟩ => main_arg10
  | ⟨11, _⟩ => main_arg11

set_option maxHeartbeats 4000000 in
theorem args_unwritten0 (k : Fin 12) :
    ∀ op ∈ (hostOps0 : List (HloOp τ sig (Elt F))), Proc.devRef .tc (argRef k) ∉ op.writes := by
  fin_cases k <;> unwritten hostOps0
set_option maxHeartbeats 40000000 in
theorem args_unwritten1 (k : Fin 12) :
    ∀ op ∈ (hostOps1 : List (HloOp τ sig (Elt F))), Proc.devRef .tc (argRef k) ∉ op.writes := by
  fin_cases k <;> unwritten hostOps1
set_option maxHeartbeats 4000000 in
theorem args_unwritten2 (k : Fin 12) :
    ∀ op ∈ (hostOps2 : List (HloOp τ sig (Elt F))), Proc.devRef .tc (argRef k) ∉ op.writes := by
  fin_cases k <;> unwritten hostOps2
theorem arg_ne_v3 (k : Fin 12) : main_v3 ≠ argRef k := by fin_cases k <;> decide
theorem arg_ne_v79 (k : Fin 12) : main_v79 ≠ argRef k := by fin_cases k <;> decide

variable (m : (ℓ : Loc nD τ sig) → Buf (Elt F) ℓ) (ρ : Dev nD → PrngReg)

/-- After the three reshapes an argument array is as launched, -/
theorem W1_arg (c : Dev nD) (k : Fin 12) : W1 m ρ c (Proc.devRef .tc (argRef k)) = m ((c : Thread nD τ).loc (argRef k)) :=
  StableHlo.after_of_forall_not_mem (b := Proc.devRef .tc (argRef k)) _ _ (args_unwritten0 k)
/-- after the feature kernel's region, -/
theorem W2_arg (c : Dev nD) (k : Fin 12) : W2 m ρ c (Proc.devRef .tc (argRef k)) = m ((c : Thread nD τ).loc (argRef k)) :=
  (W2_unwritten m ρ c (argRef k) (arg_ne_v3 k)).trans (W1_arg m ρ c k)
/-- after the ninety-four host operations, -/
theorem W3_arg (c : Dev nD) (k : Fin 12) : W3 m ρ c (Proc.devRef .tc (argRef k)) = m ((c : Thread nD τ).loc (argRef k)) :=
  (StableHlo.after_of_forall_not_mem (b := Proc.devRef .tc (argRef k)) _ _ (args_unwritten1 k)).trans (W2_arg m ρ c k)
/-- after the pairwise kernel's region, -/
theorem W4_arg (c : Dev nD) (k : Fin 12) : W4 m ρ c (Proc.devRef .tc (argRef k)) = m ((c : Thread nD τ).loc (argRef k)) :=
  (W4_of_ne m ρ c (argRef k) (arg_ne_v79 k)).trans (W3_arg m ρ c k)
/-- and at the end. -/
theorem W5_arg (c : Dev nD) (k : Fin 12) : W5 m ρ c (Proc.devRef .tc (argRef k)) = m ((c : Thread nD τ).loc (argRef k)) :=
  (StableHlo.after_of_forall_not_mem (b := Proc.devRef .tc (argRef k)) _ _ (args_unwritten2 k)).trans (W4_arg m ρ c k)

/-- Every weakly fair execution of the program terminates, nothing faulting; the result's buffer ends at the last
    stretch's value and every argument array as launched. -/
theorem run_result : θ_run defs (onTc (τ := τ) (main (F := F))) ⟨m, fun _ => 0, ρ⟩ (fun r => ∀ c : Dev nD,
      r.2.mem ((c.tc : Thread nD τ).loc main_v97) = W5 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have harg : ∀ k : Fin 12, r.2.mem ((c.tc : Thread nD τ).loc (argRef k)) = m ((c.tc : Thread nD τ).loc (argRef k)) := fun k =>
      (h c _ (mem_uc (argRef k) (by fin_cases k <;> decide))).trans (W5_arg m ρ c k)
    ⟨h c _ (mem_uc main_v97 (by decide)), harg 0, harg 1, harg 2, harg 3, harg 4, harg 5, harg 6, harg 7, harg 8, harg 9,
      harg 10, harg 11⟩) (run_all m ρ)

/-- The frame: the program runs to the end and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.Kernel.Hand

end
-- ==== Proof.Spec.lean ====
import Idealize.ShloMosaic.PureOps.Ideal
import Idealize.ShloMosaic.Lib.ValueIdx

/-!
# The two results the kernels compute, index by index on the extended reals

gate: a row of the decoded features is projected (feat), the projection is contracted with a weight column, a
bias is added, and the logistic function is applied: one number per row.

corr: for the gathered points x, the pairwise distance dist x p q = sqrt (max (|x p|^2 + |x q|^2 - 2 <x p, x q>) tiny)
+ eps, the coefficient coef x p q = (1 - d) / (d * d) where d < 1 and p is not q (else 0), and the correction
corr x p a = x p a * (sum over q of coef x p q) - (sum over q of coef x p q * x q a).

Float literals stay as their binary words: the same word stands on both sides and is never evaluated.
-/

noncomputable section

namespace Cert.Spec

open Idealize.ShloMosaic

/-- The projected feature (H W + b) r k. -/
def feat (H : Fin 65536 → Fin 512 → EReal) (W : Fin 512 → Fin 256 → EReal) (b : Fin 256 → EReal)
    (r : Fin 65536) (k : Fin 256) : EReal :=
  (∑ j : Fin 512, H r j * W j k) + b k

/-- The gate of row r: the logistic function of the feature row contracted with w, plus the bias b0. -/
def gate (H : Fin 65536 → Fin 512 → EReal) (W : Fin 512 → Fin 256 → EReal) (b : Fin 256 → EReal)
    (w : Fin 256 → EReal) (b0 : EReal) (r : Fin 65536) : EReal :=
  Ideal.logistic ((∑ k : Fin 256, feat H W b r k * w k) + b0)

/-- The literals of the pairwise part, as words. -/
abbrev zero : EReal := Ideal.ofBits .f32 0x00000000#32
abbrev one : EReal := Ideal.ofBits .f32 0x3F800000#32
abbrev two : EReal := Ideal.ofBits .f32 0x40000000#32
abbrev tiny : EReal := Ideal.ofBits .f32 0x179ABE15#32
abbrev eps : EReal := Ideal.ofBits .f32 0x322BCC77#32

/-- The squared norm of point p. -/
def sqn (x : Fin 8192 → Fin 3 → EReal) (p : Fin 8192) : EReal := ∑ a : Fin 3, x p a * x p a

/-- The inner product of points p and q. -/
def inner (x : Fin 8192 → Fin 3 → EReal) (p q : Fin 8192) : EReal := ∑ a : Fin 3, x p a * x q a

/-- The regularised distance between points p and q. -/
def dist (x : Fin 8192 → Fin 3 → EReal) (p q : Fin 8192) : EReal :=
  Ideal.sqrt (max (sqn x p + sqn x q - two * inner x p q) tiny) + eps

/-- Whether the pair (p, q) is a clash: closer than one, and two different points. -/
def clash (x : Fin 8192 → Fin 3 → EReal) (p q : Fin 8192) : Prop :=
  Ideal.cmp .olt (dist x p q) one = 1#1 ∧ p ≠ q

open Classical in
/-- The pair's coefficient. -/
def coef (x : Fin 8192 → Fin 3 → EReal) (p q : Fin 8192) : EReal :=
  if clash x p q then Ideal.div (one - dist x p q) (dist x p q * dist x p q) else zero

/-- The correction of point p, coordinate a. -/
def corr (x : Fin 8192 → Fin 3 → EReal) (p : Fin 8192) (a : Fin 3) : EReal :=
  x p a * (∑ q : Fin 8192, coef x p q) - ∑ q : Fin 8192, coef x p q * x q a

end Cert.Spec

end
-- ==== Proof.Consts.lean ====
/-
  The float literal 1.0 as the extended real it denotes. One module states it, so that the others read it here.
-/
import Idealize.ShloMosaic.PureOps.Ideal

noncomputable section

namespace Cert.Consts

open Idealize.ShloMosaic

/-- The word of 1.0 denotes the extended real 1. -/
theorem ofBits_one : Ideal.ofBits .f32 0x3F800000#32 = 1 := by
  simp [Ideal.ofBits, Ideal.ieee, -EReal.coe_mul]; norm_num

end Cert.Consts

end
-- ==== Proof.RefValue.lean ====
/-
  The reference's result, read stage by stage on the extended reals.

  The reference computes, for the decoded features H, the projection W with bias b, two weight columns with their
  biases, and the gathered points x:
    the two gates (one number per row): the logistic function of (H W + b) contracted with a weight column, plus
      its bias; the logistic is spelt on the host as 1 / (1 + exp (- t)), which is the function Ideal.logistic;
    the pairwise correction of the gathered points: squared norms and inner products give the squared distance,
      the regularised distance is sqrt (max . tiny) + eps, the mask is (distance < 1) and (row index differs from
      column index), the coefficient is (1 - d) / (d d) under the mask and zero elsewhere, and the correction is
      x times the coefficient row sums minus the coefficient matrix applied to x;
    the result a0 - (0.1 bond_w) bond_corr - (0.05 clash_w) clash_corr, clash_corr the scatter-add of the
      correction rows, bond_corr the bond stage (kept closed here).
  Each stage is read at an index and shown equal to the shared specification; the whole result is stated as one
  function (tail) of the stages.
-/
import proofs.«148446_j44409961840993_1_alg».proof.Proof.Gen.ReferenceIdeal.Run
import proofs.«148446_j44409961840993_1_alg».proof.Proof.Gen.ReferenceIdeal.Read
import proofs.«148446_j44409961840993_1_alg».proof.Proof.Spec
import proofs.«148446_j44409961840993_1_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx

/-! ## Facts about one-bit words and the index comparison -/

/-- A one-bit word is 0 or 1. -/
theorem one_or_zero (c : BitVec 1) : c = 0#1 ∨ c = 1#1 := by
  revert c; decide

/-- The complement of the comparison of the two coordinates' 32-bit words: 0 on the diagonal, 1 off it
    (both coordinates are below 2^32, so their words are equal only when they are). -/
theorem offdiag (p q : Fin 8192) :
    ~~~(IntOp.cmpi .eq (IntOp.addi (BitVec.ofNat 32 p.val) 0#32) (BitVec.ofNat 32 q.val)) = if p = q then 0#1 else 1#1 := by
  show ~~~(BitVec.ofBool ((BitVec.ofNat 32 p.val + 0#32) == BitVec.ofNat 32 q.val)) = _
  rw [BitVec.add_zero]
  by_cases h : p = q
  · subst h
    rw [if_pos rfl, beq_self_eq_true]
    decide
  · have hne : (BitVec.ofNat 32 p.val == BitVec.ofNat 32 q.val) = false := by
      rw [beq_eq_false_iff_ne]
      intro e
      apply h
      apply Fin.ext
      have e' := congrArg BitVec.toNat e
      rw [BitVec.toNat_ofNat, BitVec.toNat_ofNat, Nat.mod_eq_of_lt (lt_trans p.2 (by norm_num)),
        Nat.mod_eq_of_lt (lt_trans q.2 (by norm_num))] at e'
      exact e'
    rw [hne, if_neg h]
    decide

/-- A select on the conjunction of a one-bit word with the off-diagonal bit is an if on (word = 1 and p differs
    from q), whatever decision procedure the if carries. -/
theorem sel_and (c : BitVec 1) (p q : Fin 8192) (a b : EReal) {inst : Decidable (c = 1#1 ∧ p ≠ q)} :
    Scalar.select (IntOp.andi c (if p = q then 0#1 else 1#1)) a b = @ite _ (c = 1#1 ∧ p ≠ q) inst a b := by
  by_cases hpq : p = q
  · have hn : ¬ (c = 1#1 ∧ p ≠ q) := fun h => h.2 hpq
    rw [if_pos hpq, if_neg hn]
    rcases one_or_zero c with hc | hc <;> subst hc <;> rfl
  · rw [if_neg hpq]
    rcases one_or_zero c with hc | hc
    · subst hc
      have hn : ¬ ((0#1 : BitVec 1) = 1#1 ∧ p ≠ q) := fun h => absurd h.1 (by decide)
      rw [if_neg hn]
      rfl
    · subst hc
      have hy : ((1#1 : BitVec 1) = 1#1 ∧ p ≠ q) := ⟨rfl, hpq⟩
      rw [if_pos hy]
      rfl

/-- Two columns [65536, 1] that agree at every row are equal. -/
theorem col_ext (f g : (⟨S65536x1, .f32⟩ : BufTy).Contents (Elt Ideal)) (h : ∀ r : Fin 65536, f (ix2 r 0) = g (ix2 r 0)) : f = g := by
  funext i
  have e : i = ix2 (i 0) (0 : Fin 1) := by
    funext a
    match a with
    | ⟨0, _⟩ => rfl
    | ⟨1, _⟩ => exact Fin.ext (Nat.lt_one_iff.mp (idx2_lt1 i))
  rw [e]
  exact h (i 0)

/-- Two [8192, 3] arrays that agree at every (point, coordinate) are equal. -/
theorem pts_ext (f g : (⟨S8192x3, .f32⟩ : BufTy).Contents (Elt Ideal)) (h : ∀ (p : Fin 8192) (a : Fin 3), f (ix2 p a) = g (ix2 p a)) : f = g := by
  funext i
  rw [eq_ix2 i]
  exact h (i 0) (i 1)

local macro "idx_rfl1" : tactic => `(tactic| (funext a; match a with | ⟨0, _⟩ => rfl))
local macro "idx_rfl2" : tactic => `(tactic| (funext a; match a with | ⟨0, _⟩ => rfl | ⟨1, _⟩ => rfl))

/-! ## The gates -/

section Gates

variable (a1 : (⟨S65536x512, .f32⟩ : BufTy).Contents (Elt Ideal)) (a6 : (⟨S512x256, .f32⟩ : BufTy).Contents (Elt Ideal)) (a7 : (⟨S256, .f32⟩ : BufTy).Contents (Elt Ideal))

/-- The projected feature (H W + b) at (r, k). -/
theorem feat_read (r : Fin 65536) (k : Fin 256) :
    val_main_v3 (F := Ideal) a1 a6 a7 (ix2 r k)
      = Cert.Spec.feat (fun r j => a1 (ix2 r j)) (fun j k => a6 (ix2 j k)) (fun k => a7 (ix1 k)) r k := by
  rw [val_main_v3_apply, val_main_v2_apply, val_main_v1_apply, val_main_v0_apply]
  have e0 : idx_main_v1 (idx_main_v2 (ix2 r k)) = ix1 k := by idx_rfl1
  have hs : (∑ j : Fin 512, a1 (lidx_main_v0 (ix2 r k) j) * a6 (ridx_main_v0 (ix2 r k) j))
      = ∑ j : Fin 512, a1 (ix2 r j) * a6 (ix2 j k) :=
    Finset.sum_congr rfl fun j _ => by
      have el : lidx_main_v0 (ix2 r k) j = ix2 r j := by idx_rfl2
      have er : ridx_main_v0 (ix2 r k) j = ix2 j k := by idx_rfl2
      rw [el, er]
  rw [hs, e0]
  rfl

/-- The bond gate's argument: the feature row contracted with the weight column, plus the bias. -/
theorem pre_bond (a8 : (⟨S256x1, .f32⟩ : BufTy).Contents (Elt Ideal)) (a9 : (⟨S1, .f32⟩ : BufTy).Contents (Elt Ideal)) (r : Fin 65536) :
    val_main_v125 (F := Ideal) a1 a6 a7 a8 a9 (ix2 r 0)
      = (∑ k : Fin 256, Cert.Spec.feat (fun r j => a1 (ix2 r j)) (fun j k => a6 (ix2 j k)) (fun k => a7 (ix1 k)) r k
            * a8 (ix2 k 0)) + a9 (ix1 0) := by
  rw [val_main_v125_apply, val_main_v124_apply, val_main_v123_apply, val_main_v122_apply]
  have e0 : idx_main_v123 (idx_main_v124 (ix2 r (0 : Fin 1))) = ix1 (0 : Fin 1) := by idx_rfl1
  have hs : (∑ k : Fin 256, val_main_v3 (F := Ideal) a1 a6 a7 (lidx_main_v122 (ix2 r (0 : Fin 1)) k)
        * a8 (ridx_main_v122 (ix2 r (0 : Fin 1)) k))
      = ∑ k : Fin 256, Cert.Spec.feat (fun r j => a1 (ix2 r j)) (fun j k => a6 (ix2 j k)) (fun k => a7 (ix1 k)) r k
          * a8 (ix2 k 0) :=
    Finset.sum_congr rfl fun k _ => by
      have el : lidx_main_v122 (ix2 r (0 : Fin 1)) k = ix2 r k := by idx_rfl2
      have er : ridx_main_v122 (ix2 r (0 : Fin 1)) k = ix2 k (0 : Fin 1) := by idx_rfl2
      rw [el, er, feat_read]
  rw [hs, e0]
  rfl

/-- The bond gate: stage main_v131 at row r is the specification's gate with the bond weights. -/
theorem ref_bond (a8 : (⟨S256x1, .f32⟩ : BufTy).Contents (Elt Ideal)) (a9 : (⟨S1, .f32⟩ : BufTy).Contents (Elt Ideal)) (r : Fin 65536) :
    val_main_v131 (F := Ideal) a1 a6 a7 a8 a9 (ix2 r 0)
      = Cert.Spec.gate (fun r j => a1 (ix2 r j)) (fun j k => a6 (ix2 j k)) (fun k => a7 (ix1 k))
          (fun k => a8 (ix2 k 0)) (a9 (ix1 0)) r := by
  rw [val_main_v131_apply, val_main_v130_apply, val_main_cst_30_apply, val_main_v129_apply, val_main_v128_apply,
    val_main_cst_29_apply, val_main_v127_apply, val_main_v126_apply, pre_bond]
  show Ideal.div (Ideal.ofBits .f32 0x3F800000#32) (Ideal.ofBits .f32 0x3F800000#32 + Ideal.exp (-_)) = _
  rw [Cert.Consts.ofBits_one]
  rfl

/-- The clash gate's argument. -/
theorem pre_clashw (a10 : (⟨S256x1, .f32⟩ : BufTy).Contents (Elt Ideal)) (a11 : (⟨S1, .f32⟩ : BufTy).Contents (Elt Ideal)) (r : Fin 65536) :
    val_main_v135 (F := Ideal) a1 a6 a7 a10 a11 (ix2 r 0)
      = (∑ k : Fin 256, Cert.Spec.feat (fun r j => a1 (ix2 r j)) (fun j k => a6 (ix2 j k)) (fun k => a7 (ix1 k)) r k
            * a10 (ix2 k 0)) + a11 (ix1 0) := by
  rw [val_main_v135_apply, val_main_v134_apply, val_main_v133_apply, val_main_v132_apply]
  have e0 : idx_main_v133 (idx_main_v134 (ix2 r (0 : Fin 1))) = ix1 (0 : Fin 1) := by idx_rfl1
  have hs : (∑ k : Fin 256, val_main_v3 (F := Ideal) a1 a6 a7 (lidx_main_v132 (ix2 r (0 : Fin 1)) k)
        * a10 (ridx_main_v132 (ix2 r (0 : Fin 1)) k))
      = ∑ k : Fin 256, Cert.Spec.feat (fun r j => a1 (ix2 r j)) (fun j k => a6 (ix2 j k)) (fun k => a7 (ix1 k)) r k
          * a10 (ix2 k 0) :=
    Finset.sum_congr rfl fun k _ => by
      have el : lidx_main_v132 (ix2 r (0 : Fin 1)) k = ix2 r k := by idx_rfl2
      have er : ridx_main_v132 (ix2 r (0 : Fin 1)) k = ix2 k (0 : Fin 1) := by idx_rfl2
      rw [el, er, feat_read]
  rw [hs, e0]
  rfl

/-- The clash gate: stage main_v141 at row r is the specification's gate with the clash weights. -/
theorem ref_clashw (a10 : (⟨S256x1, .f32⟩ : BufTy).Contents (Elt Ideal)) (a11 : (⟨S1, .f32⟩ : BufTy).Contents (Elt Ideal)) (r : Fin 65536) :
    val_main_v141 (F := Ideal) a1 a6 a7 a10 a11 (ix2 r 0)
      = Cert.Spec.gate (fun r j => a1 (ix2 r j)) (fun j k => a6 (ix2 j k)) (fun k => a7 (ix1 k))
          (fun k => a10 (ix2 k 0)) (a11 (ix1 0)) r := by
  rw [val_main_v141_apply, val_main_v140_apply, val_main_cst_32_apply, val_main_v139_apply, val_main_v138_apply,
    val_main_cst_31_apply, val_main_v137_apply, val_main_v136_apply, pre_clashw]
  show Ideal.div (Ideal.ofBits .f32 0x3F800000#32) (Ideal.ofBits .f32 0x3F800000#32 + Ideal.exp (-_)) = _
  rw [Cert.Consts.ofBits_one]
  rfl

end Gates

/-! ## The pairwise correction of the gathered points -/

section Clash

variable (a2 : (⟨S65536x3, .f32⟩ : BufTy).Contents (Elt Ideal)) (a5 : (⟨S8192, .i32⟩ : BufTy).Contents (Elt Ideal))

/-- The gathered points (stage main_v76, kept closed) as a function of point and coordinate. -/
abbrev pts : Fin 8192 → Fin 3 → EReal := fun p a => val_main_v76 (F := Ideal) a2 a5 (ix2 p a)

/-- The squared norm of point p: the host sum starts from the zero word. -/
theorem sqn_read (p : Fin 8192) : val_main_v78 (F := Ideal) a2 a5 (ix1 p) = Cert.Spec.sqn (pts a2 a5) p := by
  rw [val_main_v78_apply, val_main_cst_17_apply]
  have hs : (∑ k : Fin 3, val_main_v77 (F := Ideal) a2 a5 (idx_main_v78 (ix1 p) k))
      = ∑ k : Fin 3, pts a2 a5 p k * pts a2 a5 p k :=
    Finset.sum_congr rfl fun k _ => by
      have e : idx_main_v78 (ix1 p) k = ix2 p k := by idx_rfl2
      rw [e, val_main_v77_apply]
      rfl
  rw [hs]
  show Ideal.ofBits .f32 0x00000000#32 + _ = _
  rw [Ideal.ofBits_zero_f32, zero_add]
  rfl

/-- The inner product of points p and q: the product with the transposed points. -/
theorem inner_read (p q : Fin 8192) :
    val_main_v85 (F := Ideal) a2 a5 (ix2 p q) = Cert.Spec.inner (pts a2 a5) p q := by
  rw [val_main_v85_apply]
  unfold Cert.Spec.inner
  refine Finset.sum_congr rfl fun k _ => ?_
  have el : lidx_main_v85 (ix2 p q) k = ix2 p k := by idx_rfl2
  have er : idx_main_v84 (ridx_main_v85 (ix2 p q) k) = ix2 q k := by idx_rfl2
  rw [val_main_v84_apply, el, er]

/-- The regularised distance between points p and q. -/
theorem dist_read (p q : Fin 8192) :
    val_main_v93 (F := Ideal) a2 a5 (ix2 p q) = Cert.Spec.dist (pts a2 a5) p q := by
  rw [val_main_v93_apply, val_main_v92_apply, val_main_cst_20_apply, val_main_v91_apply, val_main_v90_apply,
    val_main_v89_apply, val_main_cst_19_apply, val_main_v88_apply, val_main_v87_apply, val_main_v86_apply,
    val_main_cst_18_apply, val_main_v83_apply, val_main_v82_apply, val_main_v81_apply, val_main_v80_apply,
    val_main_v79_apply, inner_read]
  have e1 : idx_main_v79 (idx_main_v81 (ix2 p q)) = ix1 p := by idx_rfl1
  have e2 : idx_main_v80 (idx_main_v82 (ix2 p q)) = ix1 q := by idx_rfl1
  rw [e1, e2, sqn_read, sqn_read]
  rfl

/-- The mask's second factor: not (row index = column index), as a one-bit word. -/
theorem mask_read (p q : Fin 8192) :
    val_main_v101 (F := Ideal) (ix2 p q) = if p = q then 0#1 else 1#1 := by
  rw [val_main_v101_apply, val_main_v100_apply, val_main_v99_apply, val_main_v98_apply, val_main_c_22_apply,
    val_main_v97_apply, val_main_v96_apply]
  exact offdiag p q

/-- The pair's coefficient: the select on the mask is the specification's if. -/
theorem coef_read (p q : Fin 8192) :
    val_main_v107 (F := Ideal) a2 a5 (ix2 p q) = Cert.Spec.coef (pts a2 a5) p q := by
  rw [val_main_v107_apply, val_main_v102_apply, val_main_v95_apply, val_main_v94_apply, val_main_cst_21_apply,
    val_main_v106_apply, val_main_v105_apply, val_main_v104_apply, val_main_v103_apply, val_main_cst_23_apply,
    val_main_call0_v1_apply, val_main_call0_v0_apply, val_main_cst_24_apply, mask_read, dist_read]
  unfold Cert.Spec.coef Cert.Spec.clash
  exact sel_and _ p q _ _

/-- The coefficient row sum of point p. -/
theorem rowsum_read (p : Fin 8192) :
    val_main_v108 (F := Ideal) a2 a5 (ix1 p) = ∑ q : Fin 8192, Cert.Spec.coef (pts a2 a5) p q := by
  rw [val_main_v108_apply, val_main_cst_25_apply]
  have hs : (∑ k : Fin 8192, val_main_v107 (F := Ideal) a2 a5 (idx_main_v108 (ix1 p) k))
      = ∑ q : Fin 8192, Cert.Spec.coef (pts a2 a5) p q :=
    Finset.sum_congr rfl fun k _ => by
      have e : idx_main_v108 (ix1 p) k = ix2 p k := by idx_rfl2
      rw [e, coef_read]
  rw [hs]
  show Ideal.ofBits .f32 0x00000000#32 + _ = _
  rw [Ideal.ofBits_zero_f32, zero_add]

/-- The correction: stage main_v113 at (p, a) is the specification's correction of the gathered points. -/
theorem ref_corr (p : Fin 8192) (a : Fin 3) :
    val_main_v113 (F := Ideal) a2 a5 (ix2 p a)
      = Cert.Spec.corr (fun p a => val_main_v76 (F := Ideal) a2 a5 (ix2 p a)) p a := by
  rw [val_main_v113_apply, val_main_v112_apply, val_main_v111_apply, val_main_v110_apply, val_main_v109_apply]
  have e : idx_main_v109 (idx_main_v110 (ix2 p a)) = ix1 p := by idx_rfl1
  have hs : (∑ k : Fin 8192, val_main_v107 (F := Ideal) a2 a5 (lidx_main_v112 (ix2 p a) k)
        * val_main_v76 (F := Ideal) a2 a5 (ridx_main_v112 (ix2 p a) k))
      = ∑ q : Fin 8192, Cert.Spec.coef (pts a2 a5) p q * pts a2 a5 q a :=
    Finset.sum_congr rfl fun k _ => by
      have el : lidx_main_v112 (ix2 p a) k = ix2 p k := by idx_rfl2
      have er : ridx_main_v112 (ix2 p a) k = ix2 k a := by idx_rfl2
      rw [el, er, coef_read]
  rw [e, rowsum_read, hs]
  rfl

end Clash

/-! ## The whole result as one function of the stages -/

/-- The reference's last operations: a0 - (0.1 bondw) bondcorr - (0.05 clashw) (the scatter-add of corrg at idx into
    zeros), the two gates broadcast along the three coordinates. -/
def tail (x0 : (⟨S65536x3, .f32⟩ : BufTy).Contents (Elt Ideal)) (bondw : (⟨S65536x1, .f32⟩ : BufTy).Contents (Elt Ideal)) (bondcorr : (⟨S65536x3, .f32⟩ : BufTy).Contents (Elt Ideal))
    (clashw : (⟨S65536x1, .f32⟩ : BufTy).Contents (Elt Ideal)) (corrg : (⟨S8192x3, .f32⟩ : BufTy).Contents (Elt Ideal)) (idx : (⟨S8192x1, .i32⟩ : BufTy).Contents (Elt Ideal)) :
    (⟨S65536x3, .f32⟩ : BufTy).Contents (Elt Ideal) :=
  subf (subf x0 (mulf (broadcastInDim S65536x3 ![0, 1] bcast_S65536x1_S65536x3_0_1
      (mulf (broadcastInDim S65536x1 ![] bcast_S_S65536x1 (constant (F := Ideal) S_ .f32 0x3DCCCCCD#32)) bondw)) bondcorr))
    (mulf (broadcastInDim S65536x3 ![0, 1] bcast_S65536x1_S65536x3_0_1
      (mulf (broadcastInDim S65536x1 ![] bcast_S_S65536x1 (constant (F := Ideal) S_ .f32 0x3D4CCCCD#32)) clashw))
      (Host.scatterAdd (F := Ideal) scatter_S65536x3_S8192x1_S8192x3_1_0_0_1
        (broadcastInDim S65536x3 ![] bcast_S_S65536x3 (constant (F := Ideal) S_ .f32 0x00000000#32)) idx corrg))

/-- The result stage as the tail of the gate, bond and correction stages. -/
theorem val_tail (a0 : (⟨S65536x3, .f32⟩ : BufTy).Contents (Elt Ideal)) (a1 : (⟨S65536x512, .f32⟩ : BufTy).Contents (Elt Ideal)) (a2 : (⟨S65536x3, .f32⟩ : BufTy).Contents (Elt Ideal))
    (a3 : (⟨S2x524288, .i32⟩ : BufTy).Contents (Elt Ideal)) (a4 : (⟨S65536, .i1⟩ : BufTy).Contents (Elt Ideal)) (a5 : (⟨S8192, .i32⟩ : BufTy).Contents (Elt Ideal)) (a6 : (⟨S512x256, .f32⟩ : BufTy).Contents (Elt Ideal))
    (a7 : (⟨S256, .f32⟩ : BufTy).Contents (Elt Ideal)) (a8 : (⟨S256x1, .f32⟩ : BufTy).Contents (Elt Ideal)) (a9 : (⟨S1, .f32⟩ : BufTy).Contents (Elt Ideal)) (a10 : (⟨S256x1, .f32⟩ : BufTy).Contents (Elt Ideal))
    (a11 : (⟨S1, .f32⟩ : BufTy).Contents (Elt Ideal)) :
    val_main_v151 (F := Ideal) a0 a1 a2 a3 a4 a5 a6 a7 a8 a9 a10 a11
      = tail a0 (val_main_v131 (F := Ideal) a1 a6 a7 a8 a9) (val_main_v69 (F := Ideal) a2 a3 a4)
          (val_main_v141 (F := Ideal) a1 a6 a7 a10 a11) (val_main_v113 (F := Ideal) a2 a5) (val_main_v120 (F := Ideal) a5) := by
  unfold val_main_v151 val_main_v146 val_main_v145 val_main_v144 val_main_v143 val_main_v142 val_main_cst_33
    val_main_v150 val_main_v149 val_main_v148 val_main_v147 val_main_cst_34 val_main_v121 val_main_v114 val_main_cst_26 tail
  rfl

/-- The run's result term is the tail of the stages of the launch contents. -/
theorem ref_result (m : (ℓ : Loc nD τ sig) → Buf (Elt Ideal) ℓ) (c : Dev nD) :
    Cert.ReferenceIdeal.Value.res_main_v151 m c
      = tail (m ((c.tc : Thread nD τ).loc main_arg0))
          (val_main_v131 (F := Ideal) (m ((c.tc : Thread nD τ).loc main_arg1)) (m ((c.tc : Thread nD τ).loc main_arg6))
            (m ((c.tc : Thread nD τ).loc main_arg7)) (m ((c.tc : Thread nD τ).loc main_arg8)) (m ((c.tc : Thread nD τ).loc main_arg9)))
          (val_main_v69 (F := Ideal) (m ((c.tc : Thread nD τ).loc main_arg2)) (m ((c.tc : Thread nD τ).loc main_arg3))
            (m ((c.tc : Thread nD τ).loc main_arg4)))
          (val_main_v141 (F := Ideal) (m ((c.tc : Thread nD τ).loc main_arg1)) (m ((c.tc : Thread nD τ).loc main_arg6))
            (m ((c.tc : Thread nD τ).loc main_arg7)) (m ((c.tc : Thread nD τ).loc main_arg10)) (m ((c.tc : Thread nD τ).loc main_arg11)))
          (val_main_v113 (F := Ideal) (m ((c.tc : Thread nD τ).loc main_arg2)) (m ((c.tc : Thread nD τ).loc main_arg5)))
          (val_main_v120 (F := Ideal) (m ((c.tc : Thread nD τ).loc main_arg5))) :=
  (val_main_v151_eq m c).trans (val_tail _ _ _ _ _ _ _ _ _ _ _ _)

end Cert.ReferenceIdeal.RefValue

end
-- ==== Proof.KernelHost.lean ====
/-
  The kernel program's host stretches, read as functions of the contents they start from.

  Before the first kernel: three reshapes of the bias vectors to rows. Between the kernels: the two gate columns are
  sliced out of the first kernel's output, the bond correction is computed from the points and the edges, and the
  generated points are gathered. After the second kernel: the result is the original velocity minus the two weighted
  corrections, which is the same expression (tail) the reference ends with, the literal shapes and layout records of
  the two programs being the same.
-/
import proofs.«148446_j44409961840993_1_alg».proof.Proof.Gen.KernelIdeal.Launch
import proofs.«148446_j44409961840993_1_alg».proof.Proof.RefValue
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostRead

open Cert.KernelIdeal Cert.KernelIdeal.Gen Idealize.ShloMosaic Idealize.ShloMosaic.TcCoe Idealize.SL.Sem Idealize.ShloMosaic.StableHlo
open Idealize.ShloMosaic.ValueIdx

/-! ## After the second kernel -/

set_option maxRecDepth 8192 in
set_option maxHeartbeats 4000000 in
/-- The last stretch writes the result as the tail of: the velocity, the two gate columns, the bond correction, the
    second kernel's output, and the scatter index computed from the generated indices. -/
theorem host2_result (W : Valuation τ sig (Elt Ideal)) :
    StableHlo.after (hostOps2 (F := Ideal)) W (Proc.devRef .tc main_v97)
      = Cert.ReferenceIdeal.RefValue.tail (W (Proc.devRef .tc main_arg0)) (W (Proc.devRef .tc main_v4))
          (W (Proc.devRef .tc main_v71)) (W (Proc.devRef .tc main_v5)) (W (Proc.devRef .tc main_v79))
          (Cert.ReferenceIdeal.Read.val_main_v120 (F := Ideal) (W (Proc.devRef .tc main_arg5))) := by
  after_results_simp
  rfl

/-! ## Between the kernels -/

set_option maxRecDepth 8192 in
set_option maxHeartbeats 4000000 in
/-- The bond gate column: column 0 of the first kernel's output. -/
theorem host1_v4 (W : Valuation τ sig (Elt Ideal)) :
    StableHlo.after (hostOps1 (F := Ideal)) W (Proc.devRef .tc main_v4)
      = extractStridedSlice S65536x1 ![0, 0] (W (Proc.devRef .tc main_v3)) slices_S65536x2_S65536x1_0_0 := by
  after_results_simp

set_option maxRecDepth 8192 in
set_option maxHeartbeats 4000000 in
/-- The clash gate column: column 1 of the first kernel's output. -/
theorem host1_v5 (W : Valuation τ sig (Elt Ideal)) :
    StableHlo.after (hostOps1 (F := Ideal)) W (Proc.devRef .tc main_v5)
      = extractStridedSlice S65536x1 ![0, 1] (W (Proc.devRef .tc main_v3)) slices_S65536x2_S65536x1_0_1 := by
  after_results_simp

/-- Column 0 sliced out, read at row r. -/
theorem slice0_apply (O : (⟨S65536x2, .f32⟩ : BufTy).Contents (Elt Ideal)) (r : Fin 65536) :
    extractStridedSlice S65536x1 ![0, 0] O slices_S65536x2_S65536x1_0_0 (ix2 r 0) = O (ix2 r 0) :=
  extractStridedSlice_apply _ O _ (ix2 r 0) (ix2 r 0) (fun a => by
    match a with
    | ⟨0, _⟩ => exact (Nat.zero_add _).symm
    | ⟨1, _⟩ => rfl)

/-- Column 1 sliced out, read at row r. -/
theorem slice1_apply (O : (⟨S65536x2, .f32⟩ : BufTy).Contents (Elt Ideal)) (r : Fin 65536) :
    extractStridedSlice S65536x1 ![0, 1] O slices_S65536x2_S65536x1_0_1 (ix2 r 0) = O (ix2 r 1) :=
  extractStridedSlice_apply _ O _ (ix2 r 0) (ix2 r 1) (fun a => by
    match a with
    | ⟨0, _⟩ => exact (Nat.zero_add _).symm
    | ⟨1, _⟩ => rfl)

set_option maxRecDepth 8192 in
set_option maxHeartbeats 4000000 in
/-- The gathered points: the same gather of the points at the generated indices as the reference's. -/
theorem host1_xg (W : Valuation τ sig (Elt Ideal)) :
    StableHlo.after (hostOps1 (F := Ideal)) W (Proc.devRef .tc main_v78)
      = Cert.ReferenceIdeal.Read.val_main_v76 (F := Ideal) (W (Proc.devRef .tc main_arg2)) (W (Proc.devRef .tc main_arg5)) := by
  after_results_simp
  rfl

/-! ## Before the first kernel -/

/-- The projection bias as a row. -/
theorem host0_v0 (W : Valuation τ sig (Elt Ideal)) :
    StableHlo.after (hostOps0 (F := Ideal)) W (Proc.devRef .tc main_v0)
      = shapeCast S1x256 (W (Proc.devRef .tc main_arg7)) shapeCasts_S256_S1x256 := by
  after_results_simp
  rfl

/-- The bond bias as a 1 by 1 array. -/
theorem host0_v1 (W : Valuation τ sig (Elt Ideal)) :
    StableHlo.after (hostOps0 (F := Ideal)) W (Proc.devRef .tc main_v1)
      = shapeCast S1x1 (W (Proc.devRef .tc main_arg9)) shapeCasts_S1_S1x1 := by
  after_results_simp
  rfl

/-- The clash bias as a 1 by 1 array. -/
theorem host0_v2 (W : Valuation τ sig (Elt Ideal)) :
    StableHlo.after (hostOps0 (F := Ideal)) W (Proc.devRef .tc main_v2)
      = shapeCast S1x1 (W (Proc.devRef .tc main_arg11)) shapeCasts_S1_S1x1 := by
  after_results_simp
  rfl

/-- The bias row at column k is the bias vector at k. -/
theorem row_apply (x : (⟨S256, .f32⟩ : BufTy).Contents (Elt Ideal)) (k : Fin 256) :
    shapeCast S1x256 x shapeCasts_S256_S1x256 (ix2 0 k) = x (ix1 k) :=
  shapeCast_a_1a_apply x shapeCasts_S256_S1x256 0 k

/-- The 1 by 1 array's one element is the one-element vector's. -/
theorem one_apply (x : (⟨S1, .f32⟩ : BufTy).Contents (Elt Ideal)) :
    shapeCast S1x1 x shapeCasts_S1_S1x1 (ix2 0 0) = x (ix1 0) :=
  shapeCast_a_1a_apply x shapeCasts_S1_S1x1 0 0

end Cert.KernelIdeal.HostRead

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.FeatPay.lean ====
/- The feature kernel's arithmetic on the extended reals, read at one entry of its output block.
   The body projects a block of rows (a matrix product with the projection weights plus the bias row), contracts the
   projected rows with each of two weight columns, adds that column's bias, applies the logistic function, and lays the
   two resulting columns side by side. Entry (p, 0) is the first column's number for row p, entry (p, 1) the second's.
   Format changes are the identity on the extended reals and a matrix product into a zero accumulator is the bare sum. -/
import proofs.«148446_j44409961840993_1_alg».proof.Proof.Gen.KernelIdeal.Skeleton
import proofs.«148446_j44409961840993_1_alg».proof.Proof.LibLayerLaws
import Idealize.ShloMosaic.Lib.Pipeline.Value
import Idealize.ShloMosaic.Lib.ValueIdx
import Idealize.ShloMosaic.PureOps.Ideal.Laws

noncomputable section

open scoped BigOperators

namespace Cert.KernelIdeal.FeatValue

open Idealize.ShloMosaic Idealize.ShloMosaic.ValueIdx
open Cert.KernelIdeal.Gen

/-! ## The two matrix products' operand indices -/

/-- The projection product, rows by 512 times 512 by 256. -/
abbrev D1 : DotDims S2048x512 S512x256 S2048x256 := dot_S2048x512_S512x256_S2048x256_1_0_0_1_n_n
/-- The column product, rows by 256 times 256 by 1. -/
abbrev D2 : DotDims S2048x256 S256x1 S2048x1 := dot_S2048x256_S256x1_S2048x1_1_0_0_1_n_n

theorem D1_l0 (i : S2048x256.Idx) (q : D1.contr.Idx) : (D1.lhsIdx i q 0).val = (i 0).val := by
  unfold DotDims.lhsIdx
  rw [dif_neg (show ¬(0 : Fin S2048x512.rank) ∈ D1.lhsBatch by decide), dif_pos (show (0 : Fin S2048x512.rank) ∈ D1.lhsNonContracting by decide)]
  rfl
theorem D1_l1 (i : S2048x256.Idx) (q : D1.contr.Idx) : (D1.lhsIdx i q 1).val = (q ⟨0, by decide⟩).val :=
  D1.lhsIdx_val_of_single rfl i q
theorem D1_r0 (i : S2048x256.Idx) (q : D1.contr.Idx) : (D1.rhsIdx i q 0).val = (q ⟨0, by decide⟩).val :=
  D1.rhsIdx_val_of_single rfl i q
theorem D1_r1 (i : S2048x256.Idx) (q : D1.contr.Idx) : (D1.rhsIdx i q 1).val = (i 1).val := by
  unfold DotDims.rhsIdx
  rw [dif_neg (show ¬(1 : Fin S512x256.rank) ∈ D1.rhsBatch by decide), dif_pos (show (1 : Fin S512x256.rank) ∈ D1.rhsNonContracting by decide)]
  rfl

theorem D2_l0 (i : S2048x1.Idx) (q : D2.contr.Idx) : (D2.lhsIdx i q 0).val = (i 0).val := by
  unfold DotDims.lhsIdx
  rw [dif_neg (show ¬(0 : Fin S2048x256.rank) ∈ D2.lhsBatch by decide), dif_pos (show (0 : Fin S2048x256.rank) ∈ D2.lhsNonContracting by decide)]
  rfl
theorem D2_l1 (i : S2048x1.Idx) (q : D2.contr.Idx) : (D2.lhsIdx i q 1).val = (q ⟨0, by decide⟩).val :=
  D2.lhsIdx_val_of_single rfl i q
theorem D2_r0 (i : S2048x1.Idx) (q : D2.contr.Idx) : (D2.rhsIdx i q 0).val = (q ⟨0, by decide⟩).val :=
  D2.rhsIdx_val_of_single rfl i q
theorem D2_r1 (i : S2048x1.Idx) (q : D2.contr.Idx) : (D2.rhsIdx i q 1).val = (i 1).val := by
  unfold DotDims.rhsIdx
  rw [dif_neg (show ¬(1 : Fin S256x1.rank) ∈ D2.rhsBatch by decide), dif_pos (show (1 : Fin S256x1.rank) ∈ D2.rhsNonContracting by decide)]
  rfl

/-- The projection product into a zero accumulator at (p, k): the sum over the 512 contracted columns. -/
theorem mm1_apply (l : FVec Ideal S2048x512 .bf16) (r : FVec Ideal S512x256 .bf16) (p : Fin 2048) (k : Fin 256) :
    matmul D1 none l r (constant (F := Ideal) S2048x256 .f32 0x00000000#32) (ix2 p k) = ∑ j : Fin 512, l (ix2 p j) * r (ix2 j k) := by
  show FloatOps.matmul D1 none l r (constant (F := Ideal) S2048x256 .f32 0x00000000#32) (ix2 p k) = _
  rw [Ideal.matmul_constant_zero_apply]
  exact Cert.LayerLaws.sum_inner D1 rfl rfl D1_l0 D1_l1 D1_r0 D1_r1 l r p k

/-- The column product into a zero accumulator at (p, 0): the sum over the 256 contracted features. -/
theorem mm2_apply (l : FVec Ideal S2048x256 .bf16) (r : FVec Ideal S256x1 .bf16) (p : Fin 2048) (u : Fin 1) :
    matmul D2 none l r (constant (F := Ideal) S2048x1 .f32 0x00000000#32) (ix2 p u) = ∑ k : Fin 256, l (ix2 p k) * r (ix2 k u) := by
  show FloatOps.matmul D2 none l r (constant (F := Ideal) S2048x1 .f32 0x00000000#32) (ix2 p u) = _
  rw [Ideal.matmul_constant_zero_apply]
  exact Cert.LayerLaws.sum_inner D2 rfl rfl D2_l0 D2_l1 D2_r0 D2_r1 l r p u

/-! ## The two broadcasts of a bias -/

/-- A bias row laid along every row of the block reads, at (p, k), its entry k. -/
theorem bcast_row_apply {α : Type} (x : S1x256.Idx → α) (h : S1x256.Broadcasts S2048x256) (p : Fin 2048) (k : Fin 256) :
    broadcastTo S2048x256 x h (ix2 p k) = x (ix2 (0 : Fin 1) k) := by
  refine broadcastTo_apply x h (ix2 p k) (ix2 (0 : Fin 1) k) fun ax => ?_
  match ax with
  | ⟨0, _⟩ => rfl
  | ⟨1, _⟩ => show k.val = if (256 : Nat) = 1 then 0 else k.val; rw [if_neg (by decide)]

/-- A single bias laid along a column reads, at (p, 0), that bias. -/
theorem bcast_one_apply {α : Type} (x : S1x1.Idx → α) (h : S1x1.Broadcasts S2048x1) (p : Fin 2048) (u : Fin 1) :
    broadcastTo S2048x1 x h (ix2 p u) = x (ix2 (0 : Fin 1) (0 : Fin 1)) := by
  refine broadcastTo_apply x h (ix2 p u) (ix2 (0 : Fin 1) (0 : Fin 1)) fun ax => ?_
  match ax with
  | ⟨0, _⟩ => rfl
  | ⟨1, _⟩ => rfl

/-! ## Two columns side by side -/

/-- Entry (p, 0) of two columns laid side by side is the first column's entry p. -/
theorem cat_left {α : Type} (x y : S2048x1.Idx → α) (h : Shape.Concatenates [S2048x1, S2048x1] S2048x2 1) (p : Fin 2048) :
    concatenate S2048x2 1 [⟨S2048x1, x⟩, ⟨S2048x1, y⟩] h (ix2 p (0 : Fin 2)) = x (ix2 p (0 : Fin 1)) :=
  concatenate_pair_apply_left (1 : Fin 2) x y h (ix2 p (0 : Fin 2)) rfl (ix2 p (0 : Fin 1)) (fun b => by
    match b with
    | ⟨0, _⟩ => rfl
    | ⟨1, _⟩ => rfl)

/-- Entry (p, 1) of two columns laid side by side is the second column's entry p. -/
theorem cat_right {α : Type} (x y : S2048x1.Idx → α) (h : Shape.Concatenates [S2048x1, S2048x1] S2048x2 1) (p : Fin 2048) :
    concatenate S2048x2 1 [⟨S2048x1, x⟩, ⟨S2048x1, y⟩] h (ix2 p (1 : Fin 2)) = y (ix2 p (0 : Fin 1)) :=
  concatenate_pair_apply_right (1 : Fin 2) x y h (ix2 p (1 : Fin 2)) rfl rfl (ix2 p (0 : Fin 1)) (fun b hb => by
    match b, hb with
    | ⟨0, _⟩, _ => rfl
    | ⟨1, _⟩, hb => exact absurd rfl hb) rfl

/-! ## The payload at an entry -/

/-- One row's number for a weight column w and bias b0: the logistic function of the projected row contracted with
    the column, plus the bias. The blocks are read by coordinates. -/
def gateBlk (x0 : Vec Ideal S2048x512 .f32) (x1 : Vec Ideal S512x256 .f32) (x2 : Vec Ideal S1x256 .f32)
    (w : Vec Ideal S256x1 .f32) (b0 : Vec Ideal S1x1 .f32) (p : Fin 2048) : EReal :=
  Ideal.logistic ((∑ k : Fin 256, ((∑ j : Fin 512, x0 (ix2 p j) * x1 (ix2 j k)) + x2 (ix2 (0 : Fin 1) k)) * w (ix2 k (0 : Fin 1)))
    + b0 (ix2 (0 : Fin 1) (0 : Fin 1)))

/-- The projected block at (p, k). -/
theorem proj_apply (x0 : Vec Ideal S2048x512 .f32) (x1 : Vec Ideal S512x256 .f32) (x2 : Vec Ideal S1x256 .f32) (p : Fin 2048) (k : Fin 256) :
    (truncf .bf16 (addf (matmul D1 none (truncf .bf16 x0 bitsLt_bf16_f32) (truncf .bf16 x1 bitsLt_bf16_f32) (constant (F := Ideal) S2048x256 .f32 0x00000000#32))
        (broadcastTo S2048x256 (shapeCast S1x256 x2 shapeCasts_S1x256_S1x256) broadcasts_S1x256_S2048x256)) bitsLt_bf16_f32 : FVec Ideal S2048x256 .bf16) (ix2 p k)
      = (∑ j : Fin 512, x0 (ix2 p j) * x1 (ix2 j k)) + x2 (ix2 (0 : Fin 1) k) := by
  rw [truncf_apply, addf_apply, mm1_apply, bcast_row_apply, shapeCast_self]
  rfl

/-- A column of the payload at row p: the projected block contracted with the weight column, plus the bias, under the
    logistic function. -/
theorem col_apply (v9 : FVec Ideal S2048x256 .bf16) (w : Vec Ideal S256x1 .f32) (b0 : Vec Ideal S1x1 .f32) (p : Fin 2048) :
    (logistic (addf (matmul D2 none v9 (truncf .bf16 w bitsLt_bf16_f32) (constant (F := Ideal) S2048x1 .f32 0x00000000#32))
        (broadcastTo S2048x1 (shapeCast S1x1 b0 shapeCasts_S1x1_S1x1) broadcasts_S1x1_S2048x1)) : FVec Ideal S2048x1 .f32) (ix2 p (0 : Fin 1))
      = Ideal.logistic ((∑ k : Fin 256, v9 (ix2 p k) * w (ix2 k (0 : Fin 1))) + b0 (ix2 (0 : Fin 1) (0 : Fin 1))) := by
  show FloatOps.logistic (addf _ _ (ix2 p (0 : Fin 1))) = _
  rw [Ideal.logistic_def, addf_apply, mm2_apply, bcast_one_apply, shapeCast_self]
  rfl

/-- Entry (p, 0) of the payload: the first weight column's number for row p. The payload takes the blocks in the
    order features, projection, bias row, first column, second column, first bias, second bias. -/
theorem pay_col0 (x0 : Vec Ideal S2048x512 .f32) (x1 : Vec Ideal S512x256 .f32) (x2 : Vec Ideal S1x256 .f32)
    (x3 x5 : Vec Ideal S256x1 .f32) (x4 x6 : Vec Ideal S1x1 .f32) (p : Fin 2048) :
    k0_pay1 (F := Ideal) x0 x1 x2 x3 x5 x4 x6 (ix2 p (0 : Fin 2)) = gateBlk x0 x1 x2 x3 x4 p := by
  unfold k0_pay1 gateBlk
  refine (cat_left _ _ _ p).trans ?_
  refine (col_apply _ x3 x4 p).trans ?_
  refine congrArg (fun s => Ideal.logistic (s + _)) (Finset.sum_congr rfl fun k _ => ?_)
  exact congrArg (· * _) (proj_apply x0 x1 x2 p k)

/-- Entry (p, 1) of the payload: the second weight column's number for row p. -/
theorem pay_col1 (x0 : Vec Ideal S2048x512 .f32) (x1 : Vec Ideal S512x256 .f32) (x2 : Vec Ideal S1x256 .f32)
    (x3 x5 : Vec Ideal S256x1 .f32) (x4 x6 : Vec Ideal S1x1 .f32) (p : Fin 2048) :
    k0_pay1 (F := Ideal) x0 x1 x2 x3 x5 x4 x6 (ix2 p (1 : Fin 2)) = gateBlk x0 x1 x2 x5 x6 p := by
  unfold k0_pay1 gateBlk
  refine (cat_right _ _ _ p).trans ?_
  refine (col_apply _ x5 x6 p).trans ?_
  refine congrArg (fun s => Ideal.logistic (s + _)) (Finset.sum_congr rfl fun k _ => ?_)
  exact congrArg (· * _) (proj_apply x0 x1 x2 p k)

end Cert.KernelIdeal.FeatValue

end
-- ==== Proof.FeatValue.lean ====
/- The feature region's output array, index by index, on the extended reals.
   Grid point t handles rows 2048 t .. 2048 t + 2047 of the decoded features; the six parameter arrays are whole at
   every point. What point t writes back is rows 2048 t .. 2048 t + 2047 of ONE array: entry (r, 0) the gate of row r
   for the first weight column and bias, entry (r, 1) the gate of row r for the second. Every row lies in exactly the
   block r / 2048, so after the region the output array is that function everywhere. -/
import proofs.«148446_j44409961840993_1_alg».proof.Proof.FeatBody
import proofs.«148446_j44409961840993_1_alg».proof.Proof.FeatPay
import proofs.«148446_j44409961840993_1_alg».proof.Proof.Spec
import Idealize.ShloMosaic.Lib.Pipeline.Value

set_option maxRecDepth 16384

noncomputable section

open scoped BigOperators

namespace Cert.KernelIdeal.FeatValue

open Idealize.ShloMosaic Idealize.ShloMosaic.TcCoe Idealize.ShloMosaic.ValueIdx
open Idealize.SL Idealize.SL.Sem
open Idealize.ShloMosaic.Pipeline (Dat Cfg Window)
open Cert.KernelIdeal.Gen Cert.KernelIdeal.Hand

-- the buffer contents of the core when the region is entered
variable (V : (c : Dev nD) → (b : Ref sig .tc) → Buf (Elt Ideal) ((c : Thread nD τ).loc b))

/-! ## The array the region leaves -/

/-- The gate of row r read off the five arrays a column uses: the decoded features, the projection weights, the
    projection bias as a row, the weight column, and the one-entry bias. -/
def gateArr (a1 : S65536x512.Idx → EReal) (a6 : S512x256.Idx → EReal) (a0 : S1x256.Idx → EReal)
    (w : S256x1.Idx → EReal) (b0 : S1x1.Idx → EReal) (r : Fin 65536) : EReal :=
  Cert.Spec.gate (fun r j => a1 (ix2 r j)) (fun j k => a6 (ix2 j k)) (fun k => a0 (ix2 (0 : Fin 1) k))
    (fun k => w (ix2 k (0 : Fin 1))) (b0 (ix2 (0 : Fin 1) (0 : Fin 1))) r

/-- The output array: column 0 the gates for the first weight column, column 1 those for the second. -/
def G (c : Dev nD) : S65536x2.Idx → EReal := fun i =>
  if (i 1).val = 0 then
    gateArr (V c main_arg1) (V c main_arg6) (V c main_v0) (V c main_arg8) (V c main_v1) ⟨(i 0).val, idx2_lt0 i⟩
  else
    gateArr (V c main_arg1) (V c main_arg6) (V c main_v0) (V c main_arg10) (V c main_v2) ⟨(i 0).val, idx2_lt0 i⟩

theorem G_col0 (c : Dev nD) (r : Fin 65536) :
    G V c (ix2 r (0 : Fin 2)) = gateArr (V c main_arg1) (V c main_arg6) (V c main_v0) (V c main_arg8) (V c main_v1) r := by
  unfold G; exact if_pos rfl
theorem G_col1 (c : Dev nD) (r : Fin 65536) :
    G V c (ix2 r (1 : Fin 2)) = gateArr (V c main_arg1) (V c main_arg6) (V c main_v0) (V c main_arg10) (V c main_v2) r := by
  unfold G; exact if_neg Nat.one_ne_zero

/-! ## The index maps over the grid -/

theorem hz : (![0, 0] : Fin 2 → Nat) = fun _ => 0 := funext fun a => by fin_cases a <;> rfl

/-- The printed index maps, decided over the 32 grid points: the feature window and the output window are at block
    row t, every parameter window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The array row that row p of block t is. -/
def rowOf (t : Fin cfg0.N) (p : Fin 2048) : Fin 65536 :=
  ⟨t.val * 2048 + p.val, by have h : t.val < 32 := lt_of_lt_of_eq t.isLt N_0; have := p.isLt; omega⟩

/-! ## Each window's block read where the point's index map says -/

theorem read_w0 (c : Dev nD) (t : Fin cfg0.N) (p : Fin 2048) (j : Fin 512) :
    iblk0 V c 0 t (ix2 p j) = V c main_arg1 (ix2 (rowOf t p) j) := by
  obtain ⟨e0, e1, -⟩ := idx_facts t
  show V c main_arg1 (((cfg0.win 0).blk t).view.emb (ix2 p j)) = V c main_arg1 (ix2 (rowOf t p) j)
  refine congrArg (V c main_arg1) ?_
  funext a; apply Fin.ext
  match a with
  | ⟨0, _⟩ => show win0_0.index t (0 : Fin 2) * 2048 + 1 * p.val = t.val * 2048 + p.val; omega
  | ⟨1, _⟩ => show win0_0.index t (1 : Fin 2) * 512 + 1 * j.val = j.val; omega

theorem read_w1 (c : Dev nD) (t : Fin cfg0.N) (j : Fin 512) (k : Fin 256) :
    iblk0 V c 1 t (ix2 j k) = V c main_arg6 (ix2 j k) := by
  obtain ⟨-, -, e0, e1, -⟩ := idx_facts t
  show V c main_arg6 (((cfg0.win 1).blk t).view.emb (ix2 j k)) = V c main_arg6 (ix2 j k)
  refine congrArg (V c main_arg6) ?_
  funext a; apply Fin.ext
  match a with
  | ⟨0, _⟩ => show win0_1.index t (0 : Fin 2) * 512 + 1 * j.val = j.val; omega
  | ⟨1, _⟩ => show win0_1.index t (1 : Fin 2) * 256 + 1 * k.val = k.val; omega

theorem read_w2 (c : Dev nD) (t : Fin cfg0.N) (u : Fin 1) (k : Fin 256) :
    iblk0 V c 2 t (ix2 u k) = V c main_v0 (ix2 u k) := by
  obtain ⟨-, -, -, -, e0, e1, -⟩ := idx_facts t
  show V c main_v0 (((cfg0.win 2).blk t).view.emb (ix2 u k)) = V c main_v0 (ix2 u k)
  refine congrArg (V c main_v0) ?_
  funext a; apply Fin.ext
  match a with
  | ⟨0, _⟩ => show win0_2.index t (0 : Fin 2) * 1 + 1 * u.val = u.val; omega
  | ⟨1, _⟩ => show win0_2.index t (1 : Fin 2) * 256 + 1 * k.val = k.val; omega

theorem read_w3 (c : Dev nD) (t : Fin cfg0.N) (k : Fin 256) (u : Fin 1) :
    iblk0 V c 3 t (ix2 k u) = V c main_arg8 (ix2 k u) := by
  obtain ⟨-, -, -, -, -, -, e0, e1, -⟩ := idx_facts t
  show V c main_arg8 (((cfg0.win 3).blk t).view.emb (ix2 k u)) = V c main_arg8 (ix2 k u)
  refine congrArg (V c main_arg8) ?_
  funext a; apply Fin.ext
  match a with
  | ⟨0, _⟩ => show win0_3.index t (0 : Fin 2) * 256 + 1 * k.val = k.val; omega
  | ⟨1, _⟩ => show win0_3.index t (1 : Fin 2) * 1 + 1 * u.val = u.val; omega

theorem read_w4 (c : Dev nD) (t : Fin cfg0.N) (u v : Fin 1) :
    iblk0 V c 4 t (ix2 u v) = V c main_v1 (ix2 u v) := by
  obtain ⟨-, -, -, -, -, -, -, -, e0, e1, -⟩ := idx_facts t
  show V c main_v1 (((cfg0.win 4).blk t).view.emb (ix2 u v)) = V c main_v1 (ix2 u v)
  refine congrArg (V c main_v1) ?_
  funext a; apply Fin.ext
  match a with
  | ⟨0, _⟩ => show win0_4.index t (0 : Fin 2) * 1 + 1 * u.val = u.val; omega
  | ⟨1, _⟩ => show win0_4.index t (1 : Fin 2) * 1 + 1 * v.val = v.val; omega

theorem read_w5 (c : Dev nD) (t : Fin cfg0.N) (k : Fin 256) (u : Fin 1) :
    iblk0 V c 5 t (ix2 k u) = V c main_arg10 (ix2 k u) := by
  obtain ⟨-, -, -, -, -, -, -, -, -, -, e0, e1, -⟩ := idx_facts t
  show V c main_arg10 (((cfg0.win 5).blk t).view.emb (ix2 k u)) = V c main_arg10 (ix2 k u)
  refine congrArg (V c main_arg10) ?_
  funext a; apply Fin.ext
  match a with
  | ⟨0, _⟩ => show win0_5.index t (0 : Fin 2) * 256 + 1 * k.val = k.val; omega
  | ⟨1, _⟩ => show win0_5.index t (1 : Fin 2) * 1 + 1 * u.val = u.val; omega

theorem read_w6 (c : Dev nD) (t : Fin cfg0.N) (u v : Fin 1) :
    iblk0 V c 6 t (ix2 u v) = V c main_v2 (ix2 u v) := by
  obtain ⟨-, -, -, -, -, -, -, -, -, -, -, -, e0, e1, -⟩ := idx_facts t
  show V c main_v2 (((cfg0.win 6).blk t).view.emb (ix2 u v)) = V c main_v2 (ix2 u v)
  refine congrArg (V c main_v2) ?_
  funext a; apply Fin.ext
  match a with
  | ⟨0, _⟩ => show win0_6.index t (0 : Fin 2) * 1 + 1 * u.val = u.val; omega
  | ⟨1, _⟩ => show win0_6.index t (1 : Fin 2) * 1 + 1 * v.val = v.val; omega

/-- Entry (p, q) of the output block at point t is entry (2048 t + p, q) of the output array. -/
theorem emb_w7 (t : Fin cfg0.N) (p : Fin 2048) (q : Fin 2) :
    ((cfg0.win 7).blk t).view.emb (ix2 p q) = (ix2 (rowOf t p) q : S65536x2.Idx) := by
  obtain ⟨-, -, -, -, -, -, -, -, -, -, -, -, -, -, e0, e1⟩ := idx_facts t
  funext a; apply Fin.ext
  match a with
  | ⟨0, _⟩ => show win0_7.index t (0 : Fin 2) * 2048 + 1 * p.val = t.val * 2048 + p.val; omega
  | ⟨1, _⟩ => show win0_7.index t (1 : Fin 2) * 2 + 1 * q.val = q.val; omega

/-! ## One row's number from the blocks is the gate of the array row -/

theorem gateBlk_first (c : Dev nD) (t : Fin cfg0.N) (p : Fin 2048) :
    gateBlk (iblk0 V c 0 t) (iblk0 V c 1 t) (iblk0 V c 2 t) (iblk0 V c 3 t) (iblk0 V c 4 t) p
      = gateArr (V c main_arg1) (V c main_arg6) (V c main_v0) (V c main_arg8) (V c main_v1) (rowOf t p) := by
  unfold gateBlk gateArr Cert.Spec.gate Cert.Spec.feat
  simp only [read_w0 V c t, read_w1 V c t, read_w2 V c t, read_w3 V c t, read_w4 V c t]

theorem gateBlk_second (c : Dev nD) (t : Fin cfg0.N) (p : Fin 2048) :
    gateBlk (iblk0 V c 0 t) (iblk0 V c 1 t) (iblk0 V c 2 t) (iblk0 V c 5 t) (iblk0 V c 6 t) p
      = gateArr (V c main_arg1) (V c main_arg6) (V c main_v0) (V c main_arg10) (V c main_v2) (rowOf t p) := by
  unfold gateBlk gateArr Cert.Spec.gate Cert.Spec.feat
  simp only [read_w0 V c t, read_w1 V c t, read_w2 V c t, read_w5 V c t, read_w6 V c t]

/-! ## What a point writes back -/

/-- What point t writes back is block t of the array G. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S2048x512) hz, View.ld_unit_zero (S := S512x256) hz, View.ld_unit_zero (S := S1x256) hz,
    View.ld_unit_zero (S := S256x1) hz, View.ld_unit_zero (S := S1x1) hz]
  funext y
  obtain ⟨p, q, rfl⟩ : ∃ (p : Fin 2048) (q : Fin 2), y = ix2 p q := ⟨y 0, y 1, eq_ix2 y⟩
  show k0_pay1 (F := Ideal) (iblk0 V c 0 t) (iblk0 V c 1 t) (iblk0 V c 2 t) (iblk0 V c 3 t) (iblk0 V c 5 t) (iblk0 V c 4 t) (iblk0 V c 6 t) (ix2 p q)
    = G V c (((cfg0.win 7).blk t).view.emb (ix2 p q))
  rw [emb_w7]
  match q with
  | ⟨0, _⟩ =>
    refine (pay_col0 (iblk0 V c 0 t) (iblk0 V c 1 t) (iblk0 V c 2 t) (iblk0 V c 3 t) (iblk0 V c 5 t) (iblk0 V c 4 t) (iblk0 V c 6 t) p).trans ?_
    exact (gateBlk_first V c t p).trans (G_col0 V c (rowOf t p)).symm
  | ⟨1, _⟩ =>
    refine (pay_col1 (iblk0 V c 0 t) (iblk0 V c 1 t) (iblk0 V c 2 t) (iblk0 V c 3 t) (iblk0 V c 5 t) (iblk0 V c 4 t) (iblk0 V c 6 t) p).trans ?_
    exact (gateBlk_second V c t p).trans (G_col1 V c (rowOf t p)).symm

/-! ## The cover -/

/-- An index of the output array is in point t's block iff each coordinate is in the block's range on its axis. -/
theorem mem_blk7 (t : Fin cfg0.N) (i : S65536x2.Idx) :
    i ∈ ((cfg0.win 7).blk t).view.set ↔ ∀ a : Fin 2, win0_7.index t a * S2048x2.size a ≤ (i a).val ∧ (i a).val < win0_7.index t a * S2048x2.size a + S2048x2.size a := by
  show i ∈ ((View.whole main_v3).slice (win0_7.rect t)).set ↔ _
  rw [View.set_slice_whole, Rect.mem_set_unit]
  exact Iff.rfl

/-- Row r lies in the block of point r / 2048, and every point writes its block back. -/
theorem cover7 (i : S65536x2.Idx) : ∃ t : Fin cfg0.N, (cfg0.win 7).flush t = true ∧ i ∈ ((cfg0.win 7).blk t).view.set := by
  have hi0 : (i 0).val < 65536 := (i 0).isLt
  have hi1 : (i 1).val < 2 := (i 1).isLt
  obtain ⟨t, ht⟩ : ∃ t : Fin cfg0.N, t.val = (i 0).val / 2048 :=
    ⟨⟨(i 0).val / 2048, lt_of_lt_of_eq (by omega : (i 0).val / 2048 < 32) N_0.symm⟩, rfl⟩
  obtain ⟨-, -, -, -, -, -, -, -, -, -, -, -, -, -, e0, e1⟩ := idx_facts t
  refine ⟨t, flush0_7 t, ?_⟩
  rw [mem_blk7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 2 ≤ (i 1).val ∧ (i 1).val < win0_7.index t (1 : Fin 2) * 2 + 2; omega

/-! ## The output array after the region -/

/-- After the region the output array is G. -/
theorem final_arr (c : Dev nD) : (dat0 V c).arrAt 7 cfg0.N = G V c :=
  (dat0 V c).arrAt_eq_of_cover 7 (G V c) (fun t _ => flushed_eq V c t) cover7

/-- After the region, entry (r, 0) of the output array is the gate of row r for the first weight column and bias,
    and entry (r, 1) the gate of row r for the second. -/
theorem final0 (c : Dev nD) (r : Fin 65536) :
    (dat0 (F := Ideal) V c).arrAt 7 cfg0.N (ix2 r (0 : Fin 2))
        = Cert.Spec.gate (fun r j => V c main_arg1 (ix2 r j)) (fun j k => V c main_arg6 (ix2 j k)) (fun k => V c main_v0 (ix2 (0 : Fin 1) k))
            (fun k => V c main_arg8 (ix2 k (0 : Fin 1))) (V c main_v1 (ix2 (0 : Fin 1) (0 : Fin 1))) r
    ∧ (dat0 (F := Ideal) V c).arrAt 7 cfg0.N (ix2 r (1 : Fin 2))
        = Cert.Spec.gate (fun r j => V c main_arg1 (ix2 r j)) (fun j k => V c main_arg6 (ix2 j k)) (fun k => V c main_v0 (ix2 (0 : Fin 1) k))
            (fun k => V c main_arg10 (ix2 k (0 : Fin 1))) (V c main_v2 (ix2 (0 : Fin 1) (0 : Fin 1))) r := by
  rw [final_arr]
  exact ⟨G_col0 V c r, G_col1 V c r⟩

end Cert.KernelIdeal.FeatValue

end
-- ==== Proof.BridgeFeat.lean ====
import proofs.«148446_j44409961840993_1_alg».proof.Proof.RunArgs
import proofs.«148446_j44409961840993_1_alg».proof.Proof.KernelHost
import proofs.«148446_j44409961840993_1_alg».proof.Proof.FeatValue
import proofs.«148446_j44409961840993_1_alg».proof.Proof.RefValue

noncomputable section

namespace Cert.KernelIdeal.Bridge

open Cert.KernelIdeal Cert.KernelIdeal.Gen Cert.KernelIdeal.Hand Cert.KernelIdeal.HostRead
open Idealize.ShloMosaic Idealize.ShloMosaic.TcCoe Idealize.SL.Sem Idealize.ShloMosaic.ValueIdx
open Cert.ReferenceIdeal.RefValue (tail ref_bond ref_clashw ref_corr col_ext pts_ext)
open Cert.ReferenceIdeal.Read (val_main_v131 val_main_v141 val_main_v113 val_main_v69 val_main_v120 val_main_v76)

variable (m : (ℓ : Loc nD τ sig) → Buf (Elt Ideal) ℓ) (ρ : Dev nD → PrngReg) (c : Dev nD)

/-!
# The two gate columns of the feature kernel are the reference's two gates

The feature kernel's output array holds, row by row, the two gates in its two columns; the host slices the columns
apart. Each column is, row by row, the logistic function of the projected feature row contracted with a weight column
plus a bias: the same number the reference computes from the same argument arrays.
-/

/-- What the feature kernel's region finds in the argument arrays: their launch contents. -/
theorem V1_arg (k : Fin 12) : V1 m ρ c (argRef k) = m ((c : Thread nD τ).loc (argRef k)) := W1_arg m ρ c k

/-- The projection's bias as a row, -/
theorem V1_v0 : V1 m ρ c main_v0 = shapeCast S1x256 (m ((c : Thread nD τ).loc main_arg7)) shapeCasts_S256_S1x256 :=
  host0_v0 (W0 m ρ c)
/-- and the two gates' biases as one-by-one arrays: the host's reshapes of the arguments. -/
theorem V1_v1 : V1 m ρ c main_v1 = shapeCast S1x1 (m ((c : Thread nD τ).loc main_arg9)) shapeCasts_S1_S1x1 :=
  host0_v1 (W0 m ρ c)
theorem V1_v2 : V1 m ρ c main_v2 = shapeCast S1x1 (m ((c : Thread nD τ).loc main_arg11)) shapeCasts_S1_S1x1 :=
  host0_v2 (W0 m ρ c)

/-- Column 0 of the feature kernel's output is the reference's bond gate. -/
theorem bond_col :
    extractStridedSlice S65536x1 ![0, 0] ((dat0 (V1 m ρ) c).arrAt 7 cfg0.N) slices_S65536x2_S65536x1_0_0
      = val_main_v131 (F := Ideal) (m ((c : Thread nD τ).loc main_arg1)) (m ((c : Thread nD τ).loc main_arg6))
          (m ((c : Thread nD τ).loc main_arg7)) (m ((c : Thread nD τ).loc main_arg8)) (m ((c : Thread nD τ).loc main_arg9)) := by
  refine col_ext _ _ fun r => ?_
  rw [slice0_apply, (Cert.KernelIdeal.FeatValue.final0 (V1 m ρ) c r).1, ref_bond]
  rw [show V1 m ρ c main_arg1 = m ((c : Thread nD τ).loc main_arg1) from V1_arg m ρ c 1,
    show V1 m ρ c main_arg6 = m ((c : Thread nD τ).loc main_arg6) from V1_arg m ρ c 6,
    show V1 m ρ c main_arg8 = m ((c : Thread nD τ).loc main_arg8) from V1_arg m ρ c 8, V1_v0, V1_v1]
  have hrow : ∀ k : Fin 256, shapeCast S1x256 (m ((c : Thread nD τ).loc main_arg7)) shapeCasts_S256_S1x256 (ix2 (0 : Fin 1) k)
      = m ((c : Thread nD τ).loc main_arg7) (ix1 k) := fun k => row_apply _ k
  have hone : shapeCast S1x1 (m ((c : Thread nD τ).loc main_arg9)) shapeCasts_S1_S1x1 (ix2 (0 : Fin 1) (0 : Fin 1))
      = m ((c : Thread nD τ).loc main_arg9) (ix1 0) := one_apply _
  simp only [hrow, hone]

/-- Column 1 of the feature kernel's output is the reference's clash gate. -/
theorem clashw_col :
    extractStridedSlice S65536x1 ![0, 1] ((dat0 (V1 m ρ) c).arrAt 7 cfg0.N) slices_S65536x2_S65536x1_0_1
      = val_main_v141 (F := Ideal) (m ((c : Thread nD τ).loc main_arg1)) (m ((c : Thread nD τ).loc main_arg6))
          (m ((c : Thread nD τ).loc main_arg7)) (m ((c : Thread nD τ).loc main_arg10)) (m ((c : Thread nD τ).loc main_arg11)) := by
  refine col_ext _ _ fun r => ?_
  rw [slice1_apply, (Cert.KernelIdeal.FeatValue.final0 (V1 m ρ) c r).2, ref_clashw]
  rw [show V1 m ρ c main_arg1 = m ((c : Thread nD τ).loc main_arg1) from V1_arg m ρ c 1,
    show V1 m ρ c main_arg6 = m ((c : Thread nD τ).loc main_arg6) from V1_arg m ρ c 6,
    show V1 m ρ c main_arg10 = m ((c : Thread nD τ).loc main_arg10) from V1_arg m ρ c 10, V1_v0, V1_v2]
  have hrow : ∀ k : Fin 256, shapeCast S1x256 (m ((c : Thread nD τ).loc main_arg7)) shapeCasts_S256_S1x256 (ix2 (0 : Fin 1) k)
      = m ((c : Thread nD τ).loc main_arg7) (ix1 k) := fun k => row_apply _ k
  have hone : shapeCast S1x1 (m ((c : Thread nD τ).loc main_arg11)) shapeCasts_S1_S1x1 (ix2 (0 : Fin 1) (0 : Fin 1))
      = m ((c : Thread nD τ).loc main_arg11) (ix1 0) := one_apply _
  simp only [hrow, hone]

end Cert.KernelIdeal.Bridge

end
-- ==== Proof.ClashPay.lean ====
/-
  The accumulation and output payloads of the pairwise kernel on the extended reals, read at one entry, over an
  arbitrary coefficient block: the running row sum gains the sum of the block's coefficients along the row, the
  running weighted sum gains the coefficient row contracted with the column block of points, and the output entry is
  the point's coordinate times its row sum minus its weighted sum. The two reset payloads are zero.
-/
import proofs.«148446_j44409961840993_1_alg».proof.Proof.Gen.KernelIdeal.Skeleton
import proofs.«148446_j44409961840993_1_alg».proof.Proof.LibLayerLaws
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ClashPay

open Idealize.ShloMosaic Idealize.ShloMosaic.ValueIdx
open Cert.KernelIdeal.Gen

/-! ## Layout operations of the body read at an entry -/

/-- A vector of 512 numbers laid out as a column reads, at (r, 0), its entry r. -/
theorem col_of_vec_apply {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column broadcast along three coordinates reads, at (r, a), the column's entry r. -/
theorem bcast_col3_apply {α : Type} (x : S512x1.Idx → α) (h : S512x1.Broadcasts S512x3) (r : Fin 512) (a : Fin 3) :
    broadcastTo S512x3 x h (ix2 r a) = x (ix2 r (0 : Fin 1)) := by
  refine broadcastTo_apply x h (ix2 r a) (ix2 r (0 : Fin 1)) fun ax => ?_
  match ax with
  | ⟨0, _⟩ => show r.val = if (512 : Nat) = 1 then 0 else r.val; rw [if_neg (by decide)]
  | ⟨1, _⟩ => rfl

/-- The sum along the second axis of a 512 by 512 block, at row r. -/
theorem rowsum512_apply (x : FVec Ideal S512x512 .f32) (r : Fin 512) :
    multiReduction .add [1] S512 x 0x00000000#32 reduces_S512x512_S512 (.inl rfl) rfl (ix1 r) = ∑ k : Fin 512, x (ix2 r k) := by
  refine (Ideal.multiReduction_add_single (a := (1 : Fin S512x512.rank)) x 0x00000000#32 reduces_S512x512_S512 (.inl rfl) rfl (ix1 r)).trans ?_
  refine Finset.sum_congr rfl fun k _ => congrArg x (funext fun ax => Fin.ext ?_)
  match ax with
  | ⟨0, _⟩ => rfl
  | ⟨1, _⟩ => rfl

/-! ## The product of the coefficient block with the column block of points -/

abbrev D3 : DotDims S512x512 S512x3 S512x3 := dot_S512x512_S512x3_S512x3_1_0_0_1_n_n

theorem D3_l0 (i : S512x3.Idx) (q : D3.contr.Idx) : (D3.lhsIdx i q 0).val = (i 0).val := by
  unfold DotDims.lhsIdx
  rw [dif_neg (show ¬(0 : Fin S512x512.rank) ∈ D3.lhsBatch by decide), dif_pos (show (0 : Fin S512x512.rank) ∈ D3.lhsNonContracting by decide)]
  rfl
theorem D3_l1 (i : S512x3.Idx) (q : D3.contr.Idx) : (D3.lhsIdx i q 1).val = (q ⟨0, by decide⟩).val :=
  D3.lhsIdx_val_of_single rfl i q
theorem D3_r0 (i : S512x3.Idx) (q : D3.contr.Idx) : (D3.rhsIdx i q 0).val = (q ⟨0, by decide⟩).val :=
  D3.rhsIdx_val_of_single rfl i q
theorem D3_r1 (i : S512x3.Idx) (q : D3.contr.Idx) : (D3.rhsIdx i q 1).val = (i 1).val := by
  unfold DotDims.rhsIdx
  rw [dif_neg (show ¬(1 : Fin S512x3.rank) ∈ D3.rhsBatch by decide), dif_pos (show (1 : Fin S512x3.rank) ∈ D3.rhsNonContracting by decide)]
  rfl

/-- The product into a zero accumulator at (r, a): the sum over the 512 contracted columns. -/
theorem mm3_apply (l : FVec Ideal S512x512 .f32) (x : FVec Ideal S512x3 .f32) (r : Fin 512) (a : Fin 3) :
    matmul D3 none l x (constant (F := Ideal) S512x3 .f32 0x00000000#32) (ix2 r a) = ∑ k : Fin 512, l (ix2 r k) * x (ix2 k a) := by
  show FloatOps.matmul D3 none l x (constant (F := Ideal) S512x3 .f32 0x00000000#32) (ix2 r a) = _
  rw [Ideal.matmul_constant_zero_apply]
  exact Cert.LayerLaws.sum_inner D3 rfl rfl D3_l0 D3_l1 D3_r0 D3_r1 l x r a

/-! ## The payloads of the accumulation and of the output at an entry -/

/-- The running row sum after one more block: what was there plus the sum of the block's coefficients along the row. -/
theorem pay2_apply (v26 : FVec Ideal S512x512 .f32) (v40 : IVec S512x512 1) (cst : Ideal .f32) (prev : Vec Ideal S512x1 .f32) (r : Fin 512) :
    k1_pay2 (F := Ideal) v26 v40 cst prev (ix2 r (0 : Fin 1)) = prev (ix2 r (0 : Fin 1)) + ∑ k : Fin 512, k1_pay1 (F := Ideal) v26 v40 cst (ix2 r k) := by
  unfold k1_pay2
  rw [shapeCast_self, addf_apply, col_of_vec_apply, rowsum512_apply]

/-- The running weighted point sum after one more block. -/
theorem pay3_apply (v6 : FVec Ideal S512x3 .f32) (v26 : FVec Ideal S512x512 .f32) (v40 : IVec S512x512 1) (cst : Ideal .f32) (prev : Vec Ideal S512x3 .f32) (r : Fin 512) (a : Fin 3) :
    k1_pay3 (F := Ideal) v6 v26 v40 cst prev (ix2 r a) = prev (ix2 r a) + ∑ k : Fin 512, k1_pay1 (F := Ideal) v26 v40 cst (ix2 r k) * v6 (ix2 k a) := by
  unfold k1_pay3
  rw [shapeCast_self, addf_apply, mm3_apply]

/-- The output entry: the point's coordinate times its row sum, minus its weighted sum. -/
theorem pay4_apply (v4 : FVec Ideal S512x3 .f32) (v63 : Vec Ideal S512x1 .f32) (v66 : Vec Ideal S512x3 .f32) (r : Fin 512) (a : Fin 3) :
    k1_pay4 (F := Ideal) v4 v63 v66 (ix2 r a) = v4 (ix2 r a) * v63 (ix2 r (0 : Fin 1)) - v66 (ix2 r a) := by
  unfold k1_pay4
  rw [subf_apply, mulf_apply, bcast_col3_apply]

/-- The two zero payloads. -/
theorem pay5_apply (j : S512x1.Idx) : k1_pay5 (F := Ideal) j = 0 := by
  unfold k1_pay5
  rw [shapeCast_self]
  exact Ideal.ofBits_zero_f32
theorem pay6_apply (j : S512x3.Idx) : k1_pay6 (F := Ideal) j = 0 := by
  unfold k1_pay6
  rw [shapeCast_self]
  exact Ideal.ofBits_zero_f32

/-- The two casts of a block to its own shape are the block. -/
theorem cast7_eq (b : Vec Ideal S512x3 .f32) : k1_pay7 (F := Ideal) b = b := by unfold k1_pay7; rw [shapeCast_self]
theorem cast8_eq (b : Vec Ideal S512x3 .f32) : k1_pay8 (F := Ideal) b = b := by unfold k1_pay8; rw [shapeCast_self]

end Cert.KernelIdeal.ClashPay

end
-- ==== Proof.LibBlockSum.lean ====
/-
  A sum over `a · b` (or `a · b · c`) consecutive positions, grouped into `a` runs of `b` (of `b` runs of `c`).

  In a commutative monoid, for `f` on `Fin n` with `n = a · b`,
      ∑ₖ f k = ∑ᵢ ∑ⱼ f (i · b + j),
  the positions `i · b + j` (`i < a`, `j < b`) being exactly the positions below `a · b`, each once; applied twice,
  for `n = a · b · c`,  ∑ₖ f k = ∑ᵢ ∑ₛ ∑ᵣ f ((i · b + s) · c + r).
-/
import Mathlib

namespace Idealize.ShloMosaic.BlockSum

theorem pos_lt {a b : ℕ} (i : Fin a) (j : Fin b) : i.val * b + j.val < a * b :=
  Nat.lt_of_lt_of_le (Nat.add_lt_add_left j.2 _) (by rw [← Nat.succ_mul]; exact Nat.mul_le_mul_right _ i.2)

/-- Two levels. -/
theorem sum_runs {M : Type*} [AddCommMonoid M] (a b n : ℕ) (h : a * b = n) (f : Fin n → M) :
    ∑ k, f k = ∑ i : Fin a, ∑ j : Fin b, f ⟨i.val * b + j.val, h ▸ pos_lt i j⟩ := by
  subst h
  rw [← (finProdFinEquiv (m := a) (n := b)).sum_comp, Fintype.sum_prod_type]
  refine Finset.sum_congr rfl fun i _ => Finset.sum_congr rfl fun j _ => congrArg f (Fin.ext ?_)
  simp only [finProdFinEquiv, Equiv.coe_fn_mk]
  rw [Nat.add_comm, Nat.mul_comm]

/-- Three levels. -/
theorem sum_runs3 {M : Type*} [AddCommMonoid M] (a b c n : ℕ) (h : a * b * c = n) (f : Fin n → M) :
    ∑ k, f k = ∑ i : Fin a, ∑ s : Fin b, ∑ r : Fin c,
      f ⟨(i.val * b + s.val) * c + r.val, h ▸ pos_lt (⟨i.val * b + s.val, pos_lt i s⟩ : Fin (a * b)) r⟩ := by
  rw [sum_runs (a * b) c n h f, sum_runs a b (a * b) rfl]

end Idealize.ShloMosaic.BlockSum
-- ==== Proof.ClashMath.lean ====
/-
  Sums over the 8192 points, taken sixteen blocks of 512 at a time.

  Position (j, k) of the blocked layout is the point 512 j + k. The sum of a function over all points is the sum over
  the sixteen blocks of the block sums, and the running total of the first n blocks obeys the recursion
  (first n + 1 blocks) = (first n blocks) + (block n), starting from 0 and ending, at n = 16, at the whole sum.
  Everything holds in any commutative additive monoid, the extended reals in particular, where addition is
  commutative and associative with no finiteness side condition.
-/
import Mathlib
import Idealize.ShloMosaic.PureOps.Ideal
import Idealize.ShloMosaic.Lib.ValueIdx
import proofs.«148446_j44409961840993_1_alg».proof.Proof.Spec
import proofs.«148446_j44409961840993_1_alg».proof.Proof.LibBlockSum

namespace Cert.ClashMath

open Idealize.ShloMosaic

/-- The point at place k of block j. -/
def pt (j : Fin 16) (k : Fin 512) : Fin 8192 :=
  ⟨j.val * 512 + k.val, by have := j.2; have := k.2; omega⟩

@[simp] theorem pt_val (j : Fin 16) (k : Fin 512) : (pt j k).val = j.val * 512 + k.val := rfl

/-- The same point written with the factors the other way round. -/
theorem pt_eq (j : Fin 16) (k : Fin 512) (h : 512 * j.val + k.val < 8192) :
    (⟨512 * j.val + k.val, h⟩ : Fin 8192) = pt j k := Fin.ext (by simp [Nat.mul_comm])

/-- Every point lies in exactly one block, at one place. -/
theorem pt_surj (q : Fin 8192) :
    q = pt ⟨q.val / 512, by have := q.2; omega⟩ ⟨q.val % 512, Nat.mod_lt _ (by norm_num)⟩ :=
  Fin.ext (by simp only [pt_val]; omega)

variable {M : Type*} [AddCommMonoid M]

/-- The sum of f over block j. -/
def block (f : Fin 8192 → M) (j : Fin 16) : M := ∑ k : Fin 512, f (pt j k)

/-- The sum over all points is the sum of the sixteen block sums. -/
theorem sum_blocks (f : Fin 8192 → M) : ∑ q, f q = ∑ j : Fin 16, block f j := by
  rw [BlockSum.sum_runs 16 512 8192 (by norm_num) f]
  rfl

/-- The sum of f over the first n blocks. -/
def upTo (f : Fin 8192 → M) (n : ℕ) : M := ∑ j : Fin 16, if j.val < n then block f j else 0

theorem upTo_zero (f : Fin 8192 → M) : upTo f 0 = 0 := by
  simp [upTo]

theorem upTo_succ (f : Fin 8192 → M) (n : ℕ) (h : n < 16) :
    upTo f (n + 1) = upTo f n + block f ⟨n, h⟩ := by
  unfold upTo
  have key : ∀ j : Fin 16, (if j.val < n + 1 then block f j else 0)
      = (if j.val < n then block f j else 0) + (if j = ⟨n, h⟩ then block f j else 0) := by
    intro j
    by_cases h1 : j.val < n
    · have h2 : j ≠ ⟨n, h⟩ := by
        intro e; rw [e] at h1; exact Nat.lt_irrefl _ h1
      rw [if_pos h1, if_pos (Nat.lt_succ_of_lt h1), if_neg h2, add_zero]
    · by_cases h2 : j = ⟨n, h⟩
      · subst h2
        rw [if_neg h1, if_pos (Nat.lt_succ_self _), if_pos rfl, zero_add]
      · have h3 : ¬ j.val < n + 1 := by
          intro h3; apply h2; apply Fin.ext; show j.val = n; omega
        rw [if_neg h1, if_neg h2, if_neg h3, add_zero]
  simp only [key, Finset.sum_add_distrib, Finset.sum_ite_eq', Finset.mem_univ, if_true]

theorem upTo_all (f : Fin 8192 → M) : upTo f 16 = ∑ q, f q := by
  rw [sum_blocks]
  unfold upTo
  exact Finset.sum_congr rfl fun j _ => if_pos j.2

/-- The sum of f over blocks 0 to n inclusive. -/
def through (f : Fin 8192 → M) (n : ℕ) : M := upTo f (n + 1)

theorem through_zero (f : Fin 8192 → M) : through f 0 = block f 0 := by
  unfold through
  rw [upTo_succ f 0 (by norm_num), upTo_zero, zero_add]
  rfl

theorem through_succ (f : Fin 8192 → M) (n : ℕ) (h : n + 1 < 16) :
    through f (n + 1) = through f n + block f ⟨n + 1, h⟩ :=
  upTo_succ f (n + 1) h

theorem through_last (f : Fin 8192 → M) : through f 15 = ∑ q, f q := upTo_all f

end Cert.ClashMath
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.ClashPayA.lean ====
/-
  The pairwise kernel's payloads read at one pair (r, k) of a block of rows and a block of columns.

  For two blocks b0, b1 of 512 points each:
    the distance block is sqrt (max (|b0 r|^2 + |b1 k|^2 - 2 <b0 r, b1 k>) tiny) + eps: the squared norms are row
      sums of products cast to a column (and, for the column block, transposed to a row) and broadcast, the inner
      products are the matrix product of b0 with the transpose of b1;
    the mask block is (distance < 1) and (row number differs from column number), the row number being 512 i0 + r
      and the column number 512 i1 + k as 32-bit words of numbers below 8192, so the words differ exactly when
      the numbers do;
    the coefficient block is (1 - d) / (d d) under the mask and zero elsewhere.
  When the blocks are rows 512 i0 + r and 512 i1 + k of the points, the coefficient is the specification's.
-/
import proofs.«148446_j44409961840993_1_alg».proof.Proof.Gen.KernelIdeal.Skeleton
import proofs.«148446_j44409961840993_1_alg».proof.Proof.Spec
import proofs.«148446_j44409961840993_1_alg».proof.Proof.ClashMath
import proofs.«148446_j44409961840993_1_alg».proof.Proof.LibRowLayout
import proofs.«148446_j44409961840993_1_alg».proof.Proof.LibLayerLaws
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ClashPay

open Cert.KernelIdeal Cert.KernelIdeal.Gen Idealize.ShloMosaic Idealize.SL.Sem
open Idealize.ShloMosaic.ValueIdx

/-! ## Words -/

/-- For one-bit words, a conjunction is 1 exactly when both are. -/
theorem and_one (c d : BitVec 1) : IntOp.andi c d = 1#1 ↔ c = 1#1 ∧ d = 1#1 := by
  revert c d; decide

/-- The word of 512 a + r, for a below 16 and r below 512, computed in 32-bit words. -/
theorem word_of (a r : ℕ) (ha : a < 16) (hr : r < 512) :
    IntOp.addi (Scalar.muli (BitVec.ofNat 32 a) 512#32) (BitVec.ofNat 32 r) = BitVec.ofNat 32 (a * 512 + r) := by
  show BitVec.ofNat 32 a * 512#32 + BitVec.ofNat 32 r = BitVec.ofNat 32 (a * 512 + r)
  apply BitVec.eq_of_toNat_eq
  simp only [BitVec.toNat_add, BitVec.toNat_mul, BitVec.toNat_ofNat, Nat.reducePow, Nat.reduceMod]
  omega

/-- Two numbers below 2^32 have different words exactly when they differ. -/
theorem word_ne (m n : ℕ) (hm : m < 8192) (hn : n < 8192) :
    IntOp.cmpi .ne (BitVec.ofNat 32 m) (BitVec.ofNat 32 n) = 1#1 ↔ m ≠ n := by
  show BitVec.ofBool (BitVec.ofNat 32 m != BitVec.ofNat 32 n) = 1#1 ↔ m ≠ n
  have hinj : BitVec.ofNat 32 m = BitVec.ofNat 32 n ↔ m = n := by
    constructor
    · intro e
      have e' := congrArg BitVec.toNat e
      rw [BitVec.toNat_ofNat, BitVec.toNat_ofNat, Nat.mod_eq_of_lt (lt_trans hm (by norm_num)),
        Nat.mod_eq_of_lt (lt_trans hn (by norm_num))] at e'
      exact e'
    · intro e; rw [e]
  by_cases h : m = n
  · subst h
    simp
  · have hne : BitVec.ofNat 32 m ≠ BitVec.ofNat 32 n := fun e => h (hinj.mp e)
    have hb : (BitVec.ofNat 32 m != BitVec.ofNat 32 n) = true := bne_iff_ne.mpr hne
    rw [hb]
    exact ⟨fun _ => h, fun _ => rfl⟩

/-! ## Layout pieces -/

/-- The identity cast of a block is the block. -/
theorem pay7_eq (v : Vec Ideal S512x3 .f32) : k1_pay7 (F := Ideal) v = v :=
  funext fun j => shapeCast_apply v shapeCasts_S512x3_S512x3 j j rfl

theorem pay8_eq (v : Vec Ideal S512x3 .f32) : k1_pay8 (F := Ideal) v = v :=
  funext fun j => shapeCast_apply v shapeCasts_S512x3_S512x3 j j rfl

/-- The squared norms of a block as a column, at (r, u). -/
theorem norms_apply (v : Vec Ideal S512x3 .f32) (r : Fin 512) (u : Fin 1) :
    shapeCast S512x1 (multiReduction (F := Ideal) .add [1] S512 (mulf v v) 0x00000000#32 reduces_S512x3_S512 (.inl rfl) rfl)
        shapeCasts_S512_S512x1 (ix2 r u)
      = ∑ a : Fin 3, v (ix2 r a) * v (ix2 r a) :=
  (Cert.RowLayout.shapeCast_a_a1_apply _ shapeCasts_S512_S512x1 r u).trans
    (Cert.RowLayout.multiReduction_add_row (mulf v v) 0x00000000#32 reduces_S512x3_S512 (.inl rfl) rfl r)

/-- The row block's squared norms broadcast along the columns. -/
theorem rowNorm_apply (v : Vec Ideal S512x3 .f32) (r k : Fin 512) :
    (broadcastTo S512x512 (shapeCast S512x1 (multiReduction (F := Ideal) .add [1] S512 (mulf v v) 0x00000000#32 reduces_S512x3_S512 (.inl rfl) rfl) shapeCasts_S512_S512x1) broadcasts_S512x1_S512x512) (ix2 r k) = ∑ a : Fin 3, v (ix2 r a) * v (ix2 r a) :=
  (Cert.RowLayout.broadcastTo_a1_ab_apply _ broadcasts_S512x1_S512x512 r k).trans (norms_apply v r 0)

/-- The column block's squared norms, transposed to a row and broadcast along the rows. -/
theorem colNorm_apply (v : Vec Ideal S512x3 .f32) (r k : Fin 512) :
    (broadcastTo S512x512 (transpose S1x512 [1, 0] (shapeCast S512x1 (multiReduction (F := Ideal) .add [1] S512 (mulf v v) 0x00000000#32 reduces_S512x3_S512 (.inl rfl) rfl) shapeCasts_S512_S512x1) transposes_S512x1_p1_0_S1x512) broadcasts_S1x512_S512x512) (ix2 r k) = ∑ a : Fin 3, v (ix2 k a) * v (ix2 k a) :=
  (broadcastTo_1b_ab_apply _ broadcasts_S1x512_S512x512 r k).trans
    ((transpose_ix2_apply _ transposes_S512x1_p1_0_S1x512 (0 : Fin 1) k).trans (norms_apply v k 0))

theorem dotL0 (j : S512x512.Idx) (q : dot_S512x3_S3x512_S512x512_1_0_0_1_n_n.contr.Idx) :
    (dot_S512x3_S3x512_S512x512_1_0_0_1_n_n.lhsIdx j q 0).val = (j 0).val := by
  unfold DotDims.lhsIdx
  rw [dif_neg (show ¬(0 : Fin S512x3.rank) ∈ dot_S512x3_S3x512_S512x512_1_0_0_1_n_n.lhsBatch by decide),
    dif_pos (show (0 : Fin S512x3.rank) ∈ dot_S512x3_S3x512_S512x512_1_0_0_1_n_n.lhsNonContracting by decide)]
  rfl

theorem dotR1 (j : S512x512.Idx) (q : dot_S512x3_S3x512_S512x512_1_0_0_1_n_n.contr.Idx) :
    (dot_S512x3_S3x512_S512x512_1_0_0_1_n_n.rhsIdx j q 1).val = (j 1).val := by
  unfold DotDims.rhsIdx
  rw [dif_neg (show ¬(1 : Fin S3x512.rank) ∈ dot_S512x3_S3x512_S512x512_1_0_0_1_n_n.rhsBatch by decide),
    dif_pos (show (1 : Fin S3x512.rank) ∈ dot_S512x3_S3x512_S512x512_1_0_0_1_n_n.rhsNonContracting by decide)]
  rfl

/-- The inner products: the row block times the transposed column block, at (r, k). -/
theorem cross_apply (b0 b1 : Vec Ideal S512x3 .f32) (r k : Fin 512) :
    (matmul (F := Ideal) (φ₁ := .f32) (φ₂ := .f32) dot_S512x3_S3x512_S512x512_1_0_0_1_n_n none b0 (transpose S3x512 [1, 0] b1 transposes_S512x3_p1_0_S3x512) (constant S512x512 .f32 0x00000000#32)) (ix2 r k) = ∑ a : Fin 3, b0 (ix2 r a) * b1 (ix2 k a) := by
  refine (Ideal.matmul_constant_zero_apply dot_S512x3_S3x512_S512x512_1_0_0_1_n_n none b0 _ (ix2 r k)).trans ?_
  refine (Cert.LayerLaws.sum_inner dot_S512x3_S3x512_S512x512_1_0_0_1_n_n rfl rfl dotL0
    (fun j q => dot_S512x3_S3x512_S512x512_1_0_0_1_n_n.lhsIdx_val_of_single rfl j q)
    (fun j q => dot_S512x3_S3x512_S512x512_1_0_0_1_n_n.rhsIdx_val_of_single rfl j q) dotR1 b0 _ r k).trans ?_
  exact Finset.sum_congr rfl fun a _ => by rw [transpose_ix2_apply]

/-! ## The distance block -/

/-- The regularised distance between row r of b0 and row k of b1. -/
def dBlk (b0 b1 : Vec Ideal S512x3 .f32) (r k : Fin 512) : EReal :=
  Ideal.sqrt (max ((∑ a : Fin 3, b0 (ix2 r a) * b0 (ix2 r a)) + (∑ a : Fin 3, b1 (ix2 k a) * b1 (ix2 k a))
    - Cert.Spec.two * ∑ a : Fin 3, b0 (ix2 r a) * b1 (ix2 k a)) Cert.Spec.tiny) + Cert.Spec.eps

theorem pay9_apply (b0 b1 : Vec Ideal S512x3 .f32) (r k : Fin 512) :
    k1_pay9 (F := Ideal) b0 b1 (ix2 r k) = dBlk b0 b1 r k := by
  unfold k1_pay9
  rw [pay7_eq, pay8_eq]
  show Ideal.sqrt (max ((broadcastTo S512x512 (shapeCast S512x1 (multiReduction (F := Ideal) .add [1] S512 (mulf b0 b0) 0x00000000#32 reduces_S512x3_S512 (.inl rfl) rfl) shapeCasts_S512_S512x1) broadcasts_S512x1_S512x512) (ix2 r k) + (broadcastTo S512x512 (transpose S1x512 [1, 0] (shapeCast S512x1 (multiReduction (F := Ideal) .add [1] S512 (mulf b1 b1) 0x00000000#32 reduces_S512x3_S512 (.inl rfl) rfl) shapeCasts_S512_S512x1) transposes_S512x1_p1_0_S1x512) broadcasts_S1x512_S512x512) (ix2 r k)
      - Ideal.ofBits .f32 0x40000000#32 * (matmul (F := Ideal) (φ₁ := .f32) (φ₂ := .f32) dot_S512x3_S3x512_S512x512_1_0_0_1_n_n none b0 (transpose S3x512 [1, 0] b1 transposes_S512x3_p1_0_S3x512) (constant S512x512 .f32 0x00000000#32)) (ix2 r k)) (Ideal.ofBits .f32 0x179ABE15#32))
    + Ideal.ofBits .f32 0x322BCC77#32 = _
  rw [rowNorm_apply, colNorm_apply, cross_apply]
  rfl

/-! ## The mask block -/

/-- Whether the pair (r, k) of blocks i0, i1 is a clash: closer than one, and two different points. -/
def clashBlk (i : grid1.Coords) (b0 b1 : Vec Ideal S512x3 .f32) (r k : Fin 512) : Prop :=
  Ideal.cmp .olt (dBlk b0 b1 r k) Cert.Spec.one = 1#1 ∧ (i 0).val * 512 + r.val ≠ (i 1).val * 512 + k.val

/-- The row number word at (r, k). -/
theorem rowWord_apply (i : grid1.Coords) (r k : Fin 512) :
    (broadcastTo S512x512 (addi (broadcast S512x1 (Scalar.muli (BitVec.ofNat 32 (i 0).val) 512#32)) (iota .tc S512x1 32 [0] iota_S512x1_d0_w32)) broadcasts_S512x1_S512x512) (ix2 r k) = BitVec.ofNat 32 ((i 0).val * 512 + r.val) := by
  refine (Cert.RowLayout.broadcastTo_a1_ab_apply _ broadcasts_S512x1_S512x512 r k).trans ?_
  show IntOp.addi (Scalar.muli (BitVec.ofNat 32 (i 0).val) 512#32) (iota .tc S512x1 32 [0] iota_S512x1_d0_w32 (ix2 r 0)) = _
  rw [iota_single_apply]
  exact word_of (i 0).val r.val (i 0).isLt r.isLt

/-- The column number word at (r, k). -/
theorem colWord_apply (i : grid1.Coords) (r k : Fin 512) :
    (broadcastTo S512x512 (addi (broadcast S1x512 (Scalar.muli (BitVec.ofNat 32 (i 1).val) 512#32)) (iota .tc S1x512 32 [1] iota_S1x512_d1_w32)) broadcasts_S1x512_S512x512) (ix2 r k) = BitVec.ofNat 32 ((i 1).val * 512 + k.val) := by
  refine (broadcastTo_1b_ab_apply _ broadcasts_S1x512_S512x512 r k).trans ?_
  show IntOp.addi (Scalar.muli (BitVec.ofNat 32 (i 1).val) 512#32) (iota .tc S1x512 32 [1] iota_S1x512_d1_w32 (ix2 0 k)) = _
  rw [iota_single_apply]
  exact word_of (i 1).val k.val (i 1).isLt k.isLt

theorem pay10_apply (i : grid1.Coords) (b0 b1 : Vec Ideal S512x3 .f32) (r k : Fin 512) :
    k1_pay10 (F := Ideal) i b0 b1 (ix2 r k) = 1#1 ↔ clashBlk i b0 b1 r k := by
  have hlt0 : (i 0).val < 16 := (i 0).isLt
  have hlt1 : (i 1).val < 16 := (i 1).isLt
  show IntOp.andi (Ideal.cmp .olt (k1_pay9 (F := Ideal) b0 b1 (ix2 r k)) (Ideal.ofBits .f32 0x3F800000#32))
      (IntOp.cmpi .ne ((broadcastTo S512x512 (addi (broadcast S512x1 (Scalar.muli (BitVec.ofNat 32 (i 0).val) 512#32)) (iota .tc S512x1 32 [0] iota_S512x1_d0_w32)) broadcasts_S512x1_S512x512) (ix2 r k)) ((broadcastTo S512x512 (addi (broadcast S1x512 (Scalar.muli (BitVec.ofNat 32 (i 1).val) 512#32)) (iota .tc S1x512 32 [1] iota_S1x512_d1_w32)) broadcasts_S1x512_S512x512) (ix2 r k))) = 1#1 ↔ _
  rw [pay9_apply, rowWord_apply, colWord_apply, and_one,
    word_ne _ _ (by have := r.isLt; omega) (by have := k.isLt; omega)]
  rfl

/-! ## The coefficient block -/

open Classical in
/-- The pair's coefficient. -/
def coefBlk (i : grid1.Coords) (b0 b1 : Vec Ideal S512x3 .f32) (r k : Fin 512) : EReal :=
  if clashBlk i b0 b1 r k then Ideal.div (Cert.Spec.one - dBlk b0 b1 r k) (dBlk b0 b1 r k * dBlk b0 b1 r k)
  else Cert.Spec.zero

theorem pay1_apply (i : grid1.Coords) (b0 b1 : Vec Ideal S512x3 .f32) (r k : Fin 512) :
    k1_pay1 (F := Ideal) (k1_pay9 b0 b1) (k1_pay10 i b0 b1) (Scalar.ofBits .f32 0x3F800000#32) (ix2 r k)
      = coefBlk i b0 b1 r k := by
  show Scalar.select (k1_pay10 (F := Ideal) i b0 b1 (ix2 r k))
      (Ideal.div (Ideal.ofBits .f32 0x3F800000#32 - k1_pay9 (F := Ideal) b0 b1 (ix2 r k))
        (k1_pay9 (F := Ideal) b0 b1 (ix2 r k) * k1_pay9 (F := Ideal) b0 b1 (ix2 r k)))
      (Ideal.ofBits .f32 0x00000000#32) = _
  rw [pay9_apply]
  unfold coefBlk
  by_cases h : clashBlk i b0 b1 r k
  · rw [if_pos h, (pay10_apply i b0 b1 r k).mpr h, select_one]
  · have hz : k1_pay10 (F := Ideal) i b0 b1 (ix2 r k) = 0#1 :=
      eq_zero_of_ne_one fun e => h ((pay10_apply i b0 b1 r k).mp e)
    rw [if_neg h, hz, select_zero]

/-! ## The link to the specification -/

/-- Block number i0 of the grid point, as a number below 16. -/
abbrev blk0 (i : grid1.Coords) : Fin 16 := ⟨(i 0).val, (i 0).isLt⟩
/-- Block number i1 of the grid point, as a number below 16. -/
abbrev blk1 (i : grid1.Coords) : Fin 16 := ⟨(i 1).val, (i 1).isLt⟩

theorem dBlk_spec (x : Fin 8192 → Fin 3 → EReal) (i : grid1.Coords) (b0 b1 : Vec Ideal S512x3 .f32)
    (h0 : ∀ (r : Fin 512) (a : Fin 3), b0 (ix2 r a) = x (Cert.ClashMath.pt (blk0 i) r) a)
    (h1 : ∀ (k : Fin 512) (a : Fin 3), b1 (ix2 k a) = x (Cert.ClashMath.pt (blk1 i) k) a) (r k : Fin 512) :
    dBlk b0 b1 r k = Cert.Spec.dist x (Cert.ClashMath.pt (blk0 i) r) (Cert.ClashMath.pt (blk1 i) k) := by
  unfold dBlk Cert.Spec.dist Cert.Spec.sqn Cert.Spec.inner
  simp only [h0, h1]

theorem coefBlk_spec (x : Fin 8192 → Fin 3 → EReal) (i : grid1.Coords) (b0 b1 : Vec Ideal S512x3 .f32)
    (h0 : ∀ (r : Fin 512) (a : Fin 3), b0 (ix2 r a) = x (Cert.ClashMath.pt (blk0 i) r) a)
    (h1 : ∀ (k : Fin 512) (a : Fin 3), b1 (ix2 k a) = x (Cert.ClashMath.pt (blk1 i) k) a) (r k : Fin 512) :
    coefBlk i b0 b1 r k = Cert.Spec.coef x (Cert.ClashMath.pt (blk0 i) r) (Cert.ClashMath.pt (blk1 i) k) := by
  have hd := dBlk_spec x i b0 b1 h0 h1 r k
  have hne : ((i 0).val * 512 + r.val ≠ (i 1).val * 512 + k.val)
      ↔ Cert.ClashMath.pt (blk0 i) r ≠ Cert.ClashMath.pt (blk1 i) k := by
    constructor
    · intro h e; exact h (congrArg Fin.val e)
    · intro h e; exact h (Fin.ext e)
  have hP : clashBlk i b0 b1 r k ↔ Cert.Spec.clash x (Cert.ClashMath.pt (blk0 i) r) (Cert.ClashMath.pt (blk1 i) k) := by
    unfold clashBlk Cert.Spec.clash
    rw [hd, hne]
  unfold coefBlk Cert.Spec.coef
  by_cases h : Cert.Spec.clash x (Cert.ClashMath.pt (blk0 i) r) (Cert.ClashMath.pt (blk1 i) k)
  · rw [if_pos h, if_pos (hP.mpr h), hd]
  · rw [if_neg h, if_neg (fun hc => h (hP.mp hc))]

end Cert.KernelIdeal.ClashPay

end
-- ==== Proof.ClashArr.lean ====
/- The pairwise region's output array from its output block at the write-back points.
   The grid is sixteen row blocks by sixteen column blocks; point t is row block t / 16, column block t % 16. The
   output block of row block i is rows 512 i .. 512 i + 511 of the output array, and it is written back only at the
   last column block (t % 16 = 15). So if at every such point the output buffer holds rows 512 (t / 16) ..
   512 (t / 16) + 511 of one array G, then after the region the output array is G: row p is covered by the one
   write-back point 16 (p / 512) + 15. -/
import proofs.«148446_j44409961840993_1_alg».proof.Proof.ClashBody
import proofs.«148446_j44409961840993_1_alg».proof.Proof.ClashMath
import Idealize.ShloMosaic.Lib.Pipeline.Value

set_option maxRecDepth 16384

noncomputable section

namespace Cert.KernelIdeal.ClashArr

open Idealize.ShloMosaic Idealize.ShloMosaic.TcCoe Idealize.ShloMosaic.ValueIdx
open Idealize.SL Idealize.SL.Sem
open Idealize.ShloMosaic.Pipeline (Dat Cfg Window)
open Cert.KernelIdeal.Gen Cert.KernelIdeal.Hand

-- the buffer contents of the core when the region is entered
variable (V : (c : Dev nD) → (b : Ref sig .tc) → Buf (Elt Ideal) ((c : Thread nD τ).loc b))

/-- The row block of grid point t. -/
def rowBlk (t : Fin cfg1.N) : Fin 16 :=
  ⟨t.val / 16, by have h : t.val < 256 := lt_of_lt_of_eq t.isLt N_1; omega⟩

theorem rowBlk_val (t : Fin cfg1.N) : (rowBlk t).val = t.val / 16 := rfl

/-- The output window's printed index map, decided over the 256 grid points: block row t / 16, block column 0. -/
theorem idx_facts2 : ∀ t : Fin cfg1.N,
    win1_2.index t (0 : Fin 2) = t.val / 16 ∧ win1_2.index t (1 : Fin 2) = 0 :=
  (by decide +kernel : ∀ t : Fin grid1.N, _)

/-- Entry (r, a) of the output block at point t is entry (512 (t / 16) + r, a) of the output array. -/
theorem emb_w2 (t : Fin cfg1.N) (r : Fin 512) (a : Fin 3) :
    ((cfg1.win 2).blk t).view.emb (ix2 r a) = (ix2 (Cert.ClashMath.pt (rowBlk t) r) a : S8192x3.Idx) := by
  obtain ⟨e0, e1⟩ := idx_facts2 t
  funext d; apply Fin.ext
  match d with
  | ⟨0, _⟩ => show win1_2.index t (0 : Fin 2) * 512 + 1 * r.val = t.val / 16 * 512 + r.val; omega
  | ⟨1, _⟩ => show win1_2.index t (1 : Fin 2) * 3 + 1 * a.val = a.val; omega

/-- What a write-back point writes back is its block of G, when its output buffer holds those rows of G. -/
theorem flushed_eq (c : Dev nD) (G : S8192x3.Idx → EReal) (t : Fin cfg1.N)
    (hG : ∀ (r : Fin 512) (a : Fin 3), outAt V c t (ix2 r a) = G (ix2 (Cert.ClashMath.pt (rowBlk t) r) a)) :
    (dat1 V c).flushed 2 t = ((cfg1.win 2).blk t).view.read (Elt Ideal) G := by
  show (cfg1.win 2).cut (grid1.coords t) ((dat1 V c).after 2 t) = _
  rw [after1_2]
  funext y
  obtain ⟨r, a, rfl⟩ : ∃ (r : Fin 512) (a : Fin 3), y = ix2 r a := ⟨y 0, y 1, eq_ix2 y⟩
  show outAt V c t (ix2 r a) = G (((cfg1.win 2).blk t).view.emb (ix2 r a))
  rw [emb_w2, hG r a]

/-- An index of the output array is in point t's block iff each coordinate is in the block's range on its axis. -/
theorem mem_blk2 (t : Fin cfg1.N) (i : S8192x3.Idx) :
    i ∈ ((cfg1.win 2).blk t).view.set ↔ ∀ a : Fin 2, win1_2.index t a * S512x3.size a ≤ (i a).val ∧ (i a).val < win1_2.index t a * S512x3.size a + S512x3.size a := by
  show i ∈ ((View.whole main_v79).slice (win1_2.rect t)).set ↔ _
  rw [View.set_slice_whole, Rect.mem_set_unit]
  exact Iff.rfl

/-- Row p lies in the block of the one write-back point 16 (p / 512) + 15. -/
theorem cover2 (i : S8192x3.Idx) : ∃ t : Fin cfg1.N, (cfg1.win 2).flush t = true ∧ i ∈ ((cfg1.win 2).blk t).view.set := by
  have hi0 : (i 0).val < 8192 := (i 0).isLt
  have hi1 : (i 1).val < 3 := (i 1).isLt
  obtain ⟨t, ht⟩ : ∃ t : Fin cfg1.N, t.val = 16 * ((i 0).val / 512) + 15 :=
    ⟨⟨16 * ((i 0).val / 512) + 15, lt_of_lt_of_eq (by omega : 16 * ((i 0).val / 512) + 15 < 256) N_1.symm⟩, rfl⟩
  obtain ⟨e0, e1⟩ := idx_facts2 t
  refine ⟨t, (flush1_2 t).mpr (by omega), ?_⟩
  rw [mem_blk2]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 3 ≤ (i 1).val ∧ (i 1).val < win1_2.index t (1 : Fin 2) * 3 + 3; omega

/-- After the region the output array is G, when at every write-back point (the last column block of a row block)
    the output buffer holds that row block's rows of G. -/
theorem final1_of_out (c : Dev nD) (G : S8192x3.Idx → EReal)
    (hG : ∀ t : Fin cfg1.N, t.val % 16 = 15 → ∀ (r : Fin 512) (a : Fin 3),
      outAt V c t (ix2 r a) = G (ix2 (Cert.ClashMath.pt (rowBlk t) r) a)) :
    (dat1 (F := Ideal) V c).arrAt 2 cfg1.N = G :=
  (dat1 V c).arrAt_eq_of_cover 2 G (fun t hf => flushed_eq V c G t (hG t ((flush1_2 t).mp hf))) cover2

end Cert.KernelIdeal.ClashArr

end
-- ==== Proof.ClashBlk.lean ====
/- The pairwise region's two input blocks at a grid point, read off the gathered points array.
   Point t is row block t / 16 and column block t % 16 of the sixteen by sixteen grid. The first input window follows
   the row block, the second the column block, both over the same array of 8192 points: entry (r, a) of the first
   block is coordinate a of point 512 (t / 16) + r, entry (k, a) of the second is coordinate a of point 512 (t % 16) + k. -/
import proofs.«148446_j44409961840993_1_alg».proof.Proof.ClashArr

set_option maxRecDepth 16384

noncomputable section

namespace Cert.KernelIdeal.ClashArr

open Idealize.ShloMosaic Idealize.ShloMosaic.TcCoe Idealize.ShloMosaic.ValueIdx
open Idealize.SL Idealize.SL.Sem
open Idealize.ShloMosaic.Pipeline (Dat Cfg Window)
open Cert.KernelIdeal.Gen Cert.KernelIdeal.Hand

-- the buffer contents of the core when the region is entered
variable (V : (c : Dev nD) → (b : Ref sig .tc) → Buf (Elt Ideal) ((c : Thread nD τ).loc b))

/-- The column block of grid point t. -/
def colBlk (t : Fin cfg1.N) : Fin 16 := ⟨t.val % 16, Nat.mod_lt _ (by decide)⟩

theorem colBlk_val (t : Fin cfg1.N) : (colBlk t).val = t.val % 16 := rfl

/-- The grid coordinates of point t, decided over the 256 points: row block t / 16, column block t % 16. -/
theorem coords_facts : ∀ t : Fin cfg1.N,
    ((grid1.coords t) 0).val = t.val / 16 ∧ ((grid1.coords t) 1).val = t.val % 16 :=
  (by decide +kernel : ∀ t : Fin grid1.N, _)

theorem coords0 (t : Fin cfg1.N) : ((grid1.coords t) 0).val = t.val / 16 := (coords_facts t).1
theorem coords1 (t : Fin cfg1.N) : ((grid1.coords t) 1).val = t.val % 16 := (coords_facts t).2

/-- The two input windows' printed index maps, decided over the 256 points: the first at block row t / 16, the second
    at block row t % 16, both at block column 0. -/
theorem idx_facts01 : ∀ t : Fin cfg1.N,
    win1_0.index t (0 : Fin 2) = t.val / 16 ∧ win1_0.index t (1 : Fin 2) = 0
    ∧ win1_1.index t (0 : Fin 2) = t.val % 16 ∧ win1_1.index t (1 : Fin 2) = 0 :=
  (by decide +kernel : ∀ t : Fin grid1.N, _)

/-- The first input block at point t: the points of row block t / 16. -/
theorem read1_0 (c : Dev nD) (t : Fin cfg1.N) (r : Fin 512) (a : Fin 3) :
    iblk1 V c 0 t (ix2 r a) = V c main_v78 (ix2 (Cert.ClashMath.pt (rowBlk t) r) a) := by
  obtain ⟨e0, e1, -⟩ := idx_facts01 t
  show V c main_v78 (((cfg1.win 0).blk t).view.emb (ix2 r a)) = V c main_v78 (ix2 (Cert.ClashMath.pt (rowBlk t) r) a)
  refine congrArg (V c main_v78) ?_
  funext d; apply Fin.ext
  match d with
  | ⟨0, _⟩ => show win1_0.index t (0 : Fin 2) * 512 + 1 * r.val = t.val / 16 * 512 + r.val; omega
  | ⟨1, _⟩ => show win1_0.index t (1 : Fin 2) * 3 + 1 * a.val = a.val; omega

/-- The second input block at point t: the points of column block t % 16. -/
theorem read1_1 (c : Dev nD) (t : Fin cfg1.N) (k : Fin 512) (a : Fin 3) :
    iblk1 V c 1 t (ix2 k a) = V c main_v78 (ix2 (Cert.ClashMath.pt (colBlk t) k) a) := by
  obtain ⟨-, -, e0, e1⟩ := idx_facts01 t
  show V c main_v78 (((cfg1.win 1).blk t).view.emb (ix2 k a)) = V c main_v78 (ix2 (Cert.ClashMath.pt (colBlk t) k) a)
  refine congrArg (V c main_v78) ?_
  funext d; apply Fin.ext
  match d with
  | ⟨0, _⟩ => show win1_1.index t (0 : Fin 2) * 512 + 1 * k.val = t.val % 16 * 512 + k.val; omega
  | ⟨1, _⟩ => show win1_1.index t (1 : Fin 2) * 3 + 1 * a.val = a.val; omega

end Cert.KernelIdeal.ClashArr

end
-- ==== Proof.ClashValue.lean ====
/-
  The value of the pairwise launch on the extended reals.
  Within a row block the grid walks the sixteen column blocks in order. After the column block j the first carried
  buffer holds, at row r, the sum of the pair coefficients of the row's point against all points of the column blocks
  0 to j, and the second holds the same sum weighted by those points' coordinates: both start from zero at the first
  column block and gain one block's sum at each later one. At the last column block the sums run over all points, and
  the output entry, the point's coordinate times the first sum minus the second, is the specified correction.
-/
import proofs.«148446_j44409961840993_1_alg».proof.Proof.ClashBody
import proofs.«148446_j44409961840993_1_alg».proof.Proof.ClashPay
import proofs.«148446_j44409961840993_1_alg».proof.Proof.ClashPayA
import proofs.«148446_j44409961840993_1_alg».proof.Proof.ClashMath
import proofs.«148446_j44409961840993_1_alg».proof.Proof.ClashArr
import proofs.«148446_j44409961840993_1_alg».proof.Proof.ClashBlk

set_option maxRecDepth 16384

noncomputable section

open scoped BigOperators

namespace Cert.KernelIdeal.ClashValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.ClashPay Cert.KernelIdeal.ClashArr
open Cert.ClashMath

variable (V : (c : Dev nD) → (b : Ref sig .tc) → Buf (Elt Ideal) ((c : Thread nD τ).loc b))

/-- The gathered points as the launch finds them, by coordinates. -/
def xOf (c : Dev nD) : Fin 8192 → Fin 3 → EReal := fun p a => V c main_v78 (ix2 p a)

/-- The coefficients of one row point against all points, and the same weighted by a coordinate. -/
def fRow (c : Dev nD) (p : Fin 8192) : Fin 8192 → EReal := fun q => Cert.Spec.coef (xOf V c) p q
def gRow (c : Dev nD) (p : Fin 8192) (a : Fin 3) : Fin 8192 → EReal := fun q => Cert.Spec.coef (xOf V c) p q * xOf V c q a

theorem blk0_eq (t : Fin cfg1.N) : blk0 (grid1.coords t) = rowBlk t := Fin.ext (coords0 t)
theorem blk1_eq (t : Fin cfg1.N) : blk1 (grid1.coords t) = colBlk t := Fin.ext (coords1 t)

/-- The coefficient block of a grid point at (r, k) is the specified coefficient of the two points it pairs. -/
theorem cf_apply (c : Dev nD) (t : Fin cfg1.N) (r k : Fin 512) :
    k1_pay1 (F := Ideal) (k1_pay9 (iblk1 V c 0 t) (iblk1 V c 1 t)) (k1_pay10 (grid1.coords t) (iblk1 V c 0 t) (iblk1 V c 1 t))
        (Scalar.ofBits .f32 0x3F800000#32) (ix2 r k)
      = Cert.Spec.coef (xOf V c) (pt (rowBlk t) r) (pt (colBlk t) k) := by
  rw [pay1_apply, coefBlk_spec (xOf V c) (grid1.coords t) (iblk1 V c 0 t) (iblk1 V c 1 t)
    (fun r a => by rw [blk0_eq]; exact read1_0 V c t r a) (fun k a => by rw [blk1_eq]; exact read1_1 V c t k a) r k, blk0_eq, blk1_eq]

/-- One step of the running row sum at row r: one more column block's sum. -/
theorem rowStep_apply (c : Dev nD) (t : Fin cfg1.N) (prev : Vec Ideal S512x1 .f32) (r : Fin 512) :
    rowStep (grid1.coords t) (iblk1 V c 0 t) (iblk1 V c 1 t) prev (ix2 r (0 : Fin 1))
      = prev (ix2 r (0 : Fin 1)) + block (fRow V c (pt (rowBlk t) r)) (colBlk t) := by
  unfold rowStep
  rw [pay2_apply]
  exact congrArg (_ + ·) (Finset.sum_congr rfl fun k _ => cf_apply V c t r k)

/-- One step of the running weighted sum at (r, a). -/
theorem accStep_apply (c : Dev nD) (t : Fin cfg1.N) (prev : Vec Ideal S512x3 .f32) (r : Fin 512) (a : Fin 3) :
    accStep (grid1.coords t) (iblk1 V c 0 t) (iblk1 V c 1 t) prev (ix2 r a)
      = prev (ix2 r a) + block (gRow V c (pt (rowBlk t) r) a) (colBlk t) := by
  unfold accStep
  rw [pay3_apply]
  refine congrArg (_ + ·) (Finset.sum_congr rfl fun k _ => ?_)
  rw [cf_apply, pay8_eq]
  exact congrArg (_ * ·) (read1_1 V c t k a)

/-- The first carried buffer after the point at position n, at row r: the row's coefficients summed over the column
    blocks up to the point's. -/
theorem rowsum_inv (c : Dev nD) (r : Fin 512) : ∀ (n : ℕ) (hn : n < cfg1.N),
    rowsumAt V c ⟨n, hn⟩ (ix2 r (0 : Fin 1)) = through (fRow V c (pt (rowBlk ⟨n, hn⟩) r)) (n % 16)
  | 0, hn => by
    rw [rowsumAt_first V c ⟨0, hn⟩ rfl, rowStep_apply, pay5_apply, zero_add]
    show block _ (colBlk ⟨0, hn⟩) = through _ 0
    rw [through_zero]
    rfl
  | n + 1, hn => by
    have hN : n + 1 < 256 := lt_of_lt_of_eq hn N_1
    by_cases h : (n + 1) % 16 = 0
    · rw [rowsumAt_first V c ⟨n + 1, hn⟩ h, rowStep_apply, pay5_apply, zero_add, h, through_zero]
      exact congrArg (block _) (Fin.ext h)
    · have hm : (n + 1) % 16 = n % 16 + 1 := by omega
      have hlt : n % 16 + 1 < 16 := by omega
      have hrow : rowBlk ⟨n + 1, hn⟩ = rowBlk ⟨n, Nat.lt_of_succ_lt hn⟩ := Fin.ext (by show (n + 1) / 16 = n / 16; omega)
      rw [rowsumAt_step V c ⟨n + 1, hn⟩ h, rowStep_apply]
      show rowsumAt V c ⟨n, _⟩ (ix2 r (0 : Fin 1)) + _ = _
      rw [rowsum_inv c r n (Nat.lt_of_succ_lt hn), hm, through_succ _ _ hlt, hrow]
      exact congrArg (_ + block _ ·) (Fin.ext hm)

/-- The second carried buffer likewise, at (r, a). -/
theorem acc_inv (c : Dev nD) (r : Fin 512) (a : Fin 3) : ∀ (n : ℕ) (hn : n < cfg1.N),
    accAt V c ⟨n, hn⟩ (ix2 r a) = through (gRow V c (pt (rowBlk ⟨n, hn⟩) r) a) (n % 16)
  | 0, hn => by
    rw [accAt_first V c ⟨0, hn⟩ rfl, accStep_apply, pay6_apply, zero_add]
    show block _ (colBlk ⟨0, hn⟩) = through _ 0
    rw [through_zero]
    rfl
  | n + 1, hn => by
    have hN : n + 1 < 256 := lt_of_lt_of_eq hn N_1
    by_cases h : (n + 1) % 16 = 0
    · rw [accAt_first V c ⟨n + 1, hn⟩ h, accStep_apply, pay6_apply, zero_add, h, through_zero]
      exact congrArg (block _) (Fin.ext h)
    · have hm : (n + 1) % 16 = n % 16 + 1 := by omega
      have hlt : n % 16 + 1 < 16 := by omega
      have hrow : rowBlk ⟨n + 1, hn⟩ = rowBlk ⟨n, Nat.lt_of_succ_lt hn⟩ := Fin.ext (by show (n + 1) / 16 = n / 16; omega)
      rw [accAt_step V c ⟨n + 1, hn⟩ h, accStep_apply]
      show accAt V c ⟨n, _⟩ (ix2 r a) + _ = _
      rw [acc_inv c r a n (Nat.lt_of_succ_lt hn), hm, through_succ _ _ hlt, hrow]
      exact congrArg (_ + block _ ·) (Fin.ext hm)

/-- At the last column block of a row block the output entry is the specified correction of the row's point. -/
theorem outAt_corr (c : Dev nD) (t : Fin cfg1.N) (h15 : t.val % 16 = 15) (r : Fin 512) (a : Fin 3) :
    outAt V c t (ix2 r a) = Cert.Spec.corr (xOf V c) (pt (rowBlk t) r) a := by
  unfold outAt outStep
  rw [pay4_apply, pay7_eq]
  have e1 : rowsumAt V c t (ix2 r (0 : Fin 1)) = ∑ q, fRow V c (pt (rowBlk t) r) q := by
    have h := rowsum_inv V c r t.val t.isLt
    rw [h15, through_last] at h
    exact h
  have e2 : accAt V c t (ix2 r a) = ∑ q, gRow V c (pt (rowBlk t) r) a q := by
    have h := acc_inv V c r a t.val t.isLt
    rw [h15, through_last] at h
    exact h
  rw [e1, e2, read1_0]
  rfl

/-- The whole result array: the specified correction at every point and coordinate. -/
def G (c : Dev nD) : S8192x3.Idx → EReal := fun i => Cert.Spec.corr (xOf V c) ⟨(i 0).val, idx2_lt0 i⟩ ⟨(i 1).val, idx2_lt1 i⟩

/-- The result array after the launch holds the specified correction. -/
theorem final1 (c : Dev nD) (p : Fin 8192) (a : Fin 3) :
    (dat1 (F := Ideal) V c).arrAt 2 cfg1.N (ix2 p a) = Cert.Spec.corr (fun p a => V c main_v78 (ix2 p a)) p a :=
  congrFun (final1_of_out V c (G V c) fun t h15 r a => outAt_corr V c t h15 r a) (ix2 p a)

end Cert.KernelIdeal.ClashValue

end
-- ==== Proof.BridgeCorr.lean ====
import proofs.«148446_j44409961840993_1_alg».proof.Proof.RunArgs
import proofs.«148446_j44409961840993_1_alg».proof.Proof.KernelHost
import proofs.«148446_j44409961840993_1_alg».proof.Proof.ClashValue
import proofs.«148446_j44409961840993_1_alg».proof.Proof.RefValue

noncomputable section

namespace Cert.KernelIdeal.Bridge

open Cert.KernelIdeal Cert.KernelIdeal.Gen Cert.KernelIdeal.Hand Cert.KernelIdeal.HostRead
open Idealize.ShloMosaic Idealize.ShloMosaic.TcCoe Idealize.SL.Sem Idealize.ShloMosaic.ValueIdx
open Cert.ReferenceIdeal.RefValue (tail ref_bond ref_clashw ref_corr col_ext pts_ext)
open Cert.ReferenceIdeal.Read (val_main_v131 val_main_v141 val_main_v113 val_main_v69 val_main_v120 val_main_v76)

variable (m : (ℓ : Loc nD τ sig) → Buf (Elt Ideal) ℓ) (ρ : Dev nD → PrngReg) (c : Dev nD)

/-!
# The pairwise kernel's output is the reference's correction

The pairwise kernel's region finds the gathered points in the shared array; its output array is then, point by point
and coordinate by coordinate, the correction the specification names, which is what the reference computes from the
same gathered points.
-/

/-- The gathered points the pairwise kernel's region finds: the host's gather of the positions at the generated
    indices, the same operations the reference applies to the same arguments. -/
theorem V3_xg : V3 m ρ c main_v78 = val_main_v76 (F := Ideal) (m ((c : Thread nD τ).loc main_arg2)) (m ((c : Thread nD τ).loc main_arg5)) := by
  refine (host1_xg (W2 m ρ c)).trans ?_
  rw [show W2 m ρ c (Proc.devRef .tc main_arg2) = m ((c : Thread nD τ).loc main_arg2) from W2_arg m ρ c 2,
    show W2 m ρ c (Proc.devRef .tc main_arg5) = m ((c : Thread nD τ).loc main_arg5) from W2_arg m ρ c 5]

/-- The pairwise kernel's output array is the reference's correction array. -/
theorem corr_eq : (dat1 (V3 m ρ) c).arrAt 2 cfg1.N = val_main_v113 (F := Ideal) (m ((c : Thread nD τ).loc main_arg2)) (m ((c : Thread nD τ).loc main_arg5)) := by
  refine pts_ext _ _ fun p a => ?_
  rw [Cert.KernelIdeal.ClashValue.final1 (V3 m ρ) c p a, ref_corr, V3_xg]

end Cert.KernelIdeal.Bridge

end
-- ==== Proof.KernelHostBond.lean ====
/-
  The bond correction computed between the kernels.

  The kernel program repeats, operation for operation, the reference's bond stage: the two edge rows, the gathers of the
  points and of the mask at both ends, the regularised edge length, the force, and the two scatter-adds. Both are the
  same expression of the points, the edges and the mask, the literal shapes and layout records of the two programs
  being the same.
-/
import proofs.«148446_j44409961840993_1_alg».proof.Proof.Gen.KernelIdeal.Launch
import proofs.«148446_j44409961840993_1_alg».proof.Proof.RefValue
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostRead

open Cert.KernelIdeal Cert.KernelIdeal.Gen Idealize.ShloMosaic Idealize.ShloMosaic.TcCoe Idealize.SL.Sem Idealize.ShloMosaic.StableHlo
open Idealize.ShloMosaic.ValueIdx

set_option maxRecDepth 16384 in
set_option maxHeartbeats 16000000 in
/-- The bond correction is the reference's bond stage of the points, the edges and the mask. -/
theorem host1_bond (W : Valuation τ sig (Elt Ideal)) :
    StableHlo.after (hostOps1 (F := Ideal)) W (Proc.devRef .tc main_v71)
      = Cert.ReferenceIdeal.Read.val_main_v69 (F := Ideal) (W (Proc.devRef .tc main_arg2)) (W (Proc.devRef .tc main_arg3))
          (W (Proc.devRef .tc main_arg4)) := by
  after_results_simp
  rfl

end Cert.KernelIdeal.HostRead

end
-- ==== Proof.Bridge.lean ====
import proofs.«148446_j44409961840993_1_alg».proof.Proof.BridgeFeat
import proofs.«148446_j44409961840993_1_alg».proof.Proof.BridgeCorr
import proofs.«148446_j44409961840993_1_alg».proof.Proof.KernelHostBond

noncomputable section

namespace Cert.KernelIdeal.Bridge

open Cert.KernelIdeal Cert.KernelIdeal.Gen Cert.KernelIdeal.Hand Cert.KernelIdeal.HostRead
open Idealize.ShloMosaic Idealize.ShloMosaic.TcCoe Idealize.SL.Sem Idealize.ShloMosaic.ValueIdx
open Cert.ReferenceIdeal.RefValue (tail ref_bond ref_clashw ref_corr col_ext pts_ext)
open Cert.ReferenceIdeal.Read (val_main_v131 val_main_v141 val_main_v113 val_main_v69 val_main_v120 val_main_v76)

variable (m : (ℓ : Loc nD τ sig) → Buf (Elt Ideal) ℓ) (ρ : Dev nD → PrngReg) (c : Dev nD)

/-!
# The kernel program's result is the reference's result

The last host stretch combines five arrays: the velocities, the two gates, the bond corrections and the scattered
pairwise corrections. The velocities are an argument; the gates are the feature kernel's two columns; the bond
corrections are the same host operations of the same arguments as the reference's; the pairwise corrections are the
pairwise kernel's output scattered at the same indices. Each is the reference's array, so the combination is.
-/

/-- The bond gate as the last stretch finds it. -/
theorem W4_v4 : W4 m ρ c (Proc.devRef .tc main_v4)
    = val_main_v131 (F := Ideal) (m ((c : Thread nD τ).loc main_arg1)) (m ((c : Thread nD τ).loc main_arg6)) (m ((c : Thread nD τ).loc main_arg7)) (m ((c : Thread nD τ).loc main_arg8)) (m ((c : Thread nD τ).loc main_arg9)) := by
  have hv3 : W2 m ρ c (Proc.devRef .tc main_v3) = (dat0 (V1 m ρ) c).arrAt 7 cfg0.N := W2_arr m ρ c 7
  refine (W4_of_ne m ρ c main_v4 (by decide)).trans ((host1_v4 (W2 m ρ c)).trans ?_)
  rw [hv3]
  exact bond_col m ρ c

/-- The clash gate as the last stretch finds it. -/
theorem W4_v5 : W4 m ρ c (Proc.devRef .tc main_v5)
    = val_main_v141 (F := Ideal) (m ((c : Thread nD τ).loc main_arg1)) (m ((c : Thread nD τ).loc main_arg6)) (m ((c : Thread nD τ).loc main_arg7)) (m ((c : Thread nD τ).loc main_arg10)) (m ((c : Thread nD τ).loc main_arg11)) := by
  have hv3 : W2 m ρ c (Proc.devRef .tc main_v3) = (dat0 (V1 m ρ) c).arrAt 7 cfg0.N := W2_arr m ρ c 7
  refine (W4_of_ne m ρ c main_v5 (by decide)).trans ((host1_v5 (W2 m ρ c)).trans ?_)
  rw [hv3]
  exact clashw_col m ρ c

/-- The bond corrections as the last stretch finds them: the reference's. -/
theorem W4_v71 : W4 m ρ c (Proc.devRef .tc main_v71)
    = val_main_v69 (F := Ideal) (m ((c : Thread nD τ).loc main_arg2)) (m ((c : Thread nD τ).loc main_arg3)) (m ((c : Thread nD τ).loc main_arg4)) := by
  refine (W4_of_ne m ρ c main_v71 (by decide)).trans ((host1_bond (W2 m ρ c)).trans ?_)
  rw [show W2 m ρ c (Proc.devRef .tc main_arg2) = m ((c : Thread nD τ).loc main_arg2) from W2_arg m ρ c 2,
    show W2 m ρ c (Proc.devRef .tc main_arg3) = m ((c : Thread nD τ).loc main_arg3) from W2_arg m ρ c 3,
    show W2 m ρ c (Proc.devRef .tc main_arg4) = m ((c : Thread nD τ).loc main_arg4) from W2_arg m ρ c 4]

/-- The kernel program's result array is the reference's combination of the reference's five arrays. -/
theorem kernel_value : W5 m ρ c (Proc.devRef .tc main_v97)
    = tail (m ((c : Thread nD τ).loc main_arg0))
        (val_main_v131 (F := Ideal) (m ((c : Thread nD τ).loc main_arg1)) (m ((c : Thread nD τ).loc main_arg6)) (m ((c : Thread nD τ).loc main_arg7)) (m ((c : Thread nD τ).loc main_arg8)) (m ((c : Thread nD τ).loc main_arg9)))
        (val_main_v69 (F := Ideal) (m ((c : Thread nD τ).loc main_arg2)) (m ((c : Thread nD τ).loc main_arg3)) (m ((c : Thread nD τ).loc main_arg4)))
        (val_main_v141 (F := Ideal) (m ((c : Thread nD τ).loc main_arg1)) (m ((c : Thread nD τ).loc main_arg6)) (m ((c : Thread nD τ).loc main_arg7)) (m ((c : Thread nD τ).loc main_arg10)) (m ((c : Thread nD τ).loc main_arg11)))
        (val_main_v113 (F := Ideal) (m ((c : Thread nD τ).loc main_arg2)) (m ((c : Thread nD τ).loc main_arg5)))
        (val_main_v120 (F := Ideal) (m ((c : Thread nD τ).loc main_arg5))) := by
  refine (host2_result (W4 m ρ c)).trans ?_
  rw [W4_v4, W4_v5, W4_v71, W4_out, corr_eq,
    show W4 m ρ c (Proc.devRef .tc main_arg0) = m ((c : Thread nD τ).loc main_arg0) from W4_arg m ρ c 0,
    show W4 m ρ c (Proc.devRef .tc main_arg5) = m ((c : Thread nD τ).loc main_arg5) from W4_arg m ρ c 5]

end Cert.KernelIdeal.Bridge

end
-- ==== Proof.lean ====
/-
  The certificate of the velocity-correction program against its reference.

  The program corrects raw velocities by two terms: bond-length corrections, scattered over the edges on the host, and
  clash corrections between the generated atoms, each weighted per atom by a gate. Two kernels carry the heavy parts.
  The feature kernel projects each row of the decoded features, contracts the projection with two weight columns and
  applies the logistic function: the two gates, one row block of 2048 atoms per grid point. The pairwise kernel walks
  the 16 x 16 blocks of the pairwise coefficient matrix of the 8192 generated atoms; for a row block it accumulates, over
  the 16 column blocks, the row sums of the coefficients and the product of the coefficients with the points, in two
  buffers it keeps between grid points, and at the last column block writes the corrections of the row block.

  On the extended reals the accumulated sums are the whole sums (addition is commutative and associative there), a
  change of float format is the identity, and the kernels' products into a zero accumulator are the host's
  contractions: so the two gates and the corrections are, index by index, the numbers the reference computes, and the
  host operations around them are the reference's own, applied to equal arrays.

  The frames: the program is five stretches (host, region, host, region, host); the buffers' contents are followed
  through them, every stretch terminates without a fault, and no stretch writes an argument array.
-/
import proofs.«148446_j44409961840993_1_alg».proof.Defs
import proofs.«148446_j44409961840993_1_alg».proof.Proof.Gen.Kernel
import proofs.«148446_j44409961840993_1_alg».proof.Proof.Gen.KernelIdeal
import proofs.«148446_j44409961840993_1_alg».proof.Proof.Gen.ReferenceIdeal
import proofs.«148446_j44409961840993_1_alg».proof.Proof.Gen.Pre_finite_inputs
import proofs.«148446_j44409961840993_1_alg».proof.Proof.Gen.ReferenceIdeal.Run
import proofs.«148446_j44409961840993_1_alg».proof.Proof.Gen.ReferenceIdeal.Read
import proofs.«148446_j44409961840993_1_alg».proof.Proof.RunArgs
import proofs.«148446_j44409961840993_1_alg».proof.Proof.RunArgsBits
import proofs.«148446_j44409961840993_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does the idealized program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the same result array: the kernel
    program's is the reference's combination of the reference's five arrays of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W5 m ρ c (Proc.devRef .tc Cert.KernelIdeal.main_v97),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.RefValue.ref_result m' c, h0, h1, h2, h3, h4, h5, h6, h7, h8, h9, h10, h11]
  exact (Cert.KernelIdeal.Bridge.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
